-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v56) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v72) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x1600000 32) (main_arg2 : FVec F S64x64 .f32) (main_arg3 : FVec F S64 .f32) (main_arg4 : FVec F S64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64 .f32 := Host.absf main_arg4
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg5 main_v13 main_v16
-- ==== Kernel.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S5000x64 : Shape := ⟨2, ![5000, 64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 79
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000x64, .f32⟩
  | .hbm, ⟨7, _⟩ => ⟨S100000, .i32⟩
  | .hbm, ⟨8, _⟩ => ⟨S1x1600000, .i32⟩
  | .hbm, ⟨9, _⟩ => ⟨S1600000, .i32⟩
  | .hbm, ⟨10, _⟩ => ⟨S1700000, .i32⟩
  | .hbm, ⟨11, _⟩ => ⟨S1x1600000, .i32⟩
  | .hbm, ⟨12, _⟩ => ⟨S1600000, .i32⟩
  | .hbm, ⟨13, _⟩ => ⟨S1700000, .i32⟩
  | .hbm, ⟨14, _⟩ => ⟨S_, .f32⟩
  | .hbm, ⟨15, _⟩ => ⟨S1700000, .f32⟩
  | .hbm, ⟨16, _⟩ => ⟨S_, .f32⟩
  | .hbm, ⟨17, _⟩ => ⟨S100000, .f32⟩
  | .hbm, ⟨18, _⟩ => ⟨S1700000x1, .i32⟩
  | .hbm, ⟨19, _⟩ => ⟨S100000, .f32⟩
  | .hbm, ⟨20, _⟩ => ⟨S_, .f32⟩
  | .hbm, ⟨21, _⟩ => ⟨S100000, .f32⟩
  | .hbm, ⟨22, _⟩ => ⟨S100000, .i1⟩
  | .hbm, ⟨23, _⟩ => ⟨S100000, .f32⟩
  | .hbm, ⟨24, _⟩ => ⟨S_, .f32⟩
  | .hbm, ⟨25, _⟩ => ⟨S_, .f32⟩
  | .hbm, ⟨26, _⟩ => ⟨S100000, .f32⟩
  | .hbm, ⟨27, _⟩ => ⟨S100000, .f32⟩
  | .hbm, ⟨28, _⟩ => ⟨S_, .i32⟩
  | .hbm, ⟨29, _⟩ => ⟨S1700000, .i32⟩
  | .hbm, ⟨30, _⟩ => ⟨S1700000, .i1⟩
  | .hbm, ⟨31, _⟩ => ⟨S_, .i32⟩
  | .hbm, ⟨32, _⟩ => ⟨S1700000, .i32⟩
  | .hbm, ⟨33, _⟩ => ⟨S1700000, .i32⟩
  | .hbm, ⟨34, _⟩ => ⟨S1700000, .i32⟩
  | .hbm, ⟨35, _⟩ => ⟨S1700000x1, .i32⟩
  | .hbm, ⟨36, _⟩ => ⟨S1700000, .f32⟩
  | .hbm, ⟨37, _⟩ => ⟨S_, .i32⟩
  | .hbm, ⟨38, _⟩ => ⟨S1700000, .i32⟩
  | .hbm, ⟨39, _⟩ => ⟨S1700000, .i1⟩
  | .hbm, ⟨40, _⟩ => ⟨S_, .i32⟩
  | .hbm, ⟨41, _⟩ => ⟨S1700000, .i32⟩
  | .hbm, ⟨42, _⟩ => ⟨S1700000, .i32⟩
  | .hbm, ⟨43, _⟩ => ⟨S1700000, .i32⟩
  | .hbm, ⟨44, _⟩ => ⟨S1700000x1, .i32⟩
  | .hbm, ⟨45, _⟩ => ⟨S1700000, .f32⟩
  | .hbm, ⟨46, _⟩ => ⟨S1700000, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S1x64, .f32⟩
  | .hbm, ⟨67, _⟩ => ⟨S1x64, .f32⟩
  | .hbm, ⟨68, _⟩ => ⟨S_, .f32⟩
  | .hbm, ⟨69, _⟩ => ⟨S1x64, .f32⟩
  | .hbm, ⟨70, _⟩ => ⟨S1x64, .f32⟩
  | .hbm, ⟨71, _⟩ => ⟨S_, .f32⟩
  | .hbm, ⟨72, _⟩ => ⟨S1x64, .f32⟩
  | .hbm, ⟨73, _⟩ => ⟨S1x64, .f32⟩
  | .hbm, ⟨74, _⟩ => ⟨S1x64, .f32⟩
  | .hbm, ⟨75, _⟩ => ⟨S1x64, .f32⟩
  | .hbm, ⟨76, _⟩ => ⟨S1x64, .f32⟩
  | .hbm, ⟨77, _⟩ => ⟨S1x64, .f32⟩
  | .hbm, ⟨78, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S5000x64, .f32⟩
  | .local _ .vmem, ⟨12, _⟩ => ⟨S5000x64, .f32⟩
  | .local _ .vmem, ⟨13, _⟩ => ⟨S1x64, .f32⟩
  | .local _ .vmem, ⟨14, _⟩ => ⟨S1x64, .f32⟩
  | .local _ .vmem, ⟨15, _⟩ => ⟨S1x64, .f32⟩
  | .local _ .vmem, ⟨16, _⟩ => ⟨S1x64, .f32⟩
  | .local _ .vmem, ⟨17, _⟩ => ⟨S5000x64, .f32⟩
  | .local _ .vmem, ⟨18, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47_0 : Ref sig .tc := ⟨.hbm, 66, rfl⟩
abbrev main_v47_1 : Ref sig .tc := ⟨.hbm, 67, rfl⟩
abbrev main_cst_9 : Ref sig .tc := ⟨.hbm, 68, rfl⟩
abbrev main_v48 : Ref sig .tc := ⟨.hbm, 69, rfl⟩
abbrev main_v49 : Ref sig .tc := ⟨.hbm, 70, rfl⟩
abbrev main_cst_10 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_scratch0 : Ref sig .tc := ⟨.vmem, 9, rfl⟩
abbrev cc1_scratch1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg4_0 : Ref sig .tc := ⟨.vmem, 16, rfl⟩
abbrev cc2_stg5_0 : Ref sig .tc := ⟨.vmem, 17, rfl⟩
abbrev cc2_stg5_1 : Ref sig .tc := ⟨.vmem, 18, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc2_sem0_0 : DmaSem sig := 9
abbrev cc2_sem0_1 : DmaSem sig := 10
abbrev cc2_sem1_0 : DmaSem sig := 11
abbrev cc2_sem2_0 : DmaSem sig := 12
abbrev cc2_sem3_0 : DmaSem sig := 13
abbrev cc2_sem4_0 : DmaSem sig := 14
abbrev cc2_sem5_0 : DmaSem sig := 15
abbrev cc2_sem5_1 : DmaSem sig := 16

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def k1_cond2 (i : grid1.Coords) : BitVec 1 :=
  let arg0 : BitVec 32 := BitVec.ofNat 32 (i 0).val
  let c19_i32 : BitVec 32 := 19#32
  let v20 : BitVec 1 := Scalar.cmpi .eq arg0 c19_i32
  let v21 : BitVec 32 := Scalar.extui v20
  let c0_i32_11 : BitVec 32 := 0#32
  let v22 : BitVec 1 := Scalar.cmpi .ne v21 c0_i32_11
  v22

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S1x64 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S5000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  inb_S1x64_S1x64_0_0 : ∀ a, (![0, 0] : Fin 2 → Nat) a + S1x64.size a ≤ S1x64.size a
  h_S1x64 : 0 < S1x64.numel
  shapeCasts_S1x64_S1x64 : S1x64.ShapeCasts S1x64
  shapeCasts_S5000x64_S5000x64 : S5000x64.ShapeCasts S5000x64
  reduces_S5000x64_S64 : S5000x64.Reduces [0] S64
  shapeCasts_S64_S1x64 : S64.ShapeCasts S1x64
  bcast_S_S1x64 : S_.BroadcastsInDim S1x64 (![] : Fin 0 → Fin S1x64.rank)
  broadcasts_S1x64_S5000x64 : S1x64.Broadcasts S5000x64
  dot_S5000x64_S64x64_S5000x64_1_0_0_1_n_n_wf : DotDims.WF S5000x64 S64x64 S5000x64 [1] [0] [0] [1] [] []
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x64.size a ≤ S1x64.size a
  hwx1_2 : ∀ i : grid1.Coords, EltTy.bits .f32 = 32 ∨ (Rect.block (s := S1x64) S1x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x64.size a ≤ S1x64.size a
  hwx2_2 : ∀ i : grid2.Coords, EltTy.bits .f32 = 32 ∨ (Rect.block (s := S1x64) S1x64.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x64.size a ≤ S1x64.size a
  hwx2_4 : ∀ i : grid2.Coords, EltTy.bits .f32 = 32 ∨ (Rect.block (s := S1x64) S1x64.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S5000x64.size a ≤ S100000x64.size a
  hwx2_5 : ∀ i : grid2.Coords, EltTy.bits .f32 = 32 ∨ (Rect.block (s := S100000x64) S5000x64.size (cc2_transform_5 i) (hinb2_5 i)).WholeWords (EltTy.packing .f32)

variable [Facts₀]

def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v46) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v47_0) S1x64.size cc1_transform_1 reads1_1 true true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47_1) S1x64.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev idle1 : Fin 3 → grid1.Coords → Bool := fun | 0 => fun _ => false | 1 => fun i => !(k1_cond2 i == 1#1) | 2 => fun i => !(k1_cond2 i == 1#1) | ⟨_ + 3, h⟩ => absurd h (Nat.not_lt.2 (Nat.le_add_left _ _))

abbrev win2_0 : Pipeline.Window sig grid2 :=
  Pipeline.Window.ofSpec (Memref.whole main_v46) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v49) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v53) S1x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v54) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v55) S1x64.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v56) S5000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S100000x64 : Shape := ⟨2, ![100000, 64]⟩
abbrev S2x1600000 : Shape := ⟨2, ![2, 1600000]⟩
abbrev S64x64 : Shape := ⟨2, ![64, 64]⟩
abbrev S64 : Shape := ⟨1, ![64]⟩
abbrev S100000 : Shape := ⟨1, ![100000]⟩
abbrev S1x1600000 : Shape := ⟨2, ![1, 1600000]⟩
abbrev S1600000 : Shape := ⟨1, ![1600000]⟩
abbrev S1700000 : Shape := ⟨1, ![1700000]⟩
abbrev S_ : Shape := ⟨0, ![]⟩
abbrev S1700000x1 : Shape := ⟨2, ![1700000, 1]⟩
abbrev S1700000x64 : Shape := ⟨2, ![1700000, 64]⟩
abbrev S1x64 : Shape := ⟨2, ![1, 64]⟩

abbrev nBuf : Space → Nat
  | .hbm => 99
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x1600000, .i32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S100000, .i32⟩
  | .hbm, ⟨7, _⟩ => ⟨S1x1600000, .i32⟩
  | .hbm, ⟨8, _⟩ => ⟨S1600000, .i32⟩
  | .hbm, ⟨9, _⟩ => ⟨S1700000, .i32⟩
  | .hbm, ⟨10, _⟩ => ⟨S1x1600000, .i32⟩
  | .hbm, ⟨11, _⟩ => ⟨S1600000, .i32⟩
  | .hbm, ⟨12, _⟩ => ⟨S1700000, .i32⟩
  | .hbm, ⟨13, _⟩ => ⟨S_, .f32⟩
  | .hbm, ⟨14, _⟩ => ⟨S1700000, .f32⟩
  | .hbm, ⟨15, _⟩ => ⟨S_, .f32⟩
  | .hbm, ⟨16, _⟩ => ⟨S100000, .f32⟩
  | .hbm, ⟨17, _⟩ => ⟨S1700000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S1700000, .i32⟩
  | .hbm, ⟨29, _⟩ => ⟨S1700000, .i1⟩
  | .hbm, ⟨30, _⟩ => ⟨S_, .i32⟩
  | .hbm, ⟨31, _⟩ => ⟨S1700000, .i32⟩
  | .hbm, ⟨32, _⟩ => ⟨S1700000, .i32⟩
  | .hbm, ⟨33, _⟩ => ⟨S1700000, .i32⟩
  | .hbm, ⟨34, _⟩ => ⟨S1700000x1, .i32⟩
  | .hbm, ⟨35, _⟩ => ⟨S1700000, .f32⟩
  | .hbm, ⟨36, _⟩ => ⟨S_, .i32⟩
  | .hbm, ⟨37, _⟩ => ⟨S1700000, .i32⟩
  | .hbm, ⟨38, _⟩ => ⟨S1700000, .i1⟩
  | .hbm, ⟨39, _⟩ => ⟨S_, .i32⟩
  | .hbm, ⟨40, _⟩ => ⟨S1700000, .i32⟩
  | .hbm, ⟨41, _⟩ => ⟨S1700000, .i32⟩
  | .hbm, ⟨42, _⟩ => ⟨S1700000, .i32⟩
  | .hbm, ⟨43, _⟩ => ⟨S1700000x1, .i32⟩
  | .hbm, ⟨44, _⟩ => ⟨S1700000, .f32⟩
  | .hbm, ⟨45, _⟩ => ⟨S1700000, .f32⟩
  | .hbm, ⟨46, _⟩ => ⟨S100000x64, .f32⟩
  | .hbm, ⟨47, _⟩ => ⟨S_, .i32⟩
  | .hbm, ⟨48, _⟩ => ⟨S1700000, .i32⟩
  | .hbm, ⟨49, _⟩ => ⟨S1700000, .i1⟩
  | .hbm, ⟨50, _⟩ => ⟨S_, .i32⟩
  | .hbm, ⟨51, _⟩ => ⟨S1700000, .i32⟩
  | .hbm, ⟨52, _⟩ => ⟨S1700000, .i32⟩
  | .hbm, ⟨53, _⟩ => ⟨S1700000, .i32⟩
  | .hbm, ⟨54, _⟩ => ⟨S1700000x1, .i32⟩
  | .hbm, ⟨55, _⟩ => ⟨S1700000x64, .f32⟩
  | .hbm, ⟨56, _⟩ => ⟨S1700000x1, .f32⟩
  | .hbm, ⟨57, _⟩ => ⟨S1700000x64, .f32⟩
  | .hbm, ⟨58, _⟩ => ⟨S1700000x64, .f32⟩
  | .hbm, ⟨59, _⟩ => ⟨S_, .f32⟩
  | .hbm, ⟨60, _⟩ => ⟨S100000x64, .f32⟩
  | .hbm, ⟨61, _⟩ => ⟨S1700000x1, .i32⟩
  | .hbm, ⟨62, _⟩ => ⟨S100000x64, .f32⟩
  | .hbm, ⟨63, _⟩ => ⟨S1x64, .f32⟩
  | .hbm, ⟨64, _⟩ => ⟨S100000x64, .f32⟩
  | .hbm, ⟨65, _⟩ => ⟨S100000x64, .f32⟩
  | .hbm, ⟨66, _⟩ => ⟨S_, .f32⟩
  | .hbm, ⟨67, _⟩ => ⟨S64, .f32⟩
  | .hbm, ⟨68, _⟩ => ⟨S_, .f32⟩
  | .hbm, ⟨69, _⟩ => ⟨S64, .f32⟩
  | .hbm, ⟨70, _⟩ => ⟨S64, .f32⟩
  | .hbm, ⟨71, _⟩ => ⟨S1x64, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S64, .f32⟩
  | .hbm, ⟨77, _⟩ => ⟨S_, .f32⟩
  | .hbm, ⟨78, _⟩ => ⟨S64, .f32⟩
  | .hbm, ⟨79, _⟩ => ⟨S64, .f32⟩
  | .hbm, ⟨80, _⟩ => ⟨S1x64, .f32⟩
  | .hbm, ⟨81, _⟩ => ⟨S100000x64, .f32⟩
  | .hbm, ⟨82, _⟩ => ⟨S100000x64, .f32⟩
  | .hbm, ⟨83, _⟩ => ⟨S_, .f32⟩
  | .hbm, ⟨84, _⟩ => ⟨S64, .f32⟩
  | .hbm, ⟨85, _⟩ => ⟨S64, .f32⟩
  | .hbm, ⟨86, _⟩ => ⟨S64, .f32⟩
  | .hbm, ⟨87, _⟩ => ⟨S1x64, .f32⟩
  | .hbm, ⟨88, _⟩ => ⟨S100000x64, .f32⟩
  | .hbm, ⟨89, _⟩ => ⟨S100000x64, .f32⟩
  | .hbm, ⟨90, _⟩ => ⟨S1x64, .f32⟩
  | .hbm, ⟨91, _⟩ => ⟨S100000x64, .f32⟩
  | .hbm, ⟨92, _⟩ => ⟨S100000x64, .f32⟩
  | .hbm, ⟨93, _⟩ => ⟨S1x64, .f32⟩
  | .hbm, ⟨94, _⟩ => ⟨S100000x64, .f32⟩
  | .hbm, ⟨95, _⟩ => ⟨S100000x64, .f32⟩
  | .hbm, ⟨96, _⟩ => ⟨S_, .f32⟩
  | .hbm, ⟨97, _⟩ => ⟨S100000x64, .f32⟩
  | .hbm, ⟨98, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_cst_9 : Ref sig .tc := ⟨.hbm, 66, rfl⟩
abbrev main_v47 : Ref sig .tc := ⟨.hbm, 67, rfl⟩
abbrev main_cst_10 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_11 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev main_cst_13 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_call1_cst : Ref sig .tc := ⟨.hbm, 96, rfl⟩
abbrev main_call1_v0 : Ref sig .tc := ⟨.hbm, 97, rfl⟩
abbrev main_v72 : Ref sig .tc := ⟨.hbm, 98, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  concatenates_S1600000_S100000_S1700000_d0 : Shape.Concatenates [S1600000, S100000] S1700000 0
  slices_S2x1600000_S1x1600000_1_0 : S2x1600000.Slices ![1, 0] S1x1600000
  bcast_S_S1700000 : S_.BroadcastsInDim S1700000 (![] : Fin 0 → Fin S1700000.rank)
  bcast_S_S100000 : S_.BroadcastsInDim S100000 (![] : Fin 0 → Fin S100000.rank)
  bcast_S1700000_S1700000x1_0 : S1700000.BroadcastsInDim S1700000x1 (![0] : Fin 1 → Fin S1700000x1.rank)
  bcast_S1700000x1_S1700000x64_0_1 : S1700000x1.BroadcastsInDim S1700000x64 (![0, 1] : Fin 2 → Fin S1700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  reducesTo_S100000x64_S64_d0 : S100000x64.ReducesTo [0] S64
  h_S_ : 0 < S_.numel
  bcast_S_S64 : S_.BroadcastsInDim S64 (![] : Fin 0 → Fin S64.rank)
  scatter_S100000_S1700000x1_S1700000_n_0_0_1_wf : ScatterDims.WF S100000 S1700000x1 S1700000 [] [0] [0] 1
  gather_S100000_S1700000x1_S1700000_n_0_n_n_0_1_1_wf : GatherDims.WF S100000 S1700000x1 S1700000 [] [0] [] [0] [] 1 ![1]
  dot_S100000x64_S64x64_S100000x64_1_0_0_1_n_n_wf : DotDims.WF S100000x64 S64x64 S100000x64 [1] [0] [0] [1] [] []
  gather_S100000x64_S1700000x1_S1700000x64_1_0_n_n_0_1_164_wf : GatherDims.WF S100000x64 S1700000x1 S1700000x64 [1] [0] [] [0] [] 1 ![1, 64]
  scatter_S100000x64_S1700000x1_S1700000x64_1_0_0_1_wf : ScatterDims.WF S100000x64 S1700000x1 S1700000x64 [1] [0] [0] 1

variable [Facts₀]

def scatter_S100000_S1700000x1_S1700000_n_0_0_1 : ScatterDims S100000 S1700000x1 S1700000 where
  updateWindowDims := []
  insertedWindowDims := [0]
  scatterDimsToOperandDims := [0]
  indexVectorDim := 1
  wf := scatter_S100000_S1700000x1_S1700000_n_0_0_1_wf
def gather_S100000_S1700000x1_S1700000_n_0_n_n_0_1_1 : GatherDims S100000 S1700000x1 S1700000 where
  offsetDims := []
  collapsedSliceDims := [0]
  operandBatchingDims := []
  startIndicesBatchingDims := []
  startIndexMap := [0]
  indexVectorDim := 1
  sliceSizes := ![1]
  wf := gather_S100000_S1700000x1_S1700000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S1700000x1_S1700000x64_1_0_n_n_0_1_164 : GatherDims S100000x64 S1700000x1 S1700000x64 where
  offsetDims := [1]
  collapsedSliceDims := [0]
  operandBatchingDims := []
  startIndicesBatchingDims := []
  startIndexMap := [0]
  indexVectorDim := 1
  sliceSizes := ![1, 64]
  wf := gather_S100000x64_S1700000x1_S1700000x64_1_0_n_n_0_1_164_wf
def scatter_S100000x64_S1700000x1_S1700000x64_1_0_0_1 : ScatterDims S100000x64 S1700000x1 S1700000x64 where
  updateWindowDims := [1]
  insertedWindowDims := [0]
  scatterDimsToOperandDims := [0]
  indexVectorDim := 1
  wf := scatter_S100000x64_S1700000x1_S1700000x64_1_0_0_1_wf

class Facts : Prop extends Facts₀ where

variable [Facts]
-- ==== Proof.KFrameA.lean ====
-- The word-level program's module: the two printed programs have the same operations, so the statements and proofs are
-- those of the idealized program's module of the same name, read in the word-level program's namespace.
/-
  The frame half of regions 0 and 2 of the kernel's program, each at a parameter `V`: the TensorCore's buffer contents when
  the region is entered.

  Region 0 is the tiled matrix product: at grid point t (of 20) the body loads the block of 5000 rows t of x and the whole
  64 × 64 matrix W, and stores their product (rounded to bf16 on the way in, accumulated in f32 from zero) over the whole
  output block. Region 2 is the pointwise normalisation: at point t it loads the block of 5000 rows of the aggregated array
  and the four [1, 64] rows (mean, variance, gamma, beta) and stores max((x − mean) · rsqrt(var + eps) · gamma + beta, 0)
  over the whole output block. In both the body reads every input block whole and writes the output block whole, once,
  so what each staging buffer holds after the body is one function of the input blocks (`out0_2`, `out2_5`), the inputs'
  buffers are left as found, and the pipeline's invariant is the plain one (nothing is carried between points).
-/
import proofs.«167319_j89876485636648_1_alg».proof.Proof.Gen.Kernel.Launch
import proofs.«167319_j89876485636648_1_alg».proof.Proof.Gen.Kernel.Skeleton
import proofs.«167319_j89876485636648_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the matrix product -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every point, fetched there or not
    (where it is not fetched its block index has not moved), for any proof data over those entry contents whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry contents at every point, fetched there or not
    (where it is not fetched its block index has not moved), for any proof data over those entry contents whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0

/-- The output block after the body: the product of the two loaded blocks, stored over the whole buffer. -/
def out0_2 (x0 : Vec F S5000x64 .f32) (x1 : Vec F S64x64 .f32) : Vec F S5000x64 .f32 :=
  View.canon [⟨r0_0, k0_pay1 (View.ld x0 r0_0) (View.ld x1 r0_1)⟩]

/-- The one store covers the buffer. -/
theorem cover0_2 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

set_option maxHeartbeats 1000000 in
/-- The body on whole staging memrefs: the inputs' at `x0`, `x1`, the output's at anything; it ends with the inputs' as
    they were and the output's at `out0_2 x0 x1`. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at the product of the two blocks; the plain invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 2: the pointwise normalisation -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the entry contents at every point, fetched there or not
    (where it is not fetched its block index has not moved), for any proof data over those entry contents whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the entry contents at every point, fetched there or not
    (where it is not fetched its block index has not moved), for any proof data over those entry contents whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block of the entry contents at every point, fetched there or not
    (where it is not fetched its block index has not moved), for any proof data over those entry contents whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block of the entry contents at every point, fetched there or not
    (where it is not fetched its block index has not moved), for any proof data over those entry contents whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block of the entry contents at every point, fetched there or not
    (where it is not fetched its block index has not moved), for any proof data over those entry contents whose body
    leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0

/-- The output block after the body: the normalised, rectified block, stored over the whole buffer. -/
def out2_5 (x0 : Vec F S5000x64 .f32) (x1 x2 x3 x4 : Vec F S1x64 .f32) : Vec F S5000x64 .f32 :=
  View.canon [⟨r2_0, k2_pay1 (View.ld x0 r2_0) (View.ld x1 r2_1) (View.ld x2 r2_1) (View.ld x3 r2_1) (View.ld x4 r2_1)⟩]

/-- The one store covers the buffer. -/
theorem cover2_5 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 1000000 in
/-- The body on whole staging memrefs: the inputs' at `x0 … x4`, the output's at anything; it ends with the inputs' as they
    were and the output's at `out2_5 x0 … x4`. -/
theorem sound_kernel2 (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__norm_relu_kernel i arg1 harg1 arg2 harg2 arg3 harg3 arg4 harg4 arg5 harg5 arg6 harg6) K := by
  simp only [cc2__norm_relu_kernel_eq_skeleton]; unfold cc2__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t` each
    input's buffer at its block and the output's at the normalised block; the plain invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Hand

end
-- ==== Proof.KFrameR1Runs.lean ====
-- The word-level program's module: the two printed programs have the same operations, so the statements and proofs are
-- those of the idealized program's module of the same name, read in the word-level program's namespace.
import proofs.«167319_j89876485636648_1_alg».proof.Proof.Gen.Kernel.Launch
import proofs.«167319_j89876485636648_1_alg».proof.Proof.Gen.Kernel.Skeleton
import proofs.«167319_j89876485636648_1_alg».proof.Proof.Gen.Kernel.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! # The statistics region (pipeline 1), at the entry contents `V`: what its three cases share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point (it is fetched at every point and its
    blocks tile the array), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The first conditional's condition (the grid coordinate is 0: the accumulators are reset), from the coordinates. -/
abbrev cond1_0 (i : grid1.Coords) : Prop := (Scalar.cmpi .ne (Scalar.extui (Scalar.cmpi .eq (BitVec.ofNat 32 (i 0).val) 0#32)) 0#32) = 1#1
/-- It holds at the first of the 20 points only. -/
theorem hcond1_0 : ∀ t : Fin cfg1.N, cond1_0 (grid1.coords t) ↔ t.val % 20 = 0 :=
  (by decide +kernel : ∀ t : Fin grid1.N, cond1_0 (grid1.coords t) ↔ t.val % 20 = 0)

/-- The second conditional's condition (the grid coordinate is 19: the accumulators are copied out). -/
abbrev cond1_1 (i : grid1.Coords) : Prop := k1_cond2 i = 1#1
/-- It holds at the last of the 20 points only. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle

Case A: first condition only (point 0). Case B: neither (points 1..18). Case C: second only (point 19). -/

/-- The input window is never idle. -/
theorem liveAt1_0 : ∀ t : Fin cfg1.N, cfg1.idle 0 (grid1.coords t) = false := by decide +kernel
theorem idleAt1_1_A : ∀ t : Fin cfg1.N, cond1_0 (grid1.coords t) → ¬cond1_1 (grid1.coords t) → cfg1.idle 1 (grid1.coords t) = true := by decide +kernel
theorem noFlush1_1_A : ∀ t : Fin cfg1.N, cond1_0 (grid1.coords t) → ¬cond1_1 (grid1.coords t) → (cfg1.win 1).flush t = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_1_C : ∀ t : Fin cfg1.N, ¬cond1_0 (grid1.coords t) → cond1_1 (grid1.coords t) → cfg1.idle 1 (grid1.coords t) = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of each output window, through which its contents are stated. -/
abbrev VO1_1 : View sig .tc .vmem S1x64 .f32 := (Memref.whole cc1_stg1_0 : Memref sig .tc .vmem S1x64 .f32).view
abbrev VO1_2 : View sig .tc .vmem S1x64 .f32 := (Memref.whole cc1_stg2_0 : Memref sig .tc .vmem S1x64 .f32).view
/-- Each window's current staging memref at point `t`, spelled as the pipeline passes it, and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
/-- The two scratch accumulators (column sums, column sums of squares): whole scoped buffers of the kernel's own. -/
abbrev scM1_0 : Memref sig .tc .vmem S1x64 .f32 := Memref.whole cc1_scratch0
abbrev scM1_1 : Memref sig .tc .vmem S1x64 .f32 := Memref.whole cc1_scratch1
/-- The accumulators as views: what they hold is stated through them. -/
abbrev VS1_0 : View sig .tc .vmem S1x64 .f32 := scM1_0.view
abbrev VS1_1 : View sig .tc .vmem S1x64 .f32 := scM1_1.view

/-! ## The region invariant, split -/

/-- The core's scoped buffers that are neither staging buffers of this pipeline nor its two accumulators (the other two
    pipelines' staging buffers), each whole at some contents: the body never touches them. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg5_1), ((c : Thread nD τ).loc cc2_stg5_1) ↦{fullShare} f))

/-- The class's invariant with the two accumulators as memrefs owned at some contents, the untouched scoped buffers
    and the generator register beside them: the same conjuncts regrouped, each direction piece by piece. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ others1 c) ∗ (∃ r, prngReg c r)) := by
  unfold Pipeline.ΦA; rw [scopedRest1_eq]; simp only [scM1_0, scM1_1, owns_whole]; unfold others1
  refine Entails.antisymm ?_ ?_
  · change BIBase.Entails (PROP := sProp 𝕄) _ _
    iintro ⟨⟨A0, A1, A2, A3, A4, S0, S1, B0, B1, B2, B3, B4, B5, B6, B7⟩, Hg⟩
    isplitr [Hg]; swap; · iexact Hg
    isplitl [S0]; · iexact S0
    isplitl [S1]; · iexact S1
    isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  · change BIBase.Entails (PROP := sProp 𝕄) _ _
    iintro ⟨⟨S0, S1, A0, A1, A2, A3, A4, B0, B1, B2, B3, B4, B5, B6, B7⟩, Hg⟩
    isplitr [Hg]; swap; · iexact Hg
    isplitl [A0]; · iexact A0
    isplitl [A1]; · iexact A1
    isplitl [A2]; · iexact A2
    isplitl [A3]; · iexact A3
    isplitl [A4]; · iexact A4
    isplitl [S0]; · iexact S0
    isplitl [S1]; · iexact S1
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7

end Cert.Kernel.Hand

end
-- ==== Proof.KFrameR1RunA.lean ====
-- The word-level program's module: the two printed programs have the same operations, so the statements and proofs are
-- those of the idealized program's module of the same name, read in the word-level program's namespace.
import proofs.«167319_j89876485636648_1_alg».proof.Proof.KFrameR1Runs

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (the first point: the reset is taken, the copy-out is not). The pieces the body's stores leave in each buffer
    (last first), with the proof that on whole memrefs — the input's at its block, the two outputs' at contents handed back
    untouched (nothing is stored into them), the two accumulators' at anything — the body runs to the continuation holding
    the input and outputs as they were and each accumulator with its pieces written: first the zero splat, then the
    block's column sums (of the squares, for the second) added to it. -/
noncomputable def kernelRun1_A (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (xi2 xi3 : Vec F S1x64 .f32) (E : Set ℕ) (K : PUnit → sProp 𝕄),
        iprop(owns (c : Thread nD τ) arg1 fullShare x0 ∗ owns (c : Thread nD τ) arg2 fullShare xi2 ∗ owns (c : Thread nD τ) arg3 fullShare xi3
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi2 ∗ owns (c : Thread nD τ) arg3 fullShare xi3
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨[], [], ?_, ?_, fun xi2 xi3 E K => ?run⟩
  case run =>
    simp only [cc1__stats_kernel_eq_skeleton]; unfold cc1__stats_kernel_skel
    unfold owns
    iintro ⟨⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf1; obtain rfl := harg2.eq_unread hf2; obtain rfl := harg3.eq_unread hf3
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [HS0]; · iexists _; iexact HS0
    iexists _; iexact HS1

end Cert.Kernel.Hand

end
-- ==== Proof.KFrameR1RunB.lean ====
-- The word-level program's module: the two printed programs have the same operations, so the statements and proofs are
-- those of the idealized program's module of the same name, read in the word-level program's namespace.
import proofs.«167319_j89876485636648_1_alg».proof.Proof.KFrameR1RunA

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (points 1 to 18: neither conditional is taken). As case A, but the two accumulators are at the contents the
    point before left (`xs0`, `xs1`), which the body reads; each ends with one piece: the block's column sums (of the
    squares, for the second) added to those contents. -/
noncomputable def kernelRun1_B (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (xi2 xi3 : Vec F S1x64 .f32) (E : Set ℕ) (K : PUnit → sProp 𝕄),
        iprop(owns (c : Thread nD τ) arg1 fullShare x0 ∗ owns (c : Thread nD τ) arg2 fullShare xi2 ∗ owns (c : Thread nD τ) arg3 fullShare xi3
            ∗ owns (c : Thread nD τ) arg4 fullShare xs0 ∗ owns (c : Thread nD τ) arg5 fullShare xs1
            ∗ (iprop(owns (c : Thread nD τ) arg1 fullShare x0 ∗ owns (c : Thread nD τ) arg2 fullShare xi2 ∗ owns (c : Thread nD τ) arg3 fullShare xi3
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨[], [], ?_, ?_, fun xi2 xi3 E K => ?run⟩
  case run =>
    simp only [cc1__stats_kernel_eq_skeleton]; unfold cc1__stats_kernel_skel
    unfold owns
    iintro ⟨⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hfs0; obtain rfl := harg5.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [HS0]; · iexists _; iexact HS0
    iexists _; iexact HS1

end Cert.Kernel.Hand

end
-- ==== Proof.KFrameR1RunC.lean ====
-- The word-level program's module: the two printed programs have the same operations, so the statements and proofs are
-- those of the idealized program's module of the same name, read in the word-level program's namespace.
import proofs.«167319_j89876485636648_1_alg».proof.Proof.KFrameR1RunB

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (the last point: the reset is not taken, the copy-out is). The accumulators are at the contents the point
    before left and each ends with one piece, as in case B; the two outputs, at anything, each end with one piece: the
    accumulator's new contents, read back and stored whole. -/
noncomputable def kernelRun1_C (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨?_, ?_, ?_, ?_, fun E K => ?run⟩
  case run =>
    simp only [cc1__stats_kernel_eq_skeleton]; unfold cc1__stats_kernel_skel
    unfold owns
    iintro ⟨⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf1
    obtain rfl := harg4.eq_unread hfs0; obtain rfl := harg5.eq_unread hfs1
    sl_exec (disch := first | exact hc0 | exact hc1)
    sl_step
    iapply Hk
    isplitl [H1]
    · iexists _; isplitr; · ipureintro; exact harg1.read_unread _
      iexact H1
    isplitl [H2]; · iexists _; iexact H2
    isplitl [H3]; · iexists _; iexact H3
    isplitl [HS0]; · iexists _; iexact HS0
    iexists _; iexact HS1

end Cert.Kernel.Hand

end
-- ==== Proof.KFrameR1.lean ====
-- The word-level program's module: the two printed programs have the same operations, so the statements and proofs are
-- those of the idealized program's module of the same name, read in the word-level program's namespace.
import proofs.«167319_j89876485636648_1_alg».proof.Proof.KFrameR1RunC

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region (pipeline 1): its frame half, at the entry contents `V`

What each case leaves in the outputs and the accumulators, the accumulation point by point, the proof data and the body
obligation. -/

/-- Case A stores nothing into the two outputs: no pieces — a placeholder (junk read back) that nothing consults, since
    at these points the windows are neither written back nor read at the next point. -/
def out1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) : Vec F S1x64 .f32 :=
  VO1_1.read (Elt F) (VO1_1.writes (Elt F) VO1_1.junk (kernelRun1_A c i arg1 harg1 arg2 harg2 arg3 harg3 arg4 harg4 arg5 harg5 hc0 hc1 x0).1)
def out1_A_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) : Vec F S1x64 .f32 :=
  VO1_2.read (Elt F) (VO1_2.writes (Elt F) VO1_2.junk (kernelRun1_A c i arg1 harg1 arg2 harg2 arg3 harg3 arg4 harg4 arg5 harg5 hc0 hc1 x0).2.1)

/-- Case A's pieces for each accumulator cover it (whole-buffer stores). -/
theorem scover1_A_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) (y : S1x64.Idx) :
    ∃ pc ∈ (kernelRun1_A c i arg1 harg1 arg2 harg2 arg3 harg3 arg4 harg4 arg5 harg5 hc0 hc1 x0).2.2.1, y ∈ pc.1.set :=
  View.cover_of_tiledL (kernelRun1_A c i arg1 harg1 arg2 harg2 arg3 harg3 arg4 harg4 arg5 harg5 hc0 hc1 x0).2.2.1 S1x64.size (by sl_kernel_rfl) y
theorem scover1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) (y : S1x64.Idx) :
    ∃ pc ∈ (kernelRun1_A c i arg1 harg1 arg2 harg2 arg3 harg3 arg4 harg4 arg5 harg5 hc0 hc1 x0).2.2.2.1, y ∈ pc.1.set :=
  View.cover_of_tiledL (kernelRun1_A c i arg1 harg1 arg2 harg2 arg3 harg3 arg4 harg4 arg5 harg5 hc0 hc1 x0).2.2.2.1 S1x64.size (by sl_kernel_rfl) y

/-- What case A leaves in each accumulator: its pieces read back over junk. -/
def sout1_A_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) : Vec F S1x64 .f32 :=
  VS1_0.read (Elt F) (VS1_0.writes (Elt F) VS1_0.junk (kernelRun1_A c i arg1 harg1 arg2 harg2 arg3 harg3 arg4 harg4 arg5 harg5 hc0 hc1 x0).2.2.1)
def sout1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) : Vec F S1x64 .f32 :=
  VS1_1.read (Elt F) (VS1_1.writes (Elt F) VS1_1.junk (kernelRun1_A c i arg1 harg1 arg2 harg2 arg3 harg3 arg4 harg4 arg5 harg5 hc0 hc1 x0).2.2.2.1)

/-- Case B stores nothing into the two outputs: no pieces — a placeholder (junk read back) that nothing consults, since
    at these points the windows are neither written back nor read at the next point. -/
def out1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) : Vec F S1x64 .f32 :=
  VO1_1.read (Elt F) (VO1_1.writes (Elt F) VO1_1.junk (kernelRun1_B c i arg1 harg1 arg2 harg2 arg3 harg3 arg4 harg4 arg5 harg5 hc0 hc1 x0 xs0 xs1).1)
def out1_B_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) : Vec F S1x64 .f32 :=
  VO1_2.read (Elt F) (VO1_2.writes (Elt F) VO1_2.junk (kernelRun1_B c i arg1 harg1 arg2 harg2 arg3 harg3 arg4 harg4 arg5 harg5 hc0 hc1 x0 xs0 xs1).2.1)

/-- Case B's pieces for each accumulator cover it (whole-buffer stores). -/
theorem scover1_B_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) (y : S1x64.Idx) :
    ∃ pc ∈ (kernelRun1_B c i arg1 harg1 arg2 harg2 arg3 harg3 arg4 harg4 arg5 harg5 hc0 hc1 x0 xs0 xs1).2.2.1, y ∈ pc.1.set :=
  View.cover_of_tiledL (kernelRun1_B c i arg1 harg1 arg2 harg2 arg3 harg3 arg4 harg4 arg5 harg5 hc0 hc1 x0 xs0 xs1).2.2.1 S1x64.size (by sl_kernel_rfl) y
theorem scover1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) (y : S1x64.Idx) :
    ∃ pc ∈ (kernelRun1_B c i arg1 harg1 arg2 harg2 arg3 harg3 arg4 harg4 arg5 harg5 hc0 hc1 x0 xs0 xs1).2.2.2.1, y ∈ pc.1.set :=
  View.cover_of_tiledL (kernelRun1_B c i arg1 harg1 arg2 harg2 arg3 harg3 arg4 harg4 arg5 harg5 hc0 hc1 x0 xs0 xs1).2.2.2.1 S1x64.size (by sl_kernel_rfl) y

/-- What case B leaves in each accumulator: its pieces read back over junk. -/
def sout1_B_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) : Vec F S1x64 .f32 :=
  VS1_0.read (Elt F) (VS1_0.writes (Elt F) VS1_0.junk (kernelRun1_B c i arg1 harg1 arg2 harg2 arg3 harg3 arg4 harg4 arg5 harg5 hc0 hc1 x0 xs0 xs1).2.2.1)
def sout1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) : Vec F S1x64 .f32 :=
  VS1_1.read (Elt F) (VS1_1.writes (Elt F) VS1_1.junk (kernelRun1_B c i arg1 harg1 arg2 harg2 arg3 harg3 arg4 harg4 arg5 harg5 hc0 hc1 x0 xs0 xs1).2.2.2.1)

/-- Case C's single store into each output covers it. -/
theorem cover1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).1, y ∈ pc.1.set :=
  View.cover_of_tiledL (kernelRun1_C c i arg1 harg1 arg2 harg2 arg3 harg3 arg4 harg4 arg5 harg5 hc0 hc1 x0 xs0 xs1).1 S1x64.size (by sl_kernel_rfl) y
theorem cover1_C_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.1, y ∈ pc.1.set :=
  View.cover_of_tiledL (kernelRun1_C c i arg1 harg1 arg2 harg2 arg3 harg3 arg4 harg4 arg5 harg5 hc0 hc1 x0 xs0 xs1).2.1 S1x64.size (by sl_kernel_rfl) y

/-- What case C leaves in each output's staging buffer: its piece read back over junk. -/
def out1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VO1_1.read (Elt F) (VO1_1.writes (Elt F) VO1_1.junk (kernelRun1_C c i arg1 harg1 arg2 harg2 arg3 harg3 arg4 harg4 arg5 harg5 hc0 hc1 x0 xs0 xs1).1)
def out1_C_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VO1_2.read (Elt F) (VO1_2.writes (Elt F) VO1_2.junk (kernelRun1_C c i arg1 harg1 arg2 harg2 arg3 harg3 arg4 harg4 arg5 harg5 hc0 hc1 x0 xs0 xs1).2.1)

/-- Case C's pieces for each accumulator cover it (whole-buffer stores). -/
theorem scover1_C_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.2.1, y ∈ pc.1.set :=
  View.cover_of_tiledL (kernelRun1_C c i arg1 harg1 arg2 harg2 arg3 harg3 arg4 harg4 arg5 harg5 hc0 hc1 x0 xs0 xs1).2.2.1 S1x64.size (by sl_kernel_rfl) y
theorem scover1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.2.2.1, y ∈ pc.1.set :=
  View.cover_of_tiledL (kernelRun1_C c i arg1 harg1 arg2 harg2 arg3 harg3 arg4 harg4 arg5 harg5 hc0 hc1 x0 xs0 xs1).2.2.2.1 S1x64.size (by sl_kernel_rfl) y

/-- What case C leaves in each accumulator: its pieces read back over junk. -/
def sout1_C_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VS1_0.read (Elt F) (VS1_0.writes (Elt F) VS1_0.junk (kernelRun1_C c i arg1 harg1 arg2 harg2 arg3 harg3 arg4 harg4 arg5 harg5 hc0 hc1 x0 xs0 xs1).2.2.1)
def sout1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VS1_1.read (Elt F) (VS1_1.writes (Elt F) VS1_1.junk (kernelRun1_C c i arg1 harg1 arg2 harg2 arg3 harg3 arg4 harg4 arg5 harg5 hc0 hc1 x0 xs0 xs1).2.2.2.1)

variable (V : (c : Dev nD) → (b : Ref sig .tc) → Buf (Elt F) ((c : Thread nD τ).loc b))

/-! ## What the outputs and the accumulators hold after each point -/

/-- THE ACCUMULATION. What the two outputs' staging buffers and the two accumulators hold after the body at position `n`
    (a tuple: output 1, output 2, accumulator 0, accumulator 1): the case the closed forms select at `n`, run at the point's
    memrefs and input block, the accumulators read at what this leaves at `n - 1`. An assignment of the conditions no
    point meets is no case. -/
def outsAt1 (c : Dev nD) : (n : ℕ) → n < cfg1.N → Vec F S1x64 .f32 × Vec F S1x64 .f32 × Vec F S1x64 .f32 × Vec F S1x64 .f32
  | 0, hn => (out1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 20 = 0 then
      if h1 : (n + 1) % 20 = 19 then
        False.elim (by have hN : n + 1 < 20 := lt_of_lt_of_eq hn (show cfg1.N = 20 from N_1); omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 20 = 19 then
        (out1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 20 = 0) (h1 : ¬t.val % 20 = 19) :
    outsAt1 V c t.val t.isLt = (out1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t), out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

/-- `outsAt1` at a point of case B: that case's contents, over what the point before left in the accumulators. -/
theorem outsAt1_B (c : Dev nD) (t : Fin cfg1.N) (h0 : ¬t.val % 20 = 0) (h1 : ¬t.val % 20 = 19) :
    outsAt1 V c t.val t.isLt = (out1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the accumulators. -/
theorem outsAt1_C (c : Dev nD) (t : Fin cfg1.N) (h0 : ¬t.val % 20 = 0) (h1 : t.val % 20 = 19) :
    outsAt1 V c t.val t.isLt = (out1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything, the
    generator register at some state); afterwards the same with the two accumulators at what the point before left in
    them (`outsAt1`'s last two components). -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2.1) ∗ owns (c : Thread nD τ) scM1_1 fullShare ((outsAt1 V c n hn).2.2.2) ∗ others1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(owns (c : Thread nD τ) scM1_0 fullShare ((outsAt1 V c n hn).2.2.1) ∗ owns (c : Thread nD τ) scM1_1 fullShare ((outsAt1 V c n hn).2.2.2) ∗ others1 c) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2.1) ∗ owns (c : Thread nD τ) scM1_1 fullShare ((outsAt1 V c (n - 1) (by omega)).2.2.2) ∗ others1 c) ∗ (∃ r, prngReg c r)) := by
  cases n with
  | zero => exact absurd rfl hz
  | succ n => rfl

/-! ## The pipeline's proof data -/

/-- The proof data of pipeline 1 on core `c`: the arrays as the region finds them (`V`); after the body at point `t` the
    input's buffer at its block and the two outputs' at `outsAt1`'s first two components; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input's memref holds its block; the closed forms say which case the point is in. The
    invariant hands the body the two accumulators — at anything at the first point (case A, which resets them), at what
    the point before left otherwise (cases B and C, which read them) — and takes them back at this point's contents, its
    other conjuncts untouched. Where the outputs are idle (cases A, B) their buffers are handed back as found; at the last
    point (case C) each is covered by its one store. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  by_cases h0 : t.val % 20 = 0
  · by_cases h1 : t.val % 20 = 19
    · exfalso; omega
    · rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0 sout1_A_1; (try dsimp only)
      have hz : t.val = 0 := by omega
      rw [PhiS1_castSucc V c t, PhiS1_zero V c _ _ hz, PhiA1_eq]
      iintro ⟨⟨⟨HS0, HS1, Hoth⟩, Hg⟩, Ho, ⟨%d0, H0⟩, ⟨%d1, H1⟩, ⟨%d2, H2⟩⟩
      iapply ((kernelRun1_A c (grid1.coords t) _ _ _ _ _ _ _ _ _ _ ((hcond1_0 t).mpr h0) (fun h => h1 ((hcond1_1 t).mp h)) (iblk1 V c 0 t)).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_A_0 c _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _)
          iexact Hoth
        iexact Hg
      isplitl [Ho]; · iexact Ho
      isplitl [H0]; · iexact H0
      isplitl [H1]; · iexists _; iexact H1
      iexists _; iexact H2
  · by_cases h1 : t.val % 20 = 19
    · rw [show (dat1 V c).leavesExact 1 t = owns (c : Thread nD τ) (ms1_1 t) fullShare ((dat1 V c).after 1 t) from by
        unfold Dat.leavesExact; rw [liveAt1_1_C t (fun h => h0 ((hcond1_0 t).mp h)) ((hcond1_1 t).mpr h1)], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_1 out1_C_2 sout1_C_0 sout1_C_1; (try dsimp only)
      have hz : t.val ≠ 0 := by omega
      rw [PhiS1_castSucc V c t, PhiS1_pos V c _ _ hz]
      iintro ⟨⟨⟨HS0, HS1, Hoth⟩, Hg⟩, Ho, ⟨%d0, H0⟩, ⟨%d1, H1⟩, ⟨%d2, H2⟩⟩
      iapply ((kernelRun1_C c (grid1.coords t) _ _ _ _ _ _ _ _ _ _ (fun h => h0 ((hcond1_0 t).mp h)) ((hcond1_1 t).mpr h1) (iblk1 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_C_0 c _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover1_C_1 c _ _ _ _ _ _ _ _ _ _ _ _ _ _ _ _)
      unfold owns; iexists _; isplitr
      swap; · iexact H2
      ipureintro; exact View.read_writes_of_cover _ _ _ _ _ (cover1_C_2 c _ _ _ _ _ _ _ _ _ _ _ _ _ _ _ _)
    · rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0 sout1_B_1; (try dsimp only)
      have hz : t.val ≠ 0 := by omega
      rw [PhiS1_castSucc V c t, PhiS1_pos V c _ _ hz]
      iintro ⟨⟨⟨HS0, HS1, Hoth⟩, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) (fun h => h1 ((hcond1_1 t).mp h)) (iblk1 V c 0 t) _ _).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_B_0 c _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.Kernel.Hand

end
-- ==== Proof.KFrameRun.lean ====
-- The word-level program's module: the two printed programs have the same operations, so the statements and proofs are
-- those of the idealized program's module of the same name, read in the word-level program's namespace.
/-
  The run of the kernel's program from the launch to the return: its three regions among the host operations, as the
  pipeline library's segments.

  The buffer contents at each boundary are a fold through the program: `W0` the launch memory; `W1` after region 0 (the
  matrix product's output array at what its 20 write-backs leave, everything else as before); `W2`, `W3`, `W4` after the
  three stretches of host operations of the aggregation; `W5` after region 1 (the two statistics rows); `W6` after the
  host operations that turn the sums into mean and variance; `W7` after region 2 (the result array). Each region is
  entered with every unscoped buffer at the boundary's contents and left with them at the next boundary's; the run ends
  with every unscoped buffer at `W7` (`run_all`), from which the frame (each argument as launched: `frame`) and the
  result's value are read.
-/
import proofs.«167319_j89876485636648_1_alg».proof.Proof.Gen.Kernel.Launch
import proofs.«167319_j89876485636648_1_alg».proof.Proof.Gen.Kernel.Skeleton
import proofs.«167319_j89876485636648_1_alg».proof.Proof.Gen.Kernel.Points
import proofs.«167319_j89876485636648_1_alg».proof.Proof.Gen.Kernel.Regions
import proofs.«167319_j89876485636648_1_alg».proof.Proof.KFrameA
import proofs.«167319_j89876485636648_1_alg».proof.Proof.KFrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its windows' arrays at what the pipeline leaves (an input as entered, an output at its write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first stretch of host operations. -/
abbrev W2 : Dev nD → Valuation τ sig (Elt F) := fun c => StableHlo.after hostOps1 (W1 m ρ c)
/-- After the second. -/
abbrev W3 : Dev nD → Valuation τ sig (Elt F) := fun c => StableHlo.after hostOps1_1 (W2 m ρ c)
/-- After the third (region 1's entry). -/
abbrev W4 : Dev nD → Valuation τ sig (Elt F) := fun c => StableHlo.after hostOps1_2 (W3 m ρ c)
abbrev V4 : (c : Dev nD) → (b : Ref sig .tc) → Buf (Elt F) ((c : Thread nD τ).loc b) := fun c b => W4 m ρ c b
/-- At region 1's exit: its windows' arrays at what the pipeline leaves (an input as entered, an output at its write-backs
    folded), every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the host operations between regions 1 and 2 (region 2's entry). -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b
/-- At region 2's exit: its windows' arrays at what the pipeline leaves (an input as entered, an output at its write-backs
    folded), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-! ### The arguments end as launched -/

theorem W1_main_arg0' (c : Dev nD) : W1 m ρ c (Proc.devRef .tc main_arg0) = W0 m ρ c (Proc.devRef .tc main_arg0) :=
  (W1_arr m ρ c 0).trans (((dat0 (V0 m ρ) c).arrAt_in 0 rfl _).trans (A_eq0 (V0 m ρ) c 0))
theorem W1_main_arg2' (c : Dev nD) : W1 m ρ c (Proc.devRef .tc main_arg2) = W0 m ρ c (Proc.devRef .tc main_arg2) :=
  (W1_arr m ρ c 1).trans (((dat0 (V0 m ρ) c).arrAt_in 1 rfl _).trans (A_eq0 (V0 m ρ) c 1))
theorem W1_main_arg1' (c : Dev nD) : W1 m ρ c (Proc.devRef .tc main_arg1) = W0 m ρ c (Proc.devRef .tc main_arg1) := W1_of_ne m ρ c main_arg1 (by decide)
theorem W1_main_arg3' (c : Dev nD) : W1 m ρ c (Proc.devRef .tc main_arg3) = W0 m ρ c (Proc.devRef .tc main_arg3) := W1_of_ne m ρ c main_arg3 (by decide)
theorem W1_main_arg4' (c : Dev nD) : W1 m ρ c (Proc.devRef .tc main_arg4) = W0 m ρ c (Proc.devRef .tc main_arg4) := W1_of_ne m ρ c main_arg4 (by decide)
theorem W1_main_arg5' (c : Dev nD) : W1 m ρ c (Proc.devRef .tc main_arg5) = W0 m ρ c (Proc.devRef .tc main_arg5) := W1_of_ne m ρ c main_arg5 (by decide)

/-- `main_arg0` reaches the end as launched: no host operation writes it and no region's output window is it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := StableHlo.after_of_writes_sub hostOps2 _ hostOps2_writes (r := main_arg0) (by decide)
    _ = W4 m ρ c (Proc.devRef .tc main_arg0) := W5_of_ne m ρ c main_arg0 (by decide)
    _ = W3 m ρ c (Proc.devRef .tc main_arg0) := StableHlo.after_of_writes_sub hostOps1_2 _ hostOps1_2_writes (r := main_arg0) (by decide)
    _ = W2 m ρ c (Proc.devRef .tc main_arg0) := StableHlo.after_of_writes_sub hostOps1_1 _ hostOps1_1_writes (r := main_arg0) (by decide)
    _ = W1 m ρ c (Proc.devRef .tc main_arg0) := StableHlo.after_of_writes_sub hostOps1 _ hostOps1_writes (r := main_arg0) (by decide)
    _ = W0 m ρ c (Proc.devRef .tc main_arg0) := W1_main_arg0' m ρ c
    _ = m ((c : Thread nD τ).loc main_arg0) := rfl

/-- `main_arg1` reaches the end as launched: no host operation writes it and no region's output window is it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := StableHlo.after_of_writes_sub hostOps2 _ hostOps2_writes (r := main_arg1) (by decide)
    _ = W4 m ρ c (Proc.devRef .tc main_arg1) := W5_of_ne m ρ c main_arg1 (by decide)
    _ = W3 m ρ c (Proc.devRef .tc main_arg1) := StableHlo.after_of_writes_sub hostOps1_2 _ hostOps1_2_writes (r := main_arg1) (by decide)
    _ = W2 m ρ c (Proc.devRef .tc main_arg1) := StableHlo.after_of_writes_sub hostOps1_1 _ hostOps1_1_writes (r := main_arg1) (by decide)
    _ = W1 m ρ c (Proc.devRef .tc main_arg1) := StableHlo.after_of_writes_sub hostOps1 _ hostOps1_writes (r := main_arg1) (by decide)
    _ = W0 m ρ c (Proc.devRef .tc main_arg1) := W1_main_arg1' m ρ c
    _ = m ((c : Thread nD τ).loc main_arg1) := rfl

/-- `main_arg2` reaches the end as launched: no host operation writes it and no region's output window is it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_writes_sub hostOps2 _ hostOps2_writes (r := main_arg2) (by decide)
    _ = W4 m ρ c (Proc.devRef .tc main_arg2) := W5_of_ne m ρ c main_arg2 (by decide)
    _ = W3 m ρ c (Proc.devRef .tc main_arg2) := StableHlo.after_of_writes_sub hostOps1_2 _ hostOps1_2_writes (r := main_arg2) (by decide)
    _ = W2 m ρ c (Proc.devRef .tc main_arg2) := StableHlo.after_of_writes_sub hostOps1_1 _ hostOps1_1_writes (r := main_arg2) (by decide)
    _ = W1 m ρ c (Proc.devRef .tc main_arg2) := StableHlo.after_of_writes_sub hostOps1 _ hostOps1_writes (r := main_arg2) (by decide)
    _ = W0 m ρ c (Proc.devRef .tc main_arg2) := W1_main_arg2' m ρ c
    _ = m ((c : Thread nD τ).loc main_arg2) := rfl

/-- `main_arg3` reaches the end as launched: no host operation writes it and no region's output window is it. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := StableHlo.after_of_writes_sub hostOps2 _ hostOps2_writes (r := main_arg3) (by decide)
    _ = W4 m ρ c (Proc.devRef .tc main_arg3) := W5_of_ne m ρ c main_arg3 (by decide)
    _ = W3 m ρ c (Proc.devRef .tc main_arg3) := StableHlo.after_of_writes_sub hostOps1_2 _ hostOps1_2_writes (r := main_arg3) (by decide)
    _ = W2 m ρ c (Proc.devRef .tc main_arg3) := StableHlo.after_of_writes_sub hostOps1_1 _ hostOps1_1_writes (r := main_arg3) (by decide)
    _ = W1 m ρ c (Proc.devRef .tc main_arg3) := StableHlo.after_of_writes_sub hostOps1 _ hostOps1_writes (r := main_arg3) (by decide)
    _ = W0 m ρ c (Proc.devRef .tc main_arg3) := W1_main_arg3' m ρ c
    _ = m ((c : Thread nD τ).loc main_arg3) := rfl

/-- `main_arg4` reaches the end as launched: no host operation writes it and no region's output window is it. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := StableHlo.after_of_writes_sub hostOps2 _ hostOps2_writes (r := main_arg4) (by decide)
    _ = W4 m ρ c (Proc.devRef .tc main_arg4) := W5_of_ne m ρ c main_arg4 (by decide)
    _ = W3 m ρ c (Proc.devRef .tc main_arg4) := StableHlo.after_of_writes_sub hostOps1_2 _ hostOps1_2_writes (r := main_arg4) (by decide)
    _ = W2 m ρ c (Proc.devRef .tc main_arg4) := StableHlo.after_of_writes_sub hostOps1_1 _ hostOps1_1_writes (r := main_arg4) (by decide)
    _ = W1 m ρ c (Proc.devRef .tc main_arg4) := StableHlo.after_of_writes_sub hostOps1 _ hostOps1_writes (r := main_arg4) (by decide)
    _ = W0 m ρ c (Proc.devRef .tc main_arg4) := W1_main_arg4' m ρ c
    _ = m ((c : Thread nD τ).loc main_arg4) := rfl

/-- `main_arg5` reaches the end as launched: no host operation writes it and no region's output window is it. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_writes_sub hostOps2 _ hostOps2_writes (r := main_arg5) (by decide)
    _ = W4 m ρ c (Proc.devRef .tc main_arg5) := W5_of_ne m ρ c main_arg5 (by decide)
    _ = W3 m ρ c (Proc.devRef .tc main_arg5) := StableHlo.after_of_writes_sub hostOps1_2 _ hostOps1_2_writes (r := main_arg5) (by decide)
    _ = W2 m ρ c (Proc.devRef .tc main_arg5) := StableHlo.after_of_writes_sub hostOps1_1 _ hostOps1_1_writes (r := main_arg5) (by decide)
    _ = W1 m ρ c (Proc.devRef .tc main_arg5) := StableHlo.after_of_writes_sub hostOps1 _ hostOps1_writes (r := main_arg5) (by decide)
    _ = W0 m ρ c (Proc.devRef .tc main_arg5) := W1_main_arg5' m ρ c
    _ = m ((c : Thread nD τ).loc main_arg5) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W0`, left with them at `W1`. Its windows'
    arrays are split out of the unscoped buffers and put back at what the write-backs leave; the generator register goes
    into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W4`, left with them at `W5`. Its windows'
    arrays are split out of the unscoped buffers and put back at what the write-backs leave; the generator register goes
    into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V4 m ρ) c).Φ 0 from rfl]
    iintro ⟨Hp, -, Hr⟩
    iapply (hin1 (V4 m ρ) c)
    unfold Pipeline.ΦA
    isplitl [Hr]; · iexact Hr
    iexact Hp
  hout c := by
    rw [Pipeline.ownSems0_none, show (pdats m ρ 1 c).Φ (Fin.last _) = (dat1 (V4 m ρ) c).Φ (Fin.last cfg1.N) from rfl]
    iintro H
    ihave H' := (hout1 (V4 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W6`, left with them at `W7`. Its windows'
    arrays are split out of the unscoped buffers and put back at what the write-backs leave; the generator register goes
    into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 7 segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ),
    .host (hseg hostOps2 hostOps2_sub hostOps2_fresh (W5 m ρ)),
    .region (reg2 m ρ) ]

set_option backward.isDefEq.respectTransparency.types false in
/-- THE RUN: at the compiled mesh, from any memory with zero counters, every weakly fair execution of the program
    terminates, nothing faulting, and in every final state each unscoped buffer holds the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.Kernel.Hand

end
-- ==== Proof.FrameA.lean ====
/-
  The frame half of regions 0 and 2 of the kernel's program, each at a parameter `V`: the TensorCore's buffer contents when
  the region is entered.

  Region 0 is the tiled matrix product: at grid point t (of 20) the body loads the block of 5000 rows t of x and the whole
  64 × 64 matrix W, and stores their product (rounded to bf16 on the way in, accumulated in f32 from zero) over the whole
  output block. Region 2 is the pointwise normalisation: at point t it loads the block of 5000 rows of the aggregated array
  and the four [1, 64] rows (mean, variance, gamma, beta) and stores max((x − mean) · rsqrt(var + eps) · gamma + beta, 0)
  over the whole output block. In both the body reads every input block whole and writes the output block whole, once,
  so what each staging buffer holds after the body is one function of the input blocks (`out0_2`, `out2_5`), the inputs'
  buffers are left as found, and the pipeline's invariant is the plain one (nothing is carried between points).
-/
import proofs.«167319_j89876485636648_1_alg».proof.Proof.Gen.KernelIdeal.Launch
import proofs.«167319_j89876485636648_1_alg».proof.Proof.Gen.KernelIdeal.Skeleton
import proofs.«167319_j89876485636648_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! # Region 0: the matrix product -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's current staging buffer holds its block of the entry contents at every point, fetched there or not
    (where it is not fetched its block index has not moved), for any proof data over those entry contents whose body
    leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's current staging buffer holds its block of the entry contents at every point, fetched there or not
    (where it is not fetched its block index has not moved), for any proof data over those entry contents whose body
    leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S5000x64 := Rect.unit (s := S5000x64) ![0, 0] S5000x64.size inb_S5000x64_S5000x64_0_0
abbrev r0_1 : Rect S64x64 := Rect.unit (s := S64x64) ![0, 0] S64x64.size inb_S64x64_S64x64_0_0

/-- The output block after the body: the product of the two loaded blocks, stored over the whole buffer. -/
def out0_2 (x0 : Vec F S5000x64 .f32) (x1 : Vec F S64x64 .f32) : Vec F S5000x64 .f32 :=
  View.canon [⟨r0_0, k0_pay1 (View.ld x0 r0_0) (View.ld x1 r0_1)⟩]

/-- The one store covers the buffer. -/
theorem cover0_2 (p0 : Vec F S5000x64 .f32) (y : S5000x64.Idx) :
    ∃ pc ∈ ([⟨r0_0, p0⟩] : List (View.Piece (Elt F) S5000x64 .f32)), y ∈ pc.1.set :=
  View.cover_of_tiled [⟨r0_0, p0⟩] S5000x64.size (by rfl) y

set_option maxHeartbeats 1000000 in
/-- The body on whole staging memrefs: the inputs' at `x0`, `x1`, the output's at anything; it ends with the inputs' as
    they were and the output's at `out0_2 x0 x1`. -/
theorem sound_kernel0 (c : Dev nD) (E : Set ℕ) (i : grid0.Coords) (arg1 : Memref sig .tc .vmem S5000x64 .f32) (harg1 : arg1.IsWhole) (arg2 : Memref sig .tc .vmem S64x64 .f32) (harg2 : arg2.IsWhole) (arg3 : Memref sig .tc .vmem S5000x64 .f32) (harg3 : arg3.IsWhole)
    (x0 : Vec F S5000x64 .f32) (x1 : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0__matmul_kernel i arg1 harg1 arg2 harg2 arg3 harg3) K := by
  simp only [cc0__matmul_kernel_eq_skeleton]; unfold cc0__matmul_kernel_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of pipeline 0 on core `c`: the arrays as the region finds them; after the body at point `t` each
    input's buffer at its block and the output's at the product of the two blocks; the plain invariant; nothing owed;
    full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' memrefs hold their blocks, so `sound_kernel0` applies; the invariant and the core's
    dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

/-! # Region 2: the pointwise normalisation -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0's current staging buffer holds its block of the entry contents at every point, fetched there or not
    (where it is not fetched its block index has not moved), for any proof data over those entry contents whose body
    leaves the block in place. -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1's current staging buffer holds its block of the entry contents at every point, fetched there or not
    (where it is not fetched its block index has not moved), for any proof data over those entry contents whose body
    leaves the block in place. -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2's current staging buffer holds its block of the entry contents at every point, fetched there or not
    (where it is not fetched its block index has not moved), for any proof data over those entry contents whose body
    leaves the block in place. -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- Input window 3's current staging buffer holds its block of the entry contents at every point, fetched there or not
    (where it is not fetched its block index has not moved), for any proof data over those entry contents whose body
    leaves the block in place. -/
theorem before2_3_of {c : Dev nD} (dat : Dat τ (Elt F) Unit ℕ (UR sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

/-- Input window 4's current staging buffer holds its block of the entry contents at every point, fetched there or not
    (where it is not fetched its block index has not moved), for any proof data over those entry contents whose body
    leaves the block in place. -/
theorem before2_4_of {c : Dev nD} (dat : Dat τ (Elt F) Unit ℕ (UR sig nD τ) ℕ cfg2 c) (hA : dat.A 4 = V c (Pipeline.arrRef spec2 4))
    (hafter : ∀ t, dat.after 4 t = iblk2 V c 4 t) (t : Fin cfg2.N) (d) : dat.before 4 t d = iblk2 V c 4 t :=
  (dat.before_in_eq_fetched 4 rfl (fun _ => rfl) (fun _ _ _ => rfl) (fun t => by rw [hafter]; unfold Dat.blockOf iblk2; rw [hA]; try rfl) t d).trans
    (by unfold Dat.fetched Dat.blockOf iblk2; rw [hA]; try rfl)

abbrev r2_0 : Rect S5000x64 := Rect.unit (s := S5000x64) ![0, 0] S5000x64.size inb_S5000x64_S5000x64_0_0
abbrev r2_1 : Rect S1x64 := Rect.unit (s := S1x64) ![0, 0] S1x64.size inb_S1x64_S1x64_0_0

/-- The output block after the body: the normalised, rectified block, stored over the whole buffer. -/
def out2_5 (x0 : Vec F S5000x64 .f32) (x1 x2 x3 x4 : Vec F S1x64 .f32) : Vec F S5000x64 .f32 :=
  View.canon [⟨r2_0, k2_pay1 (View.ld x0 r2_0) (View.ld x1 r2_1) (View.ld x2 r2_1) (View.ld x3 r2_1) (View.ld x4 r2_1)⟩]

/-- The one store covers the buffer. -/
theorem cover2_5 (p0 : Vec F S5000x64 .f32) (y : S5000x64.Idx) :
    ∃ pc ∈ ([⟨r2_0, p0⟩] : List (View.Piece (Elt F) S5000x64 .f32)), y ∈ pc.1.set :=
  View.cover_of_tiled [⟨r2_0, p0⟩] S5000x64.size (by rfl) y

set_option maxHeartbeats 1000000 in
/-- The body on whole staging memrefs: the inputs' at `x0 … x4`, the output's at anything; it ends with the inputs' as they
    were and the output's at `out2_5 x0 … x4`. -/
theorem sound_kernel2 (c : Dev nD) (E : Set ℕ) (i : grid2.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (arg6 : Memref sig .tc .vmem S5000x64 .f32) (harg6 : arg6.IsWhole)
    (x0 : Vec F S5000x64 .f32) (x1 x2 x3 x4 : Vec F S1x64 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out2_5 x0 x1 x2 x3 x4)) -∗ K ⟨⟩))
      ⊢ wp frame (wpE (defs₀ (F := F)) Variants.none c none) E (cc2__norm_relu_kernel i arg1 harg1 arg2 harg2 arg3 harg3 arg4 harg4 arg5 harg5 arg6 harg6) K := by
  simp only [cc2__norm_relu_kernel_eq_skeleton]; unfold cc2__norm_relu_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0 hf1 hf2 hf3 hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover2_5 _)

/-- The proof data of pipeline 2 on core `c`: the arrays as the region finds them; after the body at point `t` each
    input's buffer at its block and the output's at the normalised block; the plain invariant; nothing owed; full shares. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => iblk2 V c 4 t
    | ⟨5, _⟩ => out2_5 (iblk2 V c 0 t) (iblk2 V c 1 t) (iblk2 V c 2 t) (iblk2 V c 3 t) (iblk2 V c 4 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = iblk2 V c 4 t := by dsimp only [dat2]
theorem after2_5 (c : Dev nD) (t : Fin cfg2.N) : (dat2 V c).after 5 t = out2_5 (iblk2 V c 0 t) (iblk2 V c 1 t) (iblk2 V c 2 t) (iblk2 V c 3 t) (iblk2 V c 4 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d
theorem before2_4 (c : Dev nD) (t : Fin cfg2.N) (d) : (dat2 V c).before 4 t d = iblk2 V c 4 t :=
  before2_4_of V (dat2 V c) (A_eq2 V c 4) (after2_4 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d))
    ∗ (∃ d, owns (c : Thread nD τ) (st2_5 t) fullShare ((dat2 V c).before 5 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t)
    ∗ owns (c : Thread nD τ) (st2_5 t) fullShare ((dat2 V c).after 5 t))

/-- The body at any point: the inputs' memrefs hold their blocks, so `sound_kernel2` applies; the invariant and the core's
    dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3, before2_4]
  rw [show (dat2 V c).Φ t.succ = (dat2 V c).Φ t.castSucc from rfl,
    show (dat2 V c).owesAt () t.succ = (dat2 V c).owesAt () t.castSucc from rfl,
    after2_0, after2_1, after2_2, after2_3, after2_4, after2_5]
  iintro ⟨HΦ, Ho, ⟨%d0, H0⟩, ⟨%d1, H1⟩, ⟨%d2, H2⟩, ⟨%d3, H3⟩, ⟨%d4, H4⟩, ⟨%d5, H5⟩⟩
  iapply (sound_kernel2 c Set.univ _ _ _ _ _ _ _ _ _ _ _ _ _ (iblk2 V c 0 t) (iblk2 V c 1 t) (iblk2 V c 2 t) (iblk2 V c 3 t) (iblk2 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Hand

end
-- ==== Proof.FrameR1Runs.lean ====
import proofs.«167319_j89876485636648_1_alg».proof.Proof.Gen.KernelIdeal.Launch
import proofs.«167319_j89876485636648_1_alg».proof.Proof.Gen.KernelIdeal.Skeleton
import proofs.«167319_j89876485636648_1_alg».proof.Proof.Gen.KernelIdeal.Points
import Idealize.ShloMosaic.Lib.Pipeline.FrameBody
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

-- the TensorCore's buffer contents when the region is entered: the parameter this region's half is stated at
variable (V : (c : Dev nD) → (b : Ref sig .tc) → Buf (Elt F) ((c : Thread nD τ).loc b))

/-! # The statistics region (pipeline 1), at the entry contents `V`: what its three cases share -/

/-! ## The windows' blocks -/

/-- Window `w`'s block at point `t`, read off its array as the region finds it (`V`). -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- The input window's current staging buffer holds its block at every point (it is fetched at every point and its
    blocks tile the array), for any proof data whose array is `V`'s and whose body leaves the block in place. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-! ## The body's two branch conditions -/

/-- The first conditional's condition (the grid coordinate is 0: the accumulators are reset), from the coordinates. -/
abbrev cond1_0 (i : grid1.Coords) : Prop := (Scalar.cmpi .ne (Scalar.extui (Scalar.cmpi .eq (BitVec.ofNat 32 (i 0).val) 0#32)) 0#32) = 1#1
/-- It holds at the first of the 20 points only. -/
theorem hcond1_0 : ∀ t : Fin cfg1.N, cond1_0 (grid1.coords t) ↔ t.val % 20 = 0 :=
  (by decide +kernel : ∀ t : Fin grid1.N, cond1_0 (grid1.coords t) ↔ t.val % 20 = 0)

/-- The second conditional's condition (the grid coordinate is 19: the accumulators are copied out). -/
abbrev cond1_1 (i : grid1.Coords) : Prop := k1_cond2 i = 1#1
/-- It holds at the last of the 20 points only. -/
theorem hcond1_1 : ∀ t : Fin cfg1.N, cond1_1 (grid1.coords t) ↔ t.val % 20 = 19 :=
  (by decide +kernel : ∀ t : Fin grid1.N, cond1_1 (grid1.coords t) ↔ t.val % 20 = 19)

/-! ## Where the windows are idle

Case A: first condition only (point 0). Case B: neither (points 1..18). Case C: second only (point 19). -/

/-- The input window is never idle. -/
theorem liveAt1_0 : ∀ t : Fin cfg1.N, cfg1.idle 0 (grid1.coords t) = false := by decide +kernel
theorem idleAt1_1_A : ∀ t : Fin cfg1.N, cond1_0 (grid1.coords t) → ¬cond1_1 (grid1.coords t) → cfg1.idle 1 (grid1.coords t) = true := by decide +kernel
theorem noFlush1_1_A : ∀ t : Fin cfg1.N, cond1_0 (grid1.coords t) → ¬cond1_1 (grid1.coords t) → (cfg1.win 1).flush t = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_1_B : ∀ t : Fin cfg1.N, ¬cond1_0 (grid1.coords t) → ¬cond1_1 (grid1.coords t) → cfg1.idle 1 (grid1.coords t) = true := by decide +kernel
theorem noFlush1_1_B : ∀ t : Fin cfg1.N, ¬cond1_0 (grid1.coords t) → ¬cond1_1 (grid1.coords t) → (cfg1.win 1).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem liveAt1_1_C : ∀ t : Fin cfg1.N, ¬cond1_0 (grid1.coords t) → cond1_1 (grid1.coords t) → cfg1.idle 1 (grid1.coords t) = false := by decide +kernel
theorem liveAt1_2_C : ∀ t : Fin cfg1.N, ¬cond1_0 (grid1.coords t) → cond1_1 (grid1.coords t) → cfg1.idle 2 (grid1.coords t) = false := by decide +kernel

/-! ## The memrefs the body is called with -/

/-- One staging buffer of each output window, through which its contents are stated. -/
abbrev VO1_1 : View sig .tc .vmem S1x64 .f32 := (Memref.whole cc1_stg1_0 : Memref sig .tc .vmem S1x64 .f32).view
abbrev VO1_2 : View sig .tc .vmem S1x64 .f32 := (Memref.whole cc1_stg2_0 : Memref sig .tc .vmem S1x64 .f32).view
/-- Each window's current staging memref at point `t`, spelled as the pipeline passes it, and its wholeness. -/
abbrev ms1_0 (t : Fin cfg1.N) : Memref sig .tc .vmem S5000x64 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x64 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x64 .f32 := win1_2.stage (cfg1.slots t 2)
abbrev hs1_2 (t : Fin cfg1.N) : (ms1_2 t).IsWhole := hstage1_2 ((cfg1.slots t 2).cast nbuf1_2)
/-- The two scratch accumulators (column sums, column sums of squares): whole scoped buffers of the kernel's own. -/
abbrev scM1_0 : Memref sig .tc .vmem S1x64 .f32 := Memref.whole cc1_scratch0
abbrev scM1_1 : Memref sig .tc .vmem S1x64 .f32 := Memref.whole cc1_scratch1
/-- The accumulators as views: what they hold is stated through them. -/
abbrev VS1_0 : View sig .tc .vmem S1x64 .f32 := scM1_0.view
abbrev VS1_1 : View sig .tc .vmem S1x64 .f32 := scM1_1.view

/-! ## The region invariant, split -/

/-- The core's scoped buffers that are neither staging buffers of this pipeline nor its two accumulators (the other two
    pipelines' staging buffers), each whole at some contents: the body never touches them. -/
def others1 (c : Dev nD) : sProp 𝕄 :=
  iprop((∃ f : Buf (Elt F) ((c : Thread nD τ).loc cc0_stg0_0), ((c : Thread nD τ).loc cc0_stg0_0) ↦{fullShare} f)
      ∗ (∃ f : Buf (Elt F) ((c : Thread nD τ).loc cc0_stg0_1), ((c : Thread nD τ).loc cc0_stg0_1) ↦{fullShare} f)
      ∗ (∃ f : Buf (Elt F) ((c : Thread nD τ).loc cc0_stg1_0), ((c : Thread nD τ).loc cc0_stg1_0) ↦{fullShare} f)
      ∗ (∃ f : Buf (Elt F) ((c : Thread nD τ).loc cc0_stg2_0), ((c : Thread nD τ).loc cc0_stg2_0) ↦{fullShare} f)
      ∗ (∃ f : Buf (Elt F) ((c : Thread nD τ).loc cc0_stg2_1), ((c : Thread nD τ).loc cc0_stg2_1) ↦{fullShare} f)
      ∗ (∃ f : Buf (Elt F) ((c : Thread nD τ).loc cc2_stg0_0), ((c : Thread nD τ).loc cc2_stg0_0) ↦{fullShare} f)
      ∗ (∃ f : Buf (Elt F) ((c : Thread nD τ).loc cc2_stg0_1), ((c : Thread nD τ).loc cc2_stg0_1) ↦{fullShare} f)
      ∗ (∃ f : Buf (Elt F) ((c : Thread nD τ).loc cc2_stg1_0), ((c : Thread nD τ).loc cc2_stg1_0) ↦{fullShare} f)
      ∗ (∃ f : Buf (Elt F) ((c : Thread nD τ).loc cc2_stg2_0), ((c : Thread nD τ).loc cc2_stg2_0) ↦{fullShare} f)
      ∗ (∃ f : Buf (Elt F) ((c : Thread nD τ).loc cc2_stg3_0), ((c : Thread nD τ).loc cc2_stg3_0) ↦{fullShare} f)
      ∗ (∃ f : Buf (Elt F) ((c : Thread nD τ).loc cc2_stg4_0), ((c : Thread nD τ).loc cc2_stg4_0) ↦{fullShare} f)
      ∗ (∃ f : Buf (Elt F) ((c : Thread nD τ).loc cc2_stg5_0), ((c : Thread nD τ).loc cc2_stg5_0) ↦{fullShare} f)
      ∗ (∃ f : Buf (Elt F) ((c : Thread nD τ).loc cc2_stg5_1), ((c : Thread nD τ).loc cc2_stg5_1) ↦{fullShare} f))

/-- The class's invariant with the two accumulators as memrefs owned at some contents, the untouched scoped buffers
    and the generator register beside them: the same conjuncts regrouped, each direction piece by piece. -/
theorem PhiA1_eq (c : Dev nD) :
    (Pipeline.ΦA spec1 c : sProp 𝕄)
      = iprop(iprop((∃ d, owns (c : Thread nD τ) scM1_0 fullShare d) ∗ (∃ d, owns (c : Thread nD τ) scM1_1 fullShare d) ∗ others1 c) ∗ (∃ r, prngReg c r)) := by
  unfold Pipeline.ΦA; rw [scopedRest1_eq]; simp only [scM1_0, scM1_1, owns_whole]; unfold others1
  refine Entails.antisymm ?_ ?_
  · change BIBase.Entails (PROP := sProp 𝕄) _ _
    iintro ⟨⟨A0, A1, A2, A3, A4, S0, S1, B0, B1, B2, B3, B4, B5, B6, B7⟩, Hg⟩
    isplitr [Hg]; swap; · iexact Hg
    isplitl [S0]; · iexact S0
    isplitl [S1]; · iexact S1
    isplitl [A0]; · iexact A0
    isplitl [A1]; · iexact A1
    isplitl [A2]; · iexact A2
    isplitl [A3]; · iexact A3
    isplitl [A4]; · iexact A4
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7
  · change BIBase.Entails (PROP := sProp 𝕄) _ _
    iintro ⟨⟨S0, S1, A0, A1, A2, A3, A4, B0, B1, B2, B3, B4, B5, B6, B7⟩, Hg⟩
    isplitr [Hg]; swap; · iexact Hg
    isplitl [A0]; · iexact A0
    isplitl [A1]; · iexact A1
    isplitl [A2]; · iexact A2
    isplitl [A3]; · iexact A3
    isplitl [A4]; · iexact A4
    isplitl [S0]; · iexact S0
    isplitl [S1]; · iexact S1
    isplitl [B0]; · iexact B0
    isplitl [B1]; · iexact B1
    isplitl [B2]; · iexact B2
    isplitl [B3]; · iexact B3
    isplitl [B4]; · iexact B4
    isplitl [B5]; · iexact B5
    isplitl [B6]; · iexact B6
    iexact B7

end Cert.KernelIdeal.Hand

end
-- ==== Proof.FrameR1RunA.lean ====
import proofs.«167319_j89876485636648_1_alg».proof.Proof.FrameR1Runs

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE A (the first point: the reset is taken, the copy-out is not). The pieces the body's stores leave in each buffer
    (last first), with the proof that on whole memrefs — the input's at its block, the two outputs' at contents handed back
    untouched (nothing is stored into them), the two accumulators' at anything — the body runs to the continuation holding
    the input and outputs as they were and each accumulator with its pieces written: first the zero splat, then the
    block's column sums (of the squares, for the second) added to it. -/
noncomputable def kernelRun1_A (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (xi2 xi3 : Vec F S1x64 .f32) (E : Set ℕ) (K : PUnit → sProp 𝕄),
        iprop(owns (c : Thread nD τ) arg1 fullShare x0 ∗ owns (c : Thread nD τ) arg2 fullShare xi2 ∗ owns (c : Thread nD τ) arg3 fullShare xi3
            ∗ (∃ d, owns (c : Thread nD τ) arg4 fullShare d) ∗ (∃ d, owns (c : Thread nD τ) arg5 fullShare d)
            ∗ (iprop(owns (c : Thread nD τ) arg1 fullShare x0 ∗ owns (c : Thread nD τ) arg2 fullShare xi2 ∗ owns (c : Thread nD τ) arg3 fullShare xi3
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨[], [], ?_, ?_, fun xi2 xi3 E K => ?run⟩
  case run =>
    simp only [cc1__stats_kernel_eq_skeleton]; unfold cc1__stats_kernel_skel
    unfold owns
    iintro ⟨⟨%f1, %hf1, H1⟩, ⟨%f2, %hf2, H2⟩, ⟨%f3, %hf3, H3⟩, ⟨%ds0, %fs0, -, HS0⟩, ⟨%ds1, %fs1, -, HS1⟩, Hk⟩
    obtain rfl := harg1.eq_unread hf1; obtain rfl := harg2.eq_unread hf2; obtain rfl := harg3.eq_unread hf3
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [HS0]; · iexists _; iexact HS0
    iexists _; iexact HS1

end Cert.KernelIdeal.Hand

end
-- ==== Proof.FrameR1RunB.lean ====
import proofs.«167319_j89876485636648_1_alg».proof.Proof.FrameR1RunA

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE B (points 1 to 18: neither conditional is taken). As case A, but the two accumulators are at the contents the
    point before left (`xs0`, `xs1`), which the body reads; each ends with one piece: the block's column sums (of the
    squares, for the second) added to those contents. -/
noncomputable def kernelRun1_B (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (xi2 xi3 : Vec F S1x64 .f32) (E : Set ℕ) (K : PUnit → sProp 𝕄),
        iprop(owns (c : Thread nD τ) arg1 fullShare x0 ∗ owns (c : Thread nD τ) arg2 fullShare xi2 ∗ owns (c : Thread nD τ) arg3 fullShare xi3
            ∗ owns (c : Thread nD τ) arg4 fullShare xs0 ∗ owns (c : Thread nD τ) arg5 fullShare xs1
            ∗ (iprop(owns (c : Thread nD τ) arg1 fullShare x0 ∗ owns (c : Thread nD τ) arg2 fullShare xi2 ∗ owns (c : Thread nD τ) arg3 fullShare xi3
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨[], [], ?_, ?_, fun xi2 xi3 E K => ?run⟩
  case run =>
    simp only [cc1__stats_kernel_eq_skeleton]; unfold cc1__stats_kernel_skel
    unfold owns
    iintro ⟨⟨%f1, %hf1, H1⟩, ⟨%f2, %hf2, H2⟩, ⟨%f3, %hf3, H3⟩, ⟨%fs0, %hfs0, HS0⟩, ⟨%fs1, %hfs1, HS1⟩, Hk⟩
    obtain rfl := harg1.eq_unread hf1; obtain rfl := harg2.eq_unread hf2; obtain rfl := harg3.eq_unread hf3
    obtain rfl := harg4.eq_unread hfs0; obtain rfl := harg5.eq_unread hfs1
    sl_exec (disch := first | exact hc0 | exact hc1)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [HS0]; · iexists _; iexact HS0
    iexists _; iexact HS1

end Cert.KernelIdeal.Hand

end
-- ==== Proof.FrameR1RunC.lean ====
import proofs.«167319_j89876485636648_1_alg».proof.Proof.FrameR1RunB

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
/-- CASE C (the last point: the reset is not taken, the copy-out is). The accumulators are at the contents the point
    before left and each ends with one piece, as in case B; the two outputs, at anything, each end with one piece: the
    accumulator's new contents, read back and stored whole. -/
noncomputable def kernelRun1_C (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) :
    Σ' (L2 : List (View.Piece (Elt F) S1x64 .f32)) (L3 : List (View.Piece (Elt F) S1x64 .f32)) (LS0 : List (View.Piece (Elt F) S1x64 .f32)), { LS1 : List (View.Piece (Elt F) S1x64 .f32) //
      ∀ (E : Set ℕ) (K : PUnit → sProp 𝕄),
        iprop(owns (c : Thread nD τ) arg1 fullShare x0 ∗ (∃ d, owns (c : Thread nD τ) arg2 fullShare d) ∗ (∃ d, owns (c : Thread nD τ) arg3 fullShare d)
            ∗ owns (c : Thread nD τ) arg4 fullShare xs0 ∗ owns (c : Thread nD τ) arg5 fullShare xs1
            ∗ (iprop(owns (c : Thread nD τ) arg1 fullShare x0 ∗ (∃ f, arg2.view.loc (c : Thread nD τ) ↦[arg2.view.set]{fullShare} arg2.view.writes (Elt F) f L2) ∗ (∃ f, arg3.view.loc (c : Thread nD τ) ↦[arg3.view.set]{fullShare} arg3.view.writes (Elt F) f L3)
                ∗ (∃ f, arg4.view.loc (c : Thread nD τ) ↦[arg4.view.set]{fullShare} arg4.view.writes (Elt F) f LS0) ∗ (∃ f, arg5.view.loc (c : Thread nD τ) ↦[arg5.view.set]{fullShare} arg5.view.writes (Elt F) f LS1)) -∗ K ⟨⟩))
          ⊢ wp frame (wpE (defs₀ (F := F)) Variants.none c none) E (cc1__stats_kernel i arg1 harg1 arg2 harg2 arg3 harg3 arg4 harg4 arg5 harg5) K } := by
  refine ⟨?_, ?_, ?_, ?_, fun E K => ?run⟩
  case run =>
    simp only [cc1__stats_kernel_eq_skeleton]; unfold cc1__stats_kernel_skel
    unfold owns
    iintro ⟨⟨%f1, %hf1, H1⟩, ⟨%d2, %f2, -, H2⟩, ⟨%d3, %f3, -, H3⟩, ⟨%fs0, %hfs0, HS0⟩, ⟨%fs1, %hfs1, HS1⟩, Hk⟩
    obtain rfl := harg1.eq_unread hf1
    obtain rfl := harg4.eq_unread hfs0; obtain rfl := harg5.eq_unread hfs1
    sl_exec (disch := first | exact hc0 | exact hc1)
    sl_step
    iapply Hk
    isplitl [H1]
    · iexists _; isplitr; · ipureintro; exact harg1.read_unread _
      iexact H1
    isplitl [H2]; · iexists _; iexact H2
    isplitl [H3]; · iexists _; iexact H3
    isplitl [HS0]; · iexists _; iexact HS0
    iexists _; iexact HS1

end Cert.KernelIdeal.Hand

end
-- ==== Proof.FrameR1.lean ====
import proofs.«167319_j89876485636648_1_alg».proof.Proof.FrameR1RunC

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! # The statistics region (pipeline 1): its frame half, at the entry contents `V`

What each case leaves in the outputs and the accumulators, the accumulation point by point, the proof data and the body
obligation. -/

/-- Case A stores nothing into the two outputs: no pieces — a placeholder (junk read back) that nothing consults, since
    at these points the windows are neither written back nor read at the next point. -/
def out1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) : Vec F S1x64 .f32 :=
  VO1_1.read (Elt F) (VO1_1.writes (Elt F) VO1_1.junk (kernelRun1_A c i arg1 harg1 arg2 harg2 arg3 harg3 arg4 harg4 arg5 harg5 hc0 hc1 x0).1)
def out1_A_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) : Vec F S1x64 .f32 :=
  VO1_2.read (Elt F) (VO1_2.writes (Elt F) VO1_2.junk (kernelRun1_A c i arg1 harg1 arg2 harg2 arg3 harg3 arg4 harg4 arg5 harg5 hc0 hc1 x0).2.1)

/-- Case A's pieces for each accumulator cover it (whole-buffer stores). -/
theorem scover1_A_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) (y : S1x64.Idx) :
    ∃ pc ∈ (kernelRun1_A c i arg1 harg1 arg2 harg2 arg3 harg3 arg4 harg4 arg5 harg5 hc0 hc1 x0).2.2.1, y ∈ pc.1.set :=
  View.cover_of_tiledL (kernelRun1_A c i arg1 harg1 arg2 harg2 arg3 harg3 arg4 harg4 arg5 harg5 hc0 hc1 x0).2.2.1 S1x64.size (by sl_kernel_rfl) y
theorem scover1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) (y : S1x64.Idx) :
    ∃ pc ∈ (kernelRun1_A c i arg1 harg1 arg2 harg2 arg3 harg3 arg4 harg4 arg5 harg5 hc0 hc1 x0).2.2.2.1, y ∈ pc.1.set :=
  View.cover_of_tiledL (kernelRun1_A c i arg1 harg1 arg2 harg2 arg3 harg3 arg4 harg4 arg5 harg5 hc0 hc1 x0).2.2.2.1 S1x64.size (by sl_kernel_rfl) y

/-- What case A leaves in each accumulator: its pieces read back over junk. -/
def sout1_A_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) : Vec F S1x64 .f32 :=
  VS1_0.read (Elt F) (VS1_0.writes (Elt F) VS1_0.junk (kernelRun1_A c i arg1 harg1 arg2 harg2 arg3 harg3 arg4 harg4 arg5 harg5 hc0 hc1 x0).2.2.1)
def sout1_A_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) : Vec F S1x64 .f32 :=
  VS1_1.read (Elt F) (VS1_1.writes (Elt F) VS1_1.junk (kernelRun1_A c i arg1 harg1 arg2 harg2 arg3 harg3 arg4 harg4 arg5 harg5 hc0 hc1 x0).2.2.2.1)

/-- Case B stores nothing into the two outputs: no pieces — a placeholder (junk read back) that nothing consults, since
    at these points the windows are neither written back nor read at the next point. -/
def out1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) : Vec F S1x64 .f32 :=
  VO1_1.read (Elt F) (VO1_1.writes (Elt F) VO1_1.junk (kernelRun1_B c i arg1 harg1 arg2 harg2 arg3 harg3 arg4 harg4 arg5 harg5 hc0 hc1 x0 xs0 xs1).1)
def out1_B_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) : Vec F S1x64 .f32 :=
  VO1_2.read (Elt F) (VO1_2.writes (Elt F) VO1_2.junk (kernelRun1_B c i arg1 harg1 arg2 harg2 arg3 harg3 arg4 harg4 arg5 harg5 hc0 hc1 x0 xs0 xs1).2.1)

/-- Case B's pieces for each accumulator cover it (whole-buffer stores). -/
theorem scover1_B_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) (y : S1x64.Idx) :
    ∃ pc ∈ (kernelRun1_B c i arg1 harg1 arg2 harg2 arg3 harg3 arg4 harg4 arg5 harg5 hc0 hc1 x0 xs0 xs1).2.2.1, y ∈ pc.1.set :=
  View.cover_of_tiledL (kernelRun1_B c i arg1 harg1 arg2 harg2 arg3 harg3 arg4 harg4 arg5 harg5 hc0 hc1 x0 xs0 xs1).2.2.1 S1x64.size (by sl_kernel_rfl) y
theorem scover1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) (y : S1x64.Idx) :
    ∃ pc ∈ (kernelRun1_B c i arg1 harg1 arg2 harg2 arg3 harg3 arg4 harg4 arg5 harg5 hc0 hc1 x0 xs0 xs1).2.2.2.1, y ∈ pc.1.set :=
  View.cover_of_tiledL (kernelRun1_B c i arg1 harg1 arg2 harg2 arg3 harg3 arg4 harg4 arg5 harg5 hc0 hc1 x0 xs0 xs1).2.2.2.1 S1x64.size (by sl_kernel_rfl) y

/-- What case B leaves in each accumulator: its pieces read back over junk. -/
def sout1_B_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) : Vec F S1x64 .f32 :=
  VS1_0.read (Elt F) (VS1_0.writes (Elt F) VS1_0.junk (kernelRun1_B c i arg1 harg1 arg2 harg2 arg3 harg3 arg4 harg4 arg5 harg5 hc0 hc1 x0 xs0 xs1).2.2.1)
def sout1_B_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) : Vec F S1x64 .f32 :=
  VS1_1.read (Elt F) (VS1_1.writes (Elt F) VS1_1.junk (kernelRun1_B c i arg1 harg1 arg2 harg2 arg3 harg3 arg4 harg4 arg5 harg5 hc0 hc1 x0 xs0 xs1).2.2.2.1)

/-- Case C's single store into each output covers it. -/
theorem cover1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).1, y ∈ pc.1.set :=
  View.cover_of_tiledL (kernelRun1_C c i arg1 harg1 arg2 harg2 arg3 harg3 arg4 harg4 arg5 harg5 hc0 hc1 x0 xs0 xs1).1 S1x64.size (by sl_kernel_rfl) y
theorem cover1_C_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.1, y ∈ pc.1.set :=
  View.cover_of_tiledL (kernelRun1_C c i arg1 harg1 arg2 harg2 arg3 harg3 arg4 harg4 arg5 harg5 hc0 hc1 x0 xs0 xs1).2.1 S1x64.size (by sl_kernel_rfl) y

/-- What case C leaves in each output's staging buffer: its piece read back over junk. -/
def out1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VO1_1.read (Elt F) (VO1_1.writes (Elt F) VO1_1.junk (kernelRun1_C c i arg1 harg1 arg2 harg2 arg3 harg3 arg4 harg4 arg5 harg5 hc0 hc1 x0 xs0 xs1).1)
def out1_C_2 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VO1_2.read (Elt F) (VO1_2.writes (Elt F) VO1_2.junk (kernelRun1_C c i arg1 harg1 arg2 harg2 arg3 harg3 arg4 harg4 arg5 harg5 hc0 hc1 x0 xs0 xs1).2.1)

/-- Case C's pieces for each accumulator cover it (whole-buffer stores). -/
theorem scover1_C_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.2.1, y ∈ pc.1.set :=
  View.cover_of_tiledL (kernelRun1_C c i arg1 harg1 arg2 harg2 arg3 harg3 arg4 harg4 arg5 harg5 hc0 hc1 x0 xs0 xs1).2.2.1 S1x64.size (by sl_kernel_rfl) y
theorem scover1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) (y : S1x64.Idx) :
    ∃ pc ∈ (kernelRun1_C c i arg1 harg1 arg2 harg2 arg3 harg3 arg4 harg4 arg5 harg5 hc0 hc1 x0 xs0 xs1).2.2.2.1, y ∈ pc.1.set :=
  View.cover_of_tiledL (kernelRun1_C c i arg1 harg1 arg2 harg2 arg3 harg3 arg4 harg4 arg5 harg5 hc0 hc1 x0 xs0 xs1).2.2.2.1 S1x64.size (by sl_kernel_rfl) y

/-- What case C leaves in each accumulator: its pieces read back over junk. -/
def sout1_C_0 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VS1_0.read (Elt F) (VS1_0.writes (Elt F) VS1_0.junk (kernelRun1_C c i arg1 harg1 arg2 harg2 arg3 harg3 arg4 harg4 arg5 harg5 hc0 hc1 x0 xs0 xs1).2.2.1)
def sout1_C_1 (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) : Vec F S1x64 .f32 :=
  VS1_1.read (Elt F) (VS1_1.writes (Elt F) VS1_1.junk (kernelRun1_C c i arg1 harg1 arg2 harg2 arg3 harg3 arg4 harg4 arg5 harg5 hc0 hc1 x0 xs0 xs1).2.2.2.1)

variable (V : (c : Dev nD) → (b : Ref sig .tc) → Buf (Elt F) ((c : Thread nD τ).loc b))

/-! ## What the outputs and the accumulators hold after each point -/

/-- THE ACCUMULATION. What the two outputs' staging buffers and the two accumulators hold after the body at position `n`
    (a tuple: output 1, output 2, accumulator 0, accumulator 1): the case the closed forms select at `n`, run at the point's
    memrefs and input block, the accumulators read at what this leaves at `n - 1`. An assignment of the conditions no
    point meets is no case. -/
def outsAt1 (c : Dev nD) : (n : ℕ) → n < cfg1.N → Vec F S1x64 .f32 × Vec F S1x64 .f32 × Vec F S1x64 .f32 × Vec F S1x64 .f32
  | 0, hn => (out1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), out1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩), sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1_0 (Memref.isWhole_whole _) scM1_1 (Memref.isWhole_whole _) ((hcond1_0 ⟨0, hn⟩).mpr (Nat.zero_mod _)) (fun h => (fun h => by (try dsimp only at h); omega) ((hcond1_1 ⟨0, hn⟩).mp h)) (iblk1 V c 0 ⟨0, hn⟩))
  | n + 1, hn =>
    if h0 : (n + 1) % 20 = 0 then
      if h1 : (n + 1) % 20 = 19 then
        False.elim (by have hN : n + 1 < 20 := lt_of_lt_of_eq hn (show cfg1.N = 20 from N_1); omega)
      else
        (out1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), out1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩), sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) ((hcond1_0 ⟨n + 1, hn⟩).mpr h0) (fun h => h1 ((hcond1_1 ⟨n + 1, hn⟩).mp h)) (iblk1 V c 0 ⟨n + 1, hn⟩))
    else
      if h1 : (n + 1) % 20 = 19 then
        (out1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2, sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) ((hcond1_1 ⟨n + 1, hn⟩).mpr h1) (iblk1 V c 0 ⟨n + 1, hn⟩) (outsAt1 c n (Nat.lt_of_succ_lt hn)).2.2.1 (outsAt1 c n (Nat.lt_of_succ_lt hn)).2.2.2)
      else
        (out1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, out1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2, sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1_0 (Memref.isWhole_whole _) scM1_1 (Memref.isWhole_whole _) (fun h => h0 ((hcond1_0 ⟨n + 1, hn⟩).mp h)) (fun h => h1 ((hcond1_1 ⟨n + 1, hn⟩).mp h)) (iblk1 V c 0 ⟨n + 1, hn⟩) (outsAt1 c n (Nat.lt_of_succ_lt hn)).2.2.1 (outsAt1 c n (Nat.lt_of_succ_lt hn)).2.2.2)

/-- `outsAt1` at a point of case A: that case's contents. -/
theorem outsAt1_A (c : Dev nD) (t : Fin cfg1.N) (h0 : t.val % 20 = 0) (h1 : ¬t.val % 20 = 19) :
    outsAt1 V c t.val t.isLt = (out1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t), out1_A_2 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t), sout1_A_0 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t), sout1_A_1 c (grid1.coords t) (ms1_0 t) (hs1_0 t) (ms1_1 t) (hs1_1 t) (ms1_2 t) (hs1_2 t) scM1_0 (Memref.isWhole_whole _) scM1_1 (Memref.isWhole_whole _) ((hcond1_0 t).mpr h0) (fun h => h1 ((hcond1_1 t).mp h)) (iblk1 V c 0 t)) := by
  obtain ⟨n, hn⟩ := t
  cases n with
  | zero => exact rfl
  | succ n => exact (dif_pos h0).trans ((dif_neg h1).trans rfl)

/-- `outsAt1` at a point of case B: that case's contents, over what the point before left in the accumulators. -/
theorem outsAt1_B (c : Dev nD) (t : Fin cfg1.N) (h0 : ¬t.val % 20 = 0) (h1 : ¬t.val % 20 = 19) :
    outsAt1 V c t.val t.isLt = (out1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, out1_B_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_B_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) (fun h => h1 ((hcond1_1 t).mp h)) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_neg h1).trans rfl)

/-- `outsAt1` at a point of case C: that case's contents, over what the point before left in the accumulators. -/
theorem outsAt1_C (c : Dev nD) (t : Fin cfg1.N) (h0 : ¬t.val % 20 = 0) (h1 : t.val % 20 = 19) :
    outsAt1 V c t.val t.isLt = (out1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, out1_C_2 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_0 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2, sout1_C_1 c (grid1.coords t) (ms1_0 t) (hs1_0 t) (ms1_1 t) (hs1_1 t) (ms1_2 t) (hs1_2 t) scM1_0 (Memref.isWhole_whole _) scM1_1 (Memref.isWhole_whole _) (fun h => h0 ((hcond1_0 t).mp h)) ((hcond1_1 t).mpr h1) (iblk1 V c 0 t) (outsAt1 V c (t.val - 1) (Nat.lt_of_le_of_lt (Nat.sub_le _ _) t.isLt)).2.2.1 (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans ((dif_pos h1).trans rfl)

/-- The region invariant before position `n`: before the first point the class's (every scoped buffer at anything, the
    generator register at some state); afterwards the same with the two accumulators at what the point before left in
    them (`outsAt1`'s last two components). -/
def PhiS1 (c : Dev nD) : (n : ℕ) → n ≤ cfg1.N → sProp 𝕄
  | 0, _ => Pipeline.ΦA spec1 c
  | n + 1, hn => iprop(iprop(owns (c : Thread nD τ) scM1_0 fullShare ((outsAt1 V c n hn).2.2.1) ∗ owns (c : Thread nD τ) scM1_1 fullShare ((outsAt1 V c n hn).2.2.2) ∗ others1 c) ∗ (∃ r, prngReg c r))

theorem PhiS1_zero (c : Dev nD) (n : ℕ) (h : n ≤ cfg1.N) (hz : n = 0) : PhiS1 V c n h = Pipeline.ΦA spec1 c := by
  subst hz; rfl

/-- After point `n` (before point `n + 1`): the accumulators at that point's contents. -/
theorem PhiS1_succ (c : Dev nD) (n : ℕ) (hn : n < cfg1.N) :
    PhiS1 V c (n + 1) hn = iprop(iprop(owns (c : Thread nD τ) scM1_0 fullShare ((outsAt1 V c n hn).2.2.1) ∗ owns (c : Thread nD τ) scM1_1 fullShare ((outsAt1 V c n hn).2.2.2) ∗ others1 c) ∗ (∃ r, prngReg c r)) := rfl

/-- Before a point that is not the first: the accumulators at what the point before left. -/
theorem PhiS1_pos (c : Dev nD) (n : ℕ) (h : n ≤ cfg1.N) (hz : n ≠ 0) :
    PhiS1 V c n h = iprop(iprop(owns (c : Thread nD τ) scM1_0 fullShare ((outsAt1 V c (n - 1) (by omega)).2.2.1) ∗ owns (c : Thread nD τ) scM1_1 fullShare ((outsAt1 V c (n - 1) (by omega)).2.2.2) ∗ others1 c) ∗ (∃ r, prngReg c r)) := by
  cases n with
  | zero => exact absurd rfl hz
  | succ n => rfl

/-! ## The pipeline's proof data -/

/-- The proof data of pipeline 1 on core `c`: the arrays as the region finds them (`V`); after the body at point `t` the
    input's buffer at its block and the two outputs' at `outsAt1`'s first two components; the invariant `PhiS1`; nothing
    owed; full shares. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => (outsAt1 V c t.val t.isLt).1
    | ⟨2, _⟩ => (outsAt1 V c t.val t.isLt).2.1
  Φ t := PhiS1 V c t.val (Nat.le_of_lt_succ t.isLt)
  q _ := fullShare
  owed _ := 0

/-- The proof data's arrays are the region-entry contents. -/
theorem A_eq1 (c : Dev nD) (w : Fin cfg1.W) : (dat1 V c).A w = V c (Pipeline.arrRef spec1 w) := by
  dsimp only [dat1]

/-- The invariant at a point's start, restated at `t.val`. -/
theorem PhiS1_castSucc (c : Dev nD) (t : Fin cfg1.N) :
    (dat1 V c).Φ t.castSucc = PhiS1 V c t.val (Nat.le_of_lt t.isLt) := by
  dsimp only [dat1]; simp only [Fin.coe_castSucc]

/-- What the body leaves, window by window. -/
theorem after1_0 (c : Dev nD) (t : Fin cfg1.N) : (dat1 V c).after 0 t = iblk1 V c 0 t := by dsimp only [dat1]
theorem after1_1 (c : Dev nD) (t : Fin cfg1.N) : (dat1 V c).after 1 t = (outsAt1 V c t.val t.isLt).1 := by dsimp only [dat1]
theorem after1_2 (c : Dev nD) (t : Fin cfg1.N) : (dat1 V c).after 2 t = (outsAt1 V c t.val t.isLt).2.1 := by dsimp only [dat1]

/-- The input's current staging buffer holds its block at every point. -/
theorem before1_0 (c : Dev nD) (t : Fin cfg1.N) (d) : (dat1 V c).before 0 t d = iblk1 V c 0 t :=
  before1_0_of V (dat1 V c) (A_eq1 V c 0) (after1_0 V c) t d

/-! ## The body obligation, at a generic point -/

/-- What the body is called with at point `t` (the library's body obligation's precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t)

set_option maxHeartbeats 4800000 in
/-- The body at any point. The input's memref holds its block; the closed forms say which case the point is in. The
    invariant hands the body the two accumulators — at anything at the first point (case A, which resets them), at what
    the point before left otherwise (cases B and C, which read them) — and takes them back at this point's contents, its
    other conjuncts untouched. Where the outputs are idle (cases A, B) their buffers are handed back as found; at the last
    point (case C) each is covered by its one store. The core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0]
  rw [show (dat1 V c).owesAt () t.succ = (dat1 V c).owesAt () t.castSucc from rfl]
  rw [show (dat1 V c).Φ t.succ = PhiS1 V c (t.val + 1) t.isLt from rfl, PhiS1_succ]
  have hN : t.val < 20 := lt_of_lt_of_eq t.isLt (show cfg1.N = 20 from N_1)
  rw [show (dat1 V c).leavesExact 0 t = owns (c : Thread nD τ) (ms1_0 t) fullShare ((dat1 V c).after 0 t) from by
    unfold Dat.leavesExact; rw [liveAt1_0 t], after1_0]
  by_cases h0 : t.val % 20 = 0
  · by_cases h1 : t.val % 20 = 19
    · exfalso; omega
    · rw [Dat.leavesExact_idle (dat1 V c) 1 t (idleAt1_1_A t ((hcond1_0 t).mpr h0) (fun h => h1 ((hcond1_1 t).mp h))) (noFlush1_1_A t ((hcond1_0 t).mpr h0) (fun h => h1 ((hcond1_1 t).mp h)))]
      rw [Dat.leavesExact_idle (dat1 V c) 2 t (idleAt1_2_A t ((hcond1_0 t).mpr h0) (fun h => h1 ((hcond1_1 t).mp h))) (noFlush1_2_A t ((hcond1_0 t).mpr h0) (fun h => h1 ((hcond1_1 t).mp h)))]
      rw [outsAt1_A V c t h0 h1]
      unfold sout1_A_0 sout1_A_1; (try dsimp only)
      have hz : t.val = 0 := by omega
      rw [PhiS1_castSucc V c t, PhiS1_zero V c _ _ hz, PhiA1_eq]
      iintro ⟨⟨⟨HS0, HS1, Hoth⟩, Hg⟩, Ho, ⟨%d0, H0⟩, ⟨%d1, H1⟩, ⟨%d2, H2⟩⟩
      iapply ((kernelRun1_A c (grid1.coords t) _ _ _ _ _ _ _ _ _ _ ((hcond1_0 t).mpr h0) (fun h => h1 ((hcond1_1 t).mp h)) (iblk1 V c 0 t)).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_A_0 c _ _ _ _ _ _ _ _ _ _ _ _ _ _)
          isplitl [HS1]
          · unfold owns; iexists _; isplitr
            swap; · iexact HS1
            ipureintro; exact View.read_writes_of_cover _ _ _ _ _ (scover1_A_1 c _ _ _ _ _ _ _ _ _ _ _ _ _ _)
          iexact Hoth
        iexact Hg
      isplitl [Ho]; · iexact Ho
      isplitl [H0]; · iexact H0
      isplitl [H1]; · iexists _; iexact H1
      iexists _; iexact H2
  · by_cases h1 : t.val % 20 = 19
    · rw [show (dat1 V c).leavesExact 1 t = owns (c : Thread nD τ) (ms1_1 t) fullShare ((dat1 V c).after 1 t) from by
        unfold Dat.leavesExact; rw [liveAt1_1_C t (fun h => h0 ((hcond1_0 t).mp h)) ((hcond1_1 t).mpr h1)], after1_1]
      rw [show (dat1 V c).leavesExact 2 t = owns (c : Thread nD τ) (ms1_2 t) fullShare ((dat1 V c).after 2 t) from by
        unfold Dat.leavesExact; rw [liveAt1_2_C t (fun h => h0 ((hcond1_0 t).mp h)) ((hcond1_1 t).mpr h1)], after1_2]
      rw [outsAt1_C V c t h0 h1]
      unfold out1_C_1 out1_C_2 sout1_C_0 sout1_C_1; (try dsimp only)
      have hz : t.val ≠ 0 := by omega
      rw [PhiS1_castSucc V c t, PhiS1_pos V c _ _ hz]
      iintro ⟨⟨⟨HS0, HS1, Hoth⟩, Hg⟩, Ho, ⟨%d0, H0⟩, ⟨%d1, H1⟩, ⟨%d2, H2⟩⟩
      iapply ((kernelRun1_C c (grid1.coords t) _ _ _ _ _ _ _ _ _ _ (fun h => h0 ((hcond1_0 t).mp h)) ((hcond1_1 t).mpr h1) (iblk1 V c 0 t) _ _).2.2.2.2 Set.univ _)
      isplitl [H0]; · iexact H0
      isplitl [H1]; · iexists _; iexact H1
      isplitl [H2]; · iexists _; iexact H2
      isplitl [HS0]; · iexact HS0
      isplitl [HS1]; · iexact HS1
      iintro ⟨H0, ⟨%e1, H1⟩, ⟨%e2, H2⟩, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_C_0 c _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _)
          iexact Hoth
        iexact Hg
      isplitl [Ho]; · iexact Ho
      isplitl [H0]; · iexact H0
      isplitl [H1]
      · unfold owns; iexists _; isplitr
        swap; · iexact H1
        ipureintro; exact View.read_writes_of_cover _ _ _ _ _ (cover1_C_1 c _ _ _ _ _ _ _ _ _ _ _ _ _ _ _ _)
      unfold owns; iexists _; isplitr
      swap; · iexact H2
      ipureintro; exact View.read_writes_of_cover _ _ _ _ _ (cover1_C_2 c _ _ _ _ _ _ _ _ _ _ _ _ _ _ _ _)
    · rw [Dat.leavesExact_idle (dat1 V c) 1 t (idleAt1_1_B t (fun h => h0 ((hcond1_0 t).mp h)) (fun h => h1 ((hcond1_1 t).mp h))) (noFlush1_1_B t (fun h => h0 ((hcond1_0 t).mp h)) (fun h => h1 ((hcond1_1 t).mp h)))]
      rw [Dat.leavesExact_idle (dat1 V c) 2 t (idleAt1_2_B t (fun h => h0 ((hcond1_0 t).mp h)) (fun h => h1 ((hcond1_1 t).mp h))) (noFlush1_2_B t (fun h => h0 ((hcond1_0 t).mp h)) (fun h => h1 ((hcond1_1 t).mp h)))]
      rw [outsAt1_B V c t h0 h1]
      unfold sout1_B_0 sout1_B_1; (try dsimp only)
      have hz : t.val ≠ 0 := by omega
      rw [PhiS1_castSucc V c t, PhiS1_pos V c _ _ hz]
      iintro ⟨⟨⟨HS0, HS1, Hoth⟩, Hg⟩, Ho, ⟨%d0, H0⟩, ⟨%d1, H1⟩, ⟨%d2, H2⟩⟩
      iapply ((kernelRun1_B c (grid1.coords t) _ _ _ _ _ _ _ _ _ _ (fun h => h0 ((hcond1_0 t).mp h)) (fun h => h1 ((hcond1_1 t).mp h)) (iblk1 V c 0 t) _ _).2.2.2.2 _ _ Set.univ _)
      isplitl [H0]; · iexact H0
      isplitl [H1]; · iexact H1
      isplitl [H2]; · iexact H2
      isplitl [HS0]; · iexact HS0
      isplitl [HS1]; · iexact HS1
      iintro ⟨H0, H1, H2, ⟨%es0, HS0⟩, ⟨%es1, HS1⟩⟩
      isplitl [HS0 HS1 Hoth Hg]
      · isplitl [HS0 HS1 Hoth]
        · isplitl [HS0]
          · unfold owns; iexists _; isplitr
            swap; · iexact HS0
            ipureintro; exact View.read_writes_of_cover _ _ _ _ _ (scover1_B_0 c _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _)
          iexact Hoth
        iexact Hg
      isplitl [Ho]; · iexact Ho
      isplitl [H0]; · iexact H0
      isplitl [H1]; · iexists _; iexact H1
      iexists _; iexact H2

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = PhiS1 V c 0 (Nat.zero_le _) from rfl, PhiS1_zero V c 0 _ rfl]
  try exact Idealize.SL.BI.Entails.refl _

/-- After any point but the first the invariant gives the class's back: the accumulators' named contents are forgotten. -/
theorem Phi_out1 (c : Dev nD) (t : Fin (cfg1.N + 1)) (ht : t.val ≠ 0) : (dat1 V c).Φ t ⊢ Pipeline.ΦA spec1 c := by
  rw [show (dat1 V c).Φ t = PhiS1 V c t.val (Nat.le_of_lt_succ t.isLt) from rfl, PhiS1_pos V c _ _ ht, PhiA1_eq]
  iintro ⟨⟨HS0, HS1, Hoth⟩, Hg⟩
  isplitl [HS0 HS1 Hoth]
  · isplitl [HS0]; · iexists _; iexact HS0
    isplitl [HS1]; · iexists _; iexact HS1
    iexact Hoth
  iexact Hg

/-- The same after the last point. -/
theorem hout1 (c : Dev nD) : (dat1 V c).Φ (Fin.last cfg1.N) ⊢ Pipeline.ΦA spec1 c :=
  Phi_out1 V c _ (by rw [Fin.val_last]; have : cfg1.N = 20 := N_1; omega)

end Cert.KernelIdeal.Hand

end
-- ==== Proof.FrameRun.lean ====
/-
  The run of the kernel's program from the launch to the return: its three regions among the host operations, as the
  pipeline library's segments.

  The buffer contents at each boundary are a fold through the program: `W0` the launch memory; `W1` after region 0 (the
  matrix product's output array at what its 20 write-backs leave, everything else as before); `W2`, `W3`, `W4` after the
  three stretches of host operations of the aggregation; `W5` after region 1 (the two statistics rows); `W6` after the
  host operations that turn the sums into mean and variance; `W7` after region 2 (the result array). Each region is
  entered with every unscoped buffer at the boundary's contents and left with them at the next boundary's; the run ends
  with every unscoped buffer at `W7` (`run_all`), from which the frame (each argument as launched: `frame`) and the
  result's value are read.
-/
import proofs.«167319_j89876485636648_1_alg».proof.Proof.Gen.KernelIdeal.Launch
import proofs.«167319_j89876485636648_1_alg».proof.Proof.Gen.KernelIdeal.Skeleton
import proofs.«167319_j89876485636648_1_alg».proof.Proof.Gen.KernelIdeal.Points
import proofs.«167319_j89876485636648_1_alg».proof.Proof.Gen.KernelIdeal.Regions
import proofs.«167319_j89876485636648_1_alg».proof.Proof.FrameA
import proofs.«167319_j89876485636648_1_alg».proof.Proof.FrameR1
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- Core `c`'s buffers at launch (region 0's entry). -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- At region 0's exit: its windows' arrays at what the pipeline leaves (an input as entered, an output at its write-backs
    folded), every other buffer as entered. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)

/-- After the first stretch of host operations. -/
abbrev W2 : Dev nD → Valuation τ sig (Elt F) := fun c => StableHlo.after hostOps1 (W1 m ρ c)
/-- After the second. -/
abbrev W3 : Dev nD → Valuation τ sig (Elt F) := fun c => StableHlo.after hostOps1_1 (W2 m ρ c)
/-- After the third (region 1's entry). -/
abbrev W4 : Dev nD → Valuation τ sig (Elt F) := fun c => StableHlo.after hostOps1_2 (W3 m ρ c)
abbrev V4 : (c : Dev nD) → (b : Ref sig .tc) → Buf (Elt F) ((c : Thread nD τ).loc b) := fun c b => W4 m ρ c b
/-- At region 1's exit: its windows' arrays at what the pipeline leaves (an input as entered, an output at its write-backs
    folded), every other buffer as entered. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
abbrev V5 : (c : Dev nD) → (b : Ref sig .tc) → Buf (Elt F) ((c : Thread nD τ).loc b) := fun c b => W5 m ρ c b
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- After the host operations between regions 1 and 2 (region 2's entry). -/
abbrev W6 : Dev nD → Valuation τ sig (Elt F) := fun c => StableHlo.after hostOps2 (W5 m ρ c)
abbrev V6 : (c : Dev nD) → (b : Ref sig .tc) → Buf (Elt F) ((c : Thread nD τ).loc b) := fun c b => W6 m ρ c b
/-- At region 2's exit: its windows' arrays at what the pipeline leaves (an input as entered, an output at its write-backs
    folded), every other buffer as entered. -/
def W7 (c : Dev nD) : Valuation τ sig (Elt F) :=
  Pipeline.withArrays spec2 c (W6 m ρ c) fun w => (dat2 (V6 m ρ) c).arrAt w cfg2.N
theorem W7_arr (c : Dev nD) (w : Fin cfg2.W) :
    W7 m ρ c (Proc.devRef .tc (Pipeline.arrRef spec2 w)) = (dat2 (V6 m ρ) c).arrAt w cfg2.N := by
  unfold W7; exact Pipeline.withArrays_arr spec2 launch2.win.arr_inj c _ _ w
theorem W7_of_ne (c : Dev nD) (b : Ref sig .tc) (hb : ∀ w, Pipeline.arrRef spec2 w ≠ b) :
    W7 m ρ c (Proc.devRef .tc b) = W6 m ρ c (Proc.devRef .tc b) := by
  unfold W7; exact Pipeline.withArrays_of_ne spec2 c _ _ b hb
abbrev V7 : (c : Dev nD) → (b : Ref sig .tc) → Buf (Elt F) ((c : Thread nD τ).loc b) := fun c b => W7 m ρ c b
theorem hF2 (c : Dev nD) (w : Fin cfg2.W) : (dat2 (V6 m ρ) c).arrAt w cfg2.N = V7 m ρ c (Pipeline.arrRef spec2 w) :=
  (W7_arr m ρ c w).symm
theorem hrest2 (c : Dev nD) : ∀ b, b ∉ Finset.univ.image (Pipeline.arrRef spec2) → V7 m ρ c b = V6 m ρ c b :=
  fun b hb => W7_of_ne m ρ c b fun w e => hb (Finset.mem_image.mpr ⟨w, Finset.mem_univ _, e⟩)

/-! ### The arguments end as launched -/

theorem W1_main_arg0' (c : Dev nD) : W1 m ρ c (Proc.devRef .tc main_arg0) = W0 m ρ c (Proc.devRef .tc main_arg0) :=
  (W1_arr m ρ c 0).trans (((dat0 (V0 m ρ) c).arrAt_in 0 rfl _).trans (A_eq0 (V0 m ρ) c 0))
theorem W1_main_arg2' (c : Dev nD) : W1 m ρ c (Proc.devRef .tc main_arg2) = W0 m ρ c (Proc.devRef .tc main_arg2) :=
  (W1_arr m ρ c 1).trans (((dat0 (V0 m ρ) c).arrAt_in 1 rfl _).trans (A_eq0 (V0 m ρ) c 1))
theorem W1_main_arg1' (c : Dev nD) : W1 m ρ c (Proc.devRef .tc main_arg1) = W0 m ρ c (Proc.devRef .tc main_arg1) := W1_of_ne m ρ c main_arg1 (by decide)
theorem W1_main_arg3' (c : Dev nD) : W1 m ρ c (Proc.devRef .tc main_arg3) = W0 m ρ c (Proc.devRef .tc main_arg3) := W1_of_ne m ρ c main_arg3 (by decide)
theorem W1_main_arg4' (c : Dev nD) : W1 m ρ c (Proc.devRef .tc main_arg4) = W0 m ρ c (Proc.devRef .tc main_arg4) := W1_of_ne m ρ c main_arg4 (by decide)
theorem W1_main_arg5' (c : Dev nD) : W1 m ρ c (Proc.devRef .tc main_arg5) = W0 m ρ c (Proc.devRef .tc main_arg5) := W1_of_ne m ρ c main_arg5 (by decide)

/-- `main_arg0` reaches the end as launched: no host operation writes it and no region's output window is it. -/
theorem W7_main_arg0 (c : Dev nD) : W7 m ρ c (Proc.devRef .tc main_arg0) = m ((c : Thread nD τ).loc main_arg0) :=
  calc W7 m ρ c (Proc.devRef .tc main_arg0)
    _ = W6 m ρ c (Proc.devRef .tc main_arg0) := W7_of_ne m ρ c main_arg0 (by decide)
    _ = W5 m ρ c (Proc.devRef .tc main_arg0) := StableHlo.after_of_writes_sub hostOps2 _ hostOps2_writes (r := main_arg0) (by decide)
    _ = W4 m ρ c (Proc.devRef .tc main_arg0) := W5_of_ne m ρ c main_arg0 (by decide)
    _ = W3 m ρ c (Proc.devRef .tc main_arg0) := StableHlo.after_of_writes_sub hostOps1_2 _ hostOps1_2_writes (r := main_arg0) (by decide)
    _ = W2 m ρ c (Proc.devRef .tc main_arg0) := StableHlo.after_of_writes_sub hostOps1_1 _ hostOps1_1_writes (r := main_arg0) (by decide)
    _ = W1 m ρ c (Proc.devRef .tc main_arg0) := StableHlo.after_of_writes_sub hostOps1 _ hostOps1_writes (r := main_arg0) (by decide)
    _ = W0 m ρ c (Proc.devRef .tc main_arg0) := W1_main_arg0' m ρ c
    _ = m ((c : Thread nD τ).loc main_arg0) := rfl

/-- `main_arg1` reaches the end as launched: no host operation writes it and no region's output window is it. -/
theorem W7_main_arg1 (c : Dev nD) : W7 m ρ c (Proc.devRef .tc main_arg1) = m ((c : Thread nD τ).loc main_arg1) :=
  calc W7 m ρ c (Proc.devRef .tc main_arg1)
    _ = W6 m ρ c (Proc.devRef .tc main_arg1) := W7_of_ne m ρ c main_arg1 (by decide)
    _ = W5 m ρ c (Proc.devRef .tc main_arg1) := StableHlo.after_of_writes_sub hostOps2 _ hostOps2_writes (r := main_arg1) (by decide)
    _ = W4 m ρ c (Proc.devRef .tc main_arg1) := W5_of_ne m ρ c main_arg1 (by decide)
    _ = W3 m ρ c (Proc.devRef .tc main_arg1) := StableHlo.after_of_writes_sub hostOps1_2 _ hostOps1_2_writes (r := main_arg1) (by decide)
    _ = W2 m ρ c (Proc.devRef .tc main_arg1) := StableHlo.after_of_writes_sub hostOps1_1 _ hostOps1_1_writes (r := main_arg1) (by decide)
    _ = W1 m ρ c (Proc.devRef .tc main_arg1) := StableHlo.after_of_writes_sub hostOps1 _ hostOps1_writes (r := main_arg1) (by decide)
    _ = W0 m ρ c (Proc.devRef .tc main_arg1) := W1_main_arg1' m ρ c
    _ = m ((c : Thread nD τ).loc main_arg1) := rfl

/-- `main_arg2` reaches the end as launched: no host operation writes it and no region's output window is it. -/
theorem W7_main_arg2 (c : Dev nD) : W7 m ρ c (Proc.devRef .tc main_arg2) = m ((c : Thread nD τ).loc main_arg2) :=
  calc W7 m ρ c (Proc.devRef .tc main_arg2)
    _ = W6 m ρ c (Proc.devRef .tc main_arg2) := W7_of_ne m ρ c main_arg2 (by decide)
    _ = W5 m ρ c (Proc.devRef .tc main_arg2) := StableHlo.after_of_writes_sub hostOps2 _ hostOps2_writes (r := main_arg2) (by decide)
    _ = W4 m ρ c (Proc.devRef .tc main_arg2) := W5_of_ne m ρ c main_arg2 (by decide)
    _ = W3 m ρ c (Proc.devRef .tc main_arg2) := StableHlo.after_of_writes_sub hostOps1_2 _ hostOps1_2_writes (r := main_arg2) (by decide)
    _ = W2 m ρ c (Proc.devRef .tc main_arg2) := StableHlo.after_of_writes_sub hostOps1_1 _ hostOps1_1_writes (r := main_arg2) (by decide)
    _ = W1 m ρ c (Proc.devRef .tc main_arg2) := StableHlo.after_of_writes_sub hostOps1 _ hostOps1_writes (r := main_arg2) (by decide)
    _ = W0 m ρ c (Proc.devRef .tc main_arg2) := W1_main_arg2' m ρ c
    _ = m ((c : Thread nD τ).loc main_arg2) := rfl

/-- `main_arg3` reaches the end as launched: no host operation writes it and no region's output window is it. -/
theorem W7_main_arg3 (c : Dev nD) : W7 m ρ c (Proc.devRef .tc main_arg3) = m ((c : Thread nD τ).loc main_arg3) :=
  calc W7 m ρ c (Proc.devRef .tc main_arg3)
    _ = W6 m ρ c (Proc.devRef .tc main_arg3) := W7_of_ne m ρ c main_arg3 (by decide)
    _ = W5 m ρ c (Proc.devRef .tc main_arg3) := StableHlo.after_of_writes_sub hostOps2 _ hostOps2_writes (r := main_arg3) (by decide)
    _ = W4 m ρ c (Proc.devRef .tc main_arg3) := W5_of_ne m ρ c main_arg3 (by decide)
    _ = W3 m ρ c (Proc.devRef .tc main_arg3) := StableHlo.after_of_writes_sub hostOps1_2 _ hostOps1_2_writes (r := main_arg3) (by decide)
    _ = W2 m ρ c (Proc.devRef .tc main_arg3) := StableHlo.after_of_writes_sub hostOps1_1 _ hostOps1_1_writes (r := main_arg3) (by decide)
    _ = W1 m ρ c (Proc.devRef .tc main_arg3) := StableHlo.after_of_writes_sub hostOps1 _ hostOps1_writes (r := main_arg3) (by decide)
    _ = W0 m ρ c (Proc.devRef .tc main_arg3) := W1_main_arg3' m ρ c
    _ = m ((c : Thread nD τ).loc main_arg3) := rfl

/-- `main_arg4` reaches the end as launched: no host operation writes it and no region's output window is it. -/
theorem W7_main_arg4 (c : Dev nD) : W7 m ρ c (Proc.devRef .tc main_arg4) = m ((c : Thread nD τ).loc main_arg4) :=
  calc W7 m ρ c (Proc.devRef .tc main_arg4)
    _ = W6 m ρ c (Proc.devRef .tc main_arg4) := W7_of_ne m ρ c main_arg4 (by decide)
    _ = W5 m ρ c (Proc.devRef .tc main_arg4) := StableHlo.after_of_writes_sub hostOps2 _ hostOps2_writes (r := main_arg4) (by decide)
    _ = W4 m ρ c (Proc.devRef .tc main_arg4) := W5_of_ne m ρ c main_arg4 (by decide)
    _ = W3 m ρ c (Proc.devRef .tc main_arg4) := StableHlo.after_of_writes_sub hostOps1_2 _ hostOps1_2_writes (r := main_arg4) (by decide)
    _ = W2 m ρ c (Proc.devRef .tc main_arg4) := StableHlo.after_of_writes_sub hostOps1_1 _ hostOps1_1_writes (r := main_arg4) (by decide)
    _ = W1 m ρ c (Proc.devRef .tc main_arg4) := StableHlo.after_of_writes_sub hostOps1 _ hostOps1_writes (r := main_arg4) (by decide)
    _ = W0 m ρ c (Proc.devRef .tc main_arg4) := W1_main_arg4' m ρ c
    _ = m ((c : Thread nD τ).loc main_arg4) := rfl

/-- `main_arg5` reaches the end as launched: no host operation writes it and no region's output window is it. -/
theorem W7_main_arg5 (c : Dev nD) : W7 m ρ c (Proc.devRef .tc main_arg5) = m ((c : Thread nD τ).loc main_arg5) :=
  calc W7 m ρ c (Proc.devRef .tc main_arg5)
    _ = W6 m ρ c (Proc.devRef .tc main_arg5) := W7_of_ne m ρ c main_arg5 (by decide)
    _ = W5 m ρ c (Proc.devRef .tc main_arg5) := StableHlo.after_of_writes_sub hostOps2 _ hostOps2_writes (r := main_arg5) (by decide)
    _ = W4 m ρ c (Proc.devRef .tc main_arg5) := W5_of_ne m ρ c main_arg5 (by decide)
    _ = W3 m ρ c (Proc.devRef .tc main_arg5) := StableHlo.after_of_writes_sub hostOps1_2 _ hostOps1_2_writes (r := main_arg5) (by decide)
    _ = W2 m ρ c (Proc.devRef .tc main_arg5) := StableHlo.after_of_writes_sub hostOps1_1 _ hostOps1_1_writes (r := main_arg5) (by decide)
    _ = W1 m ρ c (Proc.devRef .tc main_arg5) := StableHlo.after_of_writes_sub hostOps1 _ hostOps1_writes (r := main_arg5) (by decide)
    _ = W0 m ρ c (Proc.devRef .tc main_arg5) := W1_main_arg5' m ρ c
    _ = m ((c : Thread nD τ).loc main_arg5) := rfl

/-! ## The proof data family and the thread state -/

/-- No pipeline has a prefetched table. -/
abbrev adm : (p : Fin 3) → (pcfgs (F := F) p).Adm := fun p => (cfgs p).toPCfg_adm
/-- Every pipeline's proof data, each at its region's entry contents. -/
def pdats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V4 m ρ) c
  | ⟨2, _⟩ => fun c => dat2 (V6 m ρ) c
abbrev 𝒱₀ : Variants := Variants.none
/-- No core owes another anything: no level is assigned. -/
abbrev L : GSem nD τ sig → Finset Unit := fun _ => ∅
abbrev lv : GSem nD τ sig → Unit → ℕ := fun _ _ => 0
/-- What rides beside the buffers through every segment: the core's generator register at some state and its dues, at nothing. -/
abbrev R (c : Dev nD) : sProp 𝕄 := iprop((∃ r, prngReg c r) ∗ ∃ W, owes (c : Thread nD τ) (0 : CellTallies nD τ sig Unit) W)
/-- A stretch of host operations as a segment over the unscoped references from the contents `W`, `R` riding along. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last thread state without the dues: every unscoped buffer at `W7`, the generator register at some state. -/
abbrev Tₙ (c : Dev nD) : sProp 𝕄 := iprop(StableHlo.held (c : Thread nD τ) (Pipeline.ucRefs τ sig) (W7 m ρ c) ∗ ∃ r, prngReg c r)

/-! ## The regions as segments -/

set_option backward.isDefEq.respectTransparency.types false in
/-- Region 0 over the thread state: entered with every unscoped buffer at `W0`, left with them at `W1`. Its windows'
    arrays are split out of the unscoped buffers and put back at what the write-backs leave; the generator register goes
    into the pipeline's invariant and comes back; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered with every unscoped buffer at `W4`, left with them at `W5`. Its windows'
    arrays are split out of the unscoped buffers and put back at what the write-backs leave; the generator register goes
    into the pipeline's invariant and comes back; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V4 m ρ) c).Φ 0 from rfl]
    iintro ⟨Hp, -, Hr⟩
    iapply (hin1 (V4 m ρ) c)
    unfold Pipeline.ΦA
    isplitl [Hr]; · iexact Hr
    iexact Hp
  hout c := by
    rw [Pipeline.ownSems0_none, show (pdats m ρ 1 c).Φ (Fin.last _) = (dat1 (V4 m ρ) c).Φ (Fin.last cfg1.N) from rfl]
    iintro H
    ihave H' := (hout1 (V4 m ρ) c) $$ H
    unfold Pipeline.ΦA
    icases H' with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered with every unscoped buffer at `W6`, left with them at `W7`. Its windows'
    arrays are split out of the unscoped buffers and put back at what the write-backs leave; the generator register goes
    into the pipeline's invariant and comes back; nothing is owed; the kernel has no semaphore of its own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (V6 m ρ) c).loose
  hwaits := Pipeline.hwaits_of_owed_zero _ _ _ _ L lv 2 fun _ _ => rfl
  pre c := iprop(StableHlo.held (c : Thread nD τ) (Pipeline.ucRefs τ sig) (W6 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (V6 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (V6 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (V6 m ρ c) (V7 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

/-- The program's 7 segments in order. -/
abbrev segs : List (Pipeline.Seg (pcfgs (F := F)) adm (pdats m ρ) () defs₀ 𝒱₀ L lv) :=
  [ .region (reg0 m ρ),
    .host (hseg hostOps1 hostOps1_sub hostOps1_fresh (W1 m ρ)),
    .host (hseg hostOps1_1 hostOps1_1_sub hostOps1_1_fresh (W2 m ρ)),
    .host (hseg hostOps1_2 hostOps1_2_sub hostOps1_2_fresh (W3 m ρ)),
    .region (reg1 m ρ),
    .host (hseg hostOps2 hostOps2_sub hostOps2_fresh (W5 m ρ)),
    .region (reg2 m ρ) ]

set_option backward.isDefEq.respectTransparency.types false in
/-- THE RUN: at the compiled mesh, from any memory with zero counters, every weakly fair execution of the program
    terminates, nothing faulting, and in every final state each unscoped buffer holds the last boundary's contents `W7`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by
      rewrite [main_chain c, Pipeline.Seg.run_eq_chain,
        show (segs m ρ).map Pipeline.Seg.prog = [
          Prog.lift (.customCall (Pipeline.entry 0) ()),
          StableHlo.seq hostOps1,
          StableHlo.seq hostOps1_1,
          StableHlo.seq hostOps1_2,
          Prog.lift (.customCall (Pipeline.entry 1) ()),
          StableHlo.seq hostOps2,
          Prog.lift (.customCall (Pipeline.entry 2) ()) ] from rfl]
      exact .rfl)
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c => h c)

/-- THE FRAME, at any float instance: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c =>
    ⟨(h c _ (mem_uc main_arg0 (by decide))).trans (W7_main_arg0 m ρ c),
     (h c _ (mem_uc main_arg1 (by decide))).trans (W7_main_arg1 m ρ c),
     (h c _ (mem_uc main_arg2 (by decide))).trans (W7_main_arg2 m ρ c),
     (h c _ (mem_uc main_arg3 (by decide))).trans (W7_main_arg3 m ρ c),
     (h c _ (mem_uc main_arg4 (by decide))).trans (W7_main_arg4 m ρ c),
     (h c _ (mem_uc main_arg5 (by decide))).trans (W7_main_arg5 m ρ c)⟩) (run_all m ρ)

end Cert.KernelIdeal.Hand

end
-- ==== Proof.ValueA0.lean ====
/-
  The value region 0 leaves, at the ideal instance: the product of the two argument arrays it reads.

  The body's payload is a matrix product into a zero accumulator of the two loaded blocks (rounded to bf16 on the way in: the
  identity at the ideal instance), so at row p, column q of the block it is Σ_k x(p,k) · w(k,q) over the 64 contracted
  columns (`pay0_apply`); the block of point t is rows 5000·t … 5000·t + 4999 of x against the whole of w (`flushed0_eq`), and
  the 20 blocks cover the output array (`cover0`): the array ends holding `G0 x w`, the row-by-column sums (`final0`).
-/
import proofs.«167319_j89876485636648_1_alg».proof.Proof.FrameA
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-! ## The block product's operand indices -/

theorem lhs0_0 (i : S5000x64.Idx) (κ : dot_S5000x64_S64x64_S5000x64_1_0_0_1_n_n.contr.Idx) : (dot_S5000x64_S64x64_S5000x64_1_0_0_1_n_n.lhsIdx i κ 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
theorem lhs0_1 (i : S5000x64.Idx) (κ : dot_S5000x64_S64x64_S5000x64_1_0_0_1_n_n.contr.Idx) : (dot_S5000x64_S64x64_S5000x64_1_0_0_1_n_n.lhsIdx i κ 1).val = (κ ⟨0, by decide⟩).val :=
  dot_S5000x64_S64x64_S5000x64_1_0_0_1_n_n.lhsIdx_val_of_single rfl i κ
theorem rhs0_0 (i : S5000x64.Idx) (κ : dot_S5000x64_S64x64_S5000x64_1_0_0_1_n_n.contr.Idx) : (dot_S5000x64_S64x64_S5000x64_1_0_0_1_n_n.rhsIdx i κ 0).val = (κ ⟨0, by decide⟩).val :=
  dot_S5000x64_S64x64_S5000x64_1_0_0_1_n_n.rhsIdx_val_of_single rfl i κ
theorem rhs0_1 (i : S5000x64.Idx) (κ : dot_S5000x64_S64x64_S5000x64_1_0_0_1_n_n.contr.Idx) : (dot_S5000x64_S64x64_S5000x64_1_0_0_1_n_n.rhsIdx i κ 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- The body's payload at row p, column q of the block: the sum over the contracted columns. -/
theorem pay0_apply (x0 : FVec Ideal S5000x64 .f32) (x1 : FVec Ideal S64x64 .f32) (p : Fin 5000) (q : Fin 64) :
    k0_pay1 (F := Ideal) x0 x1 (ix2 p q) = ∑ k : Fin 64, x0 (ix2 p k) * x1 (ix2 k q) := by
  unfold k0_pay1
  refine (Ideal.matmul_constant_zero_apply dot_S5000x64_S64x64_S5000x64_1_0_0_1_n_n none _ _ (ix2 p q)).trans ?_
  rw [← Equiv.sum_comp (ValueIdx.contrEquiv1 dot_S5000x64_S64x64_S5000x64_1_0_0_1_n_n 64 rfl rfl).symm]
  refine Finset.sum_congr rfl fun k _ => ?_
  have hk := ValueIdx.contrEquiv1_symm_val dot_S5000x64_S64x64_S5000x64_1_0_0_1_n_n 64 rfl rfl k
  have el : dot_S5000x64_S64x64_S5000x64_1_0_0_1_n_n.lhsIdx (ix2 p q) ((ValueIdx.contrEquiv1 dot_S5000x64_S64x64_S5000x64_1_0_0_1_n_n 64 rfl rfl).symm k) = ix2 p k := funext fun a => Fin.ext (by
    match a with
    | ⟨0, _⟩ => exact lhs0_0 _ _
    | ⟨1, _⟩ => exact (lhs0_1 _ _).trans hk)
  have er : dot_S5000x64_S64x64_S5000x64_1_0_0_1_n_n.rhsIdx (ix2 p q) ((ValueIdx.contrEquiv1 dot_S5000x64_S64x64_S5000x64_1_0_0_1_n_n 64 rfl rfl).symm k) = ix2 k q := funext fun a => Fin.ext (by
    match a with
    | ⟨0, _⟩ => exact (rhs0_0 _ _).trans hk
    | ⟨1, _⟩ => exact rhs0_1 _ _)
  rw [el, er]
  rfl

/-! ## From the blocks to the array -/

/-- Row r of x against column q of w. -/
def G0 (xa : S100000x64.Idx → EReal) (wa : S64x64.Idx → EReal) : S100000x64.Idx → EReal := fun i =>
  ∑ k : Fin 64, xa (ix2 (⟨(i 0).val, (i 0).isLt⟩ : Fin 100000) k) * wa (ix2 k (⟨(i 1).val, (i 1).isLt⟩ : Fin 64))

/-- The printed index maps over the grid: x's and the output's windows at block (t, 0), w's at block (0, 0). -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The block of point `t`, read where the output's block index says: row 5000·t + p of x against column q of w. -/
theorem blockread0 (xa : S100000x64.Idx → EReal) (wa : S64x64.Idx → EReal) (t : Fin cfg0.N) (p : Fin 5000) (q : Fin 64) :
    ∑ k : Fin 64, xa (((cfg0.win 0).blk t).view.emb (ix2 p k)) * wa (((cfg0.win 1).blk t).view.emb (ix2 k q))
      = G0 xa wa (((cfg0.win 2).blk t).view.emb (ix2 p q)) := by
  obtain ⟨e00, e01, e10, e11, e20, e21⟩ := idx_facts0 t
  unfold G0
  refine Finset.sum_congr rfl fun k _ => ?_
  have h0 : ((cfg0.win 0).blk t).view.emb (ix2 p k)
      = ix2 (⟨((((cfg0.win 2).blk t).view.emb (ix2 p q)) 0).val, ((((cfg0.win 2).blk t).view.emb (ix2 p q)) 0).isLt⟩ : Fin 100000) k := by
    funext a; apply Fin.ext
    match a with
    | ⟨0, _⟩ => show win0_0.index t (0 : Fin 2) * 5000 + 1 * p.val = win0_2.index t (0 : Fin 2) * 5000 + 1 * p.val; omega
    | ⟨1, _⟩ => show win0_0.index t (1 : Fin 2) * 64 + 1 * k.val = k.val; omega
  have h1 : ((cfg0.win 1).blk t).view.emb (ix2 k q)
      = ix2 k (⟨((((cfg0.win 2).blk t).view.emb (ix2 p q)) 1).val, ((((cfg0.win 2).blk t).view.emb (ix2 p q)) 1).isLt⟩ : Fin 64) := by
    funext a; apply Fin.ext
    match a with
    | ⟨0, _⟩ => show win0_1.index t (0 : Fin 2) * 64 + 1 * k.val = k.val; omega
    | ⟨1, _⟩ => show win0_1.index t (1 : Fin 2) * 64 + 1 * q.val = win0_2.index t (1 : Fin 2) * 64 + 1 * q.val; omega
  rw [h0, h1]

/-- What point `t` writes back is block `t` of `G0` of the entry contents. -/
theorem flushed0_eq (c : Dev nD) (t : Fin cfg0.N) :
    (dat0 V c).flushed 2 t = ((cfg0.win 2).blk t).view.read (Elt Ideal) (G0 (V c main_arg0) (V c main_arg2)) := by
  show (cfg0.win 2).cut (grid0.coords t) ((dat0 V c).after 2 t) = _
  rw [after0_2]
  unfold out0_2
  rw [View.canon_unit_zero hz0]
  simp only [View.ld_unit_zero (S := S5000x64) hz0, View.ld_unit_zero (S := S64x64) hz0]
  funext j
  obtain ⟨p, q, rfl⟩ : ∃ (p : Fin 5000) (q : Fin 64), j = ix2 p q := ⟨j 0, j 1, eq_ix2 j⟩
  refine (pay0_apply (iblk0 V c 0 t) (iblk0 V c 1 t) p q).trans ?_
  exact blockread0 (V c main_arg0) (V c main_arg2) t p q

/-- An index of the array is in point `t`'s block iff each coordinate is in the block's range on its axis. -/
theorem mem_blk0 (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v0).slice (win0_2.rect t)).set ↔ _
  rw [View.set_slice_whole, Rect.mem_set_unit]
  exact Iff.rfl

/-- Every index is in the block of the point its row falls in. -/
theorem cover0 (i : S100000x64.Idx) : ∃ t : Fin cfg0.N, (cfg0.win 2).flush t = true ∧ i ∈ ((cfg0.win 2).blk t).view.set := by
  have hi0 : (i 0).val < 100000 := (i 0).isLt
  have hi1 : (i 1).val < 64 := (i 1).isLt
  have hN : cfg0.N = 20 := N_0
  let t : Fin cfg0.N := ⟨(i 0).val / 5000, by rw [hN]; omega⟩
  obtain ⟨e00, e01, e10, e11, e20, e21⟩ := idx_facts0 t
  have ht : t.val = (i 0).val / 5000 := rfl
  refine ⟨t, flush0_2 t, ?_⟩
  rw [mem_blk0]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

/-- THE ARRAY region 0 leaves: the product of the two argument arrays. -/
theorem final0 (c : Dev nD) : (dat0 V c).arrAt 2 cfg0.N = G0 (V c main_arg0) (V c main_arg2) :=
  (dat0 V c).arrAt_eq_of_cover 2 _ (fun t _ => flushed0_eq V c t) cover0

end Cert.KernelIdeal.HandValue

end
-- ==== Proof.ValueA2.lean ====
/-
  The values regions 0 and 2 leave, at the ideal instance, as functions of the buffer contents at the region's entry.

  Region 2: the result array at (r, q) is  max((x(r,q) − μ(0,q)) · rsqrt(v(0,q) + eps) · γ(0,q) + β(0,q), 0)  of the five arrays
  its windows read (`G2`): the body's payload read at an index of the block (`pay2_apply`), the block of point t being rows
  5000·t … 5000·t + 4999 of the array and the four [1, 64] rows whole (`flushed2_eq`), the 20 blocks covering the array (`cover2`).
-/
import proofs.«167319_j89876485636648_1_alg».proof.Proof.FrameA
import Idealize.ShloMosaic.Lib.ValueLayout
import Idealize.ShloMosaic.Lib.Pipeline.Value
import Idealize.ShloMosaic.PureOps.Ideal.Laws

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-! ## Region 2 -/

/-- The body's payload at row p, column q of the block. -/
theorem pay2_apply (x0 : FVec Ideal S5000x64 .f32) (x1 x2 x3 x4 : FVec Ideal S1x64 .f32) (p : Fin 5000) (q : Fin 64) :
    k2_pay1 (F := Ideal) x0 x1 x2 x3 x4 (ix2 p q)
      = max ((x0 (ix2 p q) - x1 (ix2 (0 : Fin 1) q)) * Ideal.rsqrt (x2 (ix2 (0 : Fin 1) q) + Ideal.ofBits .f32 0x3727C5AC#32) * x3 (ix2 (0 : Fin 1) q) + x4 (ix2 (0 : Fin 1) q)) (Ideal.ofBits .f32 0x00000000#32) := by
  unfold k2_pay1
  simp only [shapeCast_self]
  simp only [maximumf_apply, addf_apply, mulf_apply, subf_apply, broadcast_apply, broadcastTo_1b_ab_apply]
  rfl

/-- The column of an index of the big array, as a column of a [1, 64] row. -/
abbrev col (i : S100000x64.Idx) : S1x64.Idx := ix2 (0 : Fin 1) (⟨(i 1).val, (i 1).isLt⟩ : Fin 64)

/-- What region 2 leaves in its output array, index by index, from the five arrays its windows read. -/
def G2 (xa : S100000x64.Idx → EReal) (mu va ga be : S1x64.Idx → EReal) : S100000x64.Idx → EReal := fun i =>
  max ((xa i - mu (col i)) * Ideal.rsqrt (va (col i) + Ideal.ofBits .f32 0x3727C5AC#32) * ga (col i) + be (col i)) (Ideal.ofBits .f32 0x00000000#32)

/-- The printed index maps over the grid: the blocked windows are at block (t, 0), the rows' windows at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0
    ∧ win2_5.index t (0 : Fin 2) = t.val ∧ win2_5.index t (1 : Fin 2) = 0 :=
  (by decide +kernel : ∀ t : Fin grid2.N, _)

/-- The block of point `t`, read where the output's block index says: rows 5000·t + p of the blocked array, column q of
    the four rows. -/
theorem blockread2 (xa : S100000x64.Idx → EReal) (mu va ga be : S1x64.Idx → EReal) (t : Fin cfg2.N) (p : Fin 5000) (q : Fin 64) :
    max ((xa (((cfg2.win 0).blk t).view.emb (ix2 p q)) - mu (((cfg2.win 1).blk t).view.emb (ix2 (0 : Fin 1) q)))
        * Ideal.rsqrt (va (((cfg2.win 2).blk t).view.emb (ix2 (0 : Fin 1) q)) + Ideal.ofBits .f32 0x3727C5AC#32)
        * ga (((cfg2.win 3).blk t).view.emb (ix2 (0 : Fin 1) q)) + be (((cfg2.win 4).blk t).view.emb (ix2 (0 : Fin 1) q))) (Ideal.ofBits .f32 0x00000000#32)
      = G2 xa mu va ga be (((cfg2.win 5).blk t).view.emb (ix2 p q)) := by
  obtain ⟨e00, e01, e10, e11, e20, e21, e30, e31, e40, e41, e50, e51⟩ := idx_facts2 t
  have h0 : ((cfg2.win 0).blk t).view.emb (ix2 p q) = ((cfg2.win 5).blk t).view.emb (ix2 p q) := by
    funext a; apply Fin.ext
    match a with
    | ⟨0, _⟩ => show win2_0.index t (0 : Fin 2) * 5000 + 1 * p.val = win2_5.index t (0 : Fin 2) * 5000 + 1 * p.val; omega
    | ⟨1, _⟩ => show win2_0.index t (1 : Fin 2) * 64 + 1 * q.val = win2_5.index t (1 : Fin 2) * 64 + 1 * q.val; omega
  have h1 : ((cfg2.win 1).blk t).view.emb (ix2 (0 : Fin 1) q) = col (((cfg2.win 5).blk t).view.emb (ix2 p q)) := by
    funext a; apply Fin.ext
    match a with
    | ⟨0, _⟩ => show win2_1.index t (0 : Fin 2) * 1 + 1 * 0 = 0; omega
    | ⟨1, _⟩ => show win2_1.index t (1 : Fin 2) * 64 + 1 * q.val = win2_5.index t (1 : Fin 2) * 64 + 1 * q.val; omega
  have h2 : ((cfg2.win 2).blk t).view.emb (ix2 (0 : Fin 1) q) = col (((cfg2.win 5).blk t).view.emb (ix2 p q)) := by
    funext a; apply Fin.ext
    match a with
    | ⟨0, _⟩ => show win2_2.index t (0 : Fin 2) * 1 + 1 * 0 = 0; omega
    | ⟨1, _⟩ => show win2_2.index t (1 : Fin 2) * 64 + 1 * q.val = win2_5.index t (1 : Fin 2) * 64 + 1 * q.val; omega
  have h3 : ((cfg2.win 3).blk t).view.emb (ix2 (0 : Fin 1) q) = col (((cfg2.win 5).blk t).view.emb (ix2 p q)) := by
    funext a; apply Fin.ext
    match a with
    | ⟨0, _⟩ => show win2_3.index t (0 : Fin 2) * 1 + 1 * 0 = 0; omega
    | ⟨1, _⟩ => show win2_3.index t (1 : Fin 2) * 64 + 1 * q.val = win2_5.index t (1 : Fin 2) * 64 + 1 * q.val; omega
  have h4 : ((cfg2.win 4).blk t).view.emb (ix2 (0 : Fin 1) q) = col (((cfg2.win 5).blk t).view.emb (ix2 p q)) := by
    funext a; apply Fin.ext
    match a with
    | ⟨0, _⟩ => show win2_4.index t (0 : Fin 2) * 1 + 1 * 0 = 0; omega
    | ⟨1, _⟩ => show win2_4.index t (1 : Fin 2) * 64 + 1 * q.val = win2_5.index t (1 : Fin 2) * 64 + 1 * q.val; omega
  rw [h0, h1, h2, h3, h4]
  rfl

/-- What point `t` writes back is block `t` of `G2` of the entry contents. -/
theorem flushed2_eq (c : Dev nD) (t : Fin cfg2.N) :
    (dat2 V c).flushed 5 t = ((cfg2.win 5).blk t).view.read (Elt Ideal)
      (G2 (V c main_v46) (V c main_v49) (V c main_v53) (V c main_v54) (V c main_v55)) := by
  show (cfg2.win 5).cut (grid2.coords t) ((dat2 V c).after 5 t) = _
  rw [after2_5]
  unfold out2_5
  rw [View.canon_unit_zero hz]
  simp only [View.ld_unit_zero (S := S5000x64) hz, View.ld_unit_zero (S := S1x64) hz]
  funext j
  obtain ⟨p, q, rfl⟩ : ∃ (p : Fin 5000) (q : Fin 64), j = ix2 p q := ⟨j 0, j 1, eq_ix2 j⟩
  refine (pay2_apply (iblk2 V c 0 t) (iblk2 V c 1 t) (iblk2 V c 2 t) (iblk2 V c 3 t) (iblk2 V c 4 t) p q).trans ?_
  exact blockread2 (V c main_v46) (V c main_v49) (V c main_v53) (V c main_v54) (V c main_v55) t p q

/-- An index of the array is in point `t`'s block iff each coordinate is in the block's range on its axis. -/
theorem mem_blk2 (t : Fin cfg2.N) (i : S100000x64.Idx) :
    i ∈ ((cfg2.win 5).blk t).view.set ↔ ∀ a : Fin 2, win2_5.index t a * S5000x64.size a ≤ (i a).val ∧ (i a).val < win2_5.index t a * S5000x64.size a + S5000x64.size a := by
  show i ∈ ((View.whole main_v56).slice (win2_5.rect t)).set ↔ _
  rw [View.set_slice_whole, Rect.mem_set_unit]
  exact Iff.rfl

/-- Every index is in the block of the point its row falls in. -/
theorem cover2 (i : S100000x64.Idx) : ∃ t : Fin cfg2.N, (cfg2.win 5).flush t = true ∧ i ∈ ((cfg2.win 5).blk t).view.set := by
  have hi0 : (i 0).val < 100000 := (i 0).isLt
  have hi1 : (i 1).val < 64 := (i 1).isLt
  have hN : cfg2.N = 20 := N_2
  let t : Fin cfg2.N := ⟨(i 0).val / 5000, by rw [hN]; omega⟩
  obtain ⟨e00, e01, e10, e11, e20, e21, e30, e31, e40, e41, e50, e51⟩ := idx_facts2 t
  have ht : t.val = (i 0).val / 5000 := rfl
  refine ⟨t, flush2_5 t, ?_⟩
  rw [mem_blk2]
  intro a
  match a with
  | ⟨0, _⟩ => show win2_5.index t (0 : Fin 2) * 5000 ≤ (i 0).val ∧ (i 0).val < win2_5.index t (0 : Fin 2) * 5000 + 5000; omega
  | ⟨1, _⟩ => show win2_5.index t (1 : Fin 2) * 64 ≤ (i 1).val ∧ (i 1).val < win2_5.index t (1 : Fin 2) * 64 + 64; omega

/-- THE ARRAY region 2 leaves: `G2` of the entry contents. -/
theorem final2 (c : Dev nD) : (dat2 V c).arrAt 5 cfg2.N = G2 (V c main_v46) (V c main_v49) (V c main_v53) (V c main_v54) (V c main_v55) :=
  (dat2 V c).arrAt_eq_of_cover 5 _ (fun t _ => flushed2_eq V c t) cover2

end Cert.KernelIdeal.HandValue

end
-- ==== Proof.LibBlockSum.lean ====
/-
  A long sum cut into blocks.

  A sum of a * b consecutive terms f 0, f 1, …, f (a * b - 1) in a commutative additive monoid is the sum, over the
  a blocks i = 0, …, a - 1, of the b consecutive terms f (b * i), …, f (b * i + b - 1) of block i: the terms are the
  same and only the bracketing changes. By induction on the number of blocks: one more block appends b more terms.
-/
import Mathlib.Algebra.BigOperators.Fin
import Mathlib.Algebra.BigOperators.Group.Finset.Basic

namespace Cert.BlockSum

variable {M : Type*} [AddCommMonoid M]

/-- Over ranges: the sum of the first a * b terms is the sum over a blocks of b terms. -/
theorem sum_range_blocks (a b : ℕ) (f : ℕ → M) :
    ∑ k ∈ Finset.range (a * b), f k = ∑ i ∈ Finset.range a, ∑ j ∈ Finset.range b, f (b * i + j) := by
  induction a with
  | zero => rw [Nat.zero_mul, Finset.range_zero, Finset.sum_empty, Finset.sum_empty]
  | succ a ih =>
    rw [Nat.succ_mul, Finset.sum_range_add f (a * b) b,
      Finset.sum_range_succ (fun i => ∑ j ∈ Finset.range b, f (b * i + j)) a, ih, Nat.mul_comm a b]

/-- A sum over a * b consecutive terms is the sum over a blocks of b terms. -/
theorem sum_blocks (a b : ℕ) (f : ℕ → M) :
    ∑ k : Fin (a * b), f k.val = ∑ i ∈ Finset.range a, ∑ j : Fin b, f (b * i + j.val) := by
  rw [Fin.sum_univ_eq_sum_range (fun k => f k) (a * b), sum_range_blocks]
  refine Finset.sum_congr rfl fun i _ => ?_
  exact (Fin.sum_univ_eq_sum_range (fun j => f (b * i + j)) b).symm

/-- 4096 terms as 8 blocks of 512. -/
theorem sum_8_512 (f : ℕ → M) :
    ∑ k : Fin 4096, f k.val = ∑ i ∈ Finset.range 8, ∑ j : Fin 512, f (512 * i + j.val) :=
  sum_blocks 8 512 f

end Cert.BlockSum
-- ==== Proof.ValueR1.lean ====
/-
  What the statistics region leaves in its two result arrays.

  Every access of the body is to a whole buffer, so each case's found pieces read back as closed forms: at the first point each
  accumulator ends at the zero splat plus the block's column sums (of the squares, for the second); at every later point at
  what it held plus them; at the last point each output is stored what its accumulator then holds. So the accumulators are a
  fold over the points (`acc1_0`, `acc1_1`, by recursion; `outsAt1_acc`, by induction), the one write-back of each output, at the
  last point, writes the fold's end, and that point's block is the whole [1,64] array (`final1_1`, `final1_2`). At the ideal
  values a column sum over a block is a finite sum over its 5000 rows, row k of block t is row 5000 t + k of the [100000,64]
  entry array, and 20 blocks of 5000 rows are its 100000 rows: each result, at column q, is the sum over all rows of the entry
  array's column q (of its squares, for the second).
-/
import proofs.«167319_j89876485636648_1_alg».proof.Proof.FrameR1
import proofs.«167319_j89876485636648_1_alg».proof.Proof.LibBlockSum
import Idealize.ShloMosaic.Lib.Pipeline.Value
import Idealize.ShloMosaic.Lib.WholeRead
import Idealize.ShloMosaic.Lib.ValueIdx
import Idealize.ShloMosaic.PureOps.Ideal.Laws
import Idealize.ShloMosaic.Lib.Tactic

set_option maxRecDepth 16384

noncomputable section

open scoped BigOperators

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat)

section AnyFloat
variable {F : FTy → Type} [FloatOps F]

theorem hz2 : (![0, 0] : Fin 2 → Nat) = fun _ => 0 := funext fun a => by fin_cases a <;> rfl

/-! ## What each case leaves, read back

Every store and load of the body goes through a whole buffer, so a buffer's last store leaves its payload and a load reads
the contents. -/

/-- CASE B: each accumulator, holding `xs`, ends at its one store's payload: the block's column sums (of the squares, for
    the second) added to `xs`. -/
theorem sout1_B_0_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) :
    sout1_B_0 c i arg1 harg1 arg2 harg2 arg3 harg3 arg4 harg4 arg5 harg5 hc0 hc1 x0 xs0 xs1 = k1_pay4 x0 xs0 := by
  unfold sout1_B_0
  rw [View.read_writes_eq_canon _ _ _ (scover1_B_0 c i arg1 harg1 arg2 harg2 arg3 harg3 arg4 harg4 arg5 harg5 hc0 hc1 x0 xs0 xs1)]
  unfold kernelRun1_B
  dsimp only
  rw [View.canon_unit_zero hz2]
  simp only [View.readAt_eq_ld, harg1.read_unread, harg4.read_unread, View.ld_unit_zero (S := S5000x64) hz2, View.ld_unit_zero (S := S1x64) hz2]

theorem sout1_B_1_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : ¬cond1_1 i)
    (x0 : Vec F S5000x64 .f32) (xs0 xs1 : Vec F S1x64 .f32) :
    sout1_B_1 c i arg1 harg1 arg2 harg2 arg3 harg3 arg4 harg4 arg5 harg5 hc0 hc1 x0 xs0 xs1 = k1_pay5 x0 xs1 := by
  unfold sout1_B_1
  rw [View.read_writes_eq_canon _ _ _ (scover1_B_1 c i arg1 harg1 arg2 harg2 arg3 harg3 arg4 harg4 arg5 harg5 hc0 hc1 x0 xs0 xs1)]
  unfold kernelRun1_B
  dsimp only
  rw [View.canon_unit_zero hz2]
  simp only [View.readAt_eq_ld, harg1.read_unread, harg5.read_unread, View.ld_unit_zero (S := S5000x64) hz2, View.ld_unit_zero (S := S1x64) hz2]

/-- CASE A: each accumulator is first stored the zero splat, which the body reads back, and ends at the block's column
    sums (of the squares) added to that splat. -/
theorem sout1_A_0_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) :
    sout1_A_0 c i arg1 harg1 arg2 harg2 arg3 harg3 arg4 harg4 arg5 harg5 hc0 hc1 x0 = k1_pay4 x0 (k1_pay1 (F := F)) := by
  unfold sout1_A_0
  rw [View.read_writes_eq_canon _ _ _ (scover1_A_0 c i arg1 harg1 arg2 harg2 arg3 harg3 arg4 harg4 arg5 harg5 hc0 hc1 x0)]
  unfold kernelRun1_A
  dsimp only
  sl_unfold_words
  rw [View.canon_cons_unit_zero (S := S1x64) hz2, View.readCov_unit_zero (S := S1x64) _ hz2]
  simp only [View.readAt_eq_ld, harg1.read_unread, View.ld_unit_zero (S := S5000x64) hz2, View.ld_unit_zero (S := S1x64) hz2]

theorem sout1_A_1_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : cond1_0 i) (hc1 : ¬cond1_1 i)
    (x0 : Vec F S5000x64 .f32) :
    sout1_A_1 c i arg1 harg1 arg2 harg2 arg3 harg3 arg4 harg4 arg5 harg5 hc0 hc1 x0 = k1_pay5 x0 (k1_pay2 (F := F)) := by
  unfold sout1_A_1
  rw [View.read_writes_eq_canon _ _ _ (scover1_A_1 c i arg1 harg1 arg2 harg2 arg3 harg3 arg4 harg4 arg5 harg5 hc0 hc1 x0)]
  unfold kernelRun1_A
  dsimp only
  sl_unfold_words
  rw [View.canon_cons_unit_zero (S := S1x64) hz2, View.readCov_unit_zero (S := S1x64) _ hz2]
  simp only [View.readAt_eq_ld, harg1.read_unread, View.ld_unit_zero (S := S5000x64) hz2, View.ld_unit_zero (S := S1x64) hz2]

/-- CASE C: the accumulators as in case B; each output is stored what its accumulator then holds, read back. -/
theorem sout1_C_0_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) :
    sout1_C_0 c i arg1 harg1 arg2 harg2 arg3 harg3 arg4 harg4 arg5 harg5 hc0 hc1 x0 xs0 xs1 = k1_pay4 x0 xs0 := by
  unfold sout1_C_0
  rw [View.read_writes_eq_canon _ _ _ (scover1_C_0 c i arg1 harg1 arg2 harg2 arg3 harg3 arg4 harg4 arg5 harg5 hc0 hc1 x0 xs0 xs1)]
  unfold kernelRun1_C
  dsimp only
  sl_unfold_words
  rw [View.canon_unit_zero hz2]
  simp only [View.readAt_eq_ld, harg1.read_unread, harg4.read_unread, View.ld_unit_zero (S := S5000x64) hz2, View.ld_unit_zero (S := S1x64) hz2]

theorem sout1_C_1_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) :
    sout1_C_1 c i arg1 harg1 arg2 harg2 arg3 harg3 arg4 harg4 arg5 harg5 hc0 hc1 x0 xs0 xs1 = k1_pay5 x0 xs1 := by
  unfold sout1_C_1
  rw [View.read_writes_eq_canon _ _ _ (scover1_C_1 c i arg1 harg1 arg2 harg2 arg3 harg3 arg4 harg4 arg5 harg5 hc0 hc1 x0 xs0 xs1)]
  unfold kernelRun1_C
  dsimp only
  sl_unfold_words
  rw [View.canon_unit_zero hz2]
  simp only [View.readAt_eq_ld, harg1.read_unread, harg5.read_unread, View.ld_unit_zero (S := S5000x64) hz2, View.ld_unit_zero (S := S1x64) hz2]

theorem out1_C_1_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) :
    out1_C_1 c i arg1 harg1 arg2 harg2 arg3 harg3 arg4 harg4 arg5 harg5 hc0 hc1 x0 xs0 xs1 = k1_pay4 x0 xs0 := by
  unfold out1_C_1
  rw [View.read_writes_eq_canon _ _ _ (cover1_C_1 c i arg1 harg1 arg2 harg2 arg3 harg3 arg4 harg4 arg5 harg5 hc0 hc1 x0 xs0 xs1)]
  unfold kernelRun1_C
  dsimp only
  sl_unfold_words
  rw [View.canon_unit_zero hz2, View.readCov_unit_zero (S := S1x64) _ hz2]
  simp only [View.readAt_eq_ld, harg1.read_unread, harg4.read_unread, View.ld_unit_zero (S := S5000x64) hz2, View.ld_unit_zero (S := S1x64) hz2]

theorem out1_C_2_eq (c : Dev nD) (i : grid1.Coords) (arg1 : Memref sig .tc .vmem S5000x64 .f32) (harg1 : arg1.IsWhole) (arg2 : Memref sig .tc .vmem S1x64 .f32) (harg2 : arg2.IsWhole) (arg3 : Memref sig .tc .vmem S1x64 .f32) (harg3 : arg3.IsWhole) (arg4 : Memref sig .tc .vmem S1x64 .f32) (harg4 : arg4.IsWhole) (arg5 : Memref sig .tc .vmem S1x64 .f32) (harg5 : arg5.IsWhole) (hc0 : ¬cond1_0 i) (hc1 : cond1_1 i)
    (x0 : Vec F S5000x64 .f32) (xs0 xs1 : Vec F S1x64 .f32) :
    out1_C_2 c i arg1 harg1 arg2 harg2 arg3 harg3 arg4 harg4 arg5 harg5 hc0 hc1 x0 xs0 xs1 = k1_pay5 x0 xs1 := by
  unfold out1_C_2
  rw [View.read_writes_eq_canon _ _ _ (cover1_C_2 c i arg1 harg1 arg2 harg2 arg3 harg3 arg4 harg4 arg5 harg5 hc0 hc1 x0 xs0 xs1)]
  unfold kernelRun1_C
  dsimp only
  sl_unfold_words
  rw [View.canon_unit_zero hz2, View.readCov_unit_zero (S := S1x64) _ hz2]
  simp only [View.readAt_eq_ld, harg1.read_unread, harg5.read_unread, View.ld_unit_zero (S := S5000x64) hz2, View.ld_unit_zero (S := S1x64) hz2]

/-! ## The accumulation, in closed form -/

variable (V : (c : Dev nD) → (b : Ref sig .tc) → Buf (Elt F) ((c : Thread nD τ).loc b))

/-- The first accumulator after point `n`: the zero splat plus block 0's column sums, then each later block's added. -/
def acc1_0 (c : Dev nD) : (n : ℕ) → n < cfg1.N → Vec F S1x64 .f32
  | 0, h => k1_pay4 (iblk1 V c 0 ⟨0, h⟩) (k1_pay1 (F := F))
  | n + 1, h => k1_pay4 (iblk1 V c 0 ⟨n + 1, h⟩) (acc1_0 c n (Nat.lt_of_succ_lt h))

/-- The second accumulator after point `n`: the same over the squares. -/
def acc1_1 (c : Dev nD) : (n : ℕ) → n < cfg1.N → Vec F S1x64 .f32
  | 0, h => k1_pay5 (iblk1 V c 0 ⟨0, h⟩) (k1_pay2 (F := F))
  | n + 1, h => k1_pay5 (iblk1 V c 0 ⟨n + 1, h⟩) (acc1_1 c n (Nat.lt_of_succ_lt h))

/-- What the two accumulators hold after point `n` (the last two components of `outsAt1`) are the running sums: by
    induction on the point. -/
theorem outsAt1_acc (c : Dev nD) : ∀ (n : ℕ) (h : n < cfg1.N),
    (outsAt1 V c n h).2.2.1 = acc1_0 V c n h ∧ (outsAt1 V c n h).2.2.2 = acc1_1 V c n h
  | 0, h => by
    rw [outsAt1_A V c ⟨0, h⟩ rfl (by dsimp only; omega)]
    dsimp only
    exact ⟨sout1_A_0_eq .., sout1_A_1_eq ..⟩
  | n + 1, h => by
    have hN : cfg1.N = 20 := N_1
    have h0 : ¬(⟨n + 1, h⟩ : Fin cfg1.N).val % 20 = 0 := by dsimp only; omega
    obtain ⟨ih0, ih1⟩ := outsAt1_acc c n (Nat.lt_of_succ_lt h)
    by_cases h1 : (⟨n + 1, h⟩ : Fin cfg1.N).val % 20 = 19
    · rw [outsAt1_C V c ⟨n + 1, h⟩ h0 h1]
      dsimp only
      rw [sout1_C_0_eq, sout1_C_1_eq]
      refine ⟨?_, ?_⟩
      · show k1_pay4 _ (outsAt1 V c n _).2.2.1 = k1_pay4 _ (acc1_0 V c n _)
        rw [ih0]
      · show k1_pay5 _ (outsAt1 V c n _).2.2.2 = k1_pay5 _ (acc1_1 V c n _)
        rw [ih1]
    · rw [outsAt1_B V c ⟨n + 1, h⟩ h0 h1]
      dsimp only
      rw [sout1_B_0_eq, sout1_B_1_eq]
      refine ⟨?_, ?_⟩
      · show k1_pay4 _ (outsAt1 V c n _).2.2.1 = k1_pay4 _ (acc1_0 V c n _)
        rw [ih0]
      · show k1_pay5 _ (outsAt1 V c n _).2.2.2 = k1_pay5 _ (acc1_1 V c n _)
        rw [ih1]

/-- The last point. -/
abbrev t1_last : Fin cfg1.N := ⟨19, by rw [show cfg1.N = 20 from N_1]; decide⟩

/-- At the last point each output's staging buffer is stored what its accumulator holds. -/
theorem outsAt1_last (c : Dev nD) :
    (outsAt1 V c 19 t1_last.isLt).1 = acc1_0 V c 19 t1_last.isLt ∧ (outsAt1 V c 19 t1_last.isLt).2.1 = acc1_1 V c 19 t1_last.isLt := by
  have hN : cfg1.N = 20 := N_1
  obtain ⟨ih0, ih1⟩ := outsAt1_acc V c 18 (by omega)
  have e := outsAt1_C V c t1_last (by decide) (by decide)
  rw [show outsAt1 V c 19 t1_last.isLt = outsAt1 V c t1_last.val t1_last.isLt from rfl, e]
  dsimp only
  rw [out1_C_1_eq, out1_C_2_eq]
  refine ⟨?_, ?_⟩
  · show k1_pay4 _ (outsAt1 V c 18 _).2.2.1 = k1_pay4 _ (acc1_0 V c 18 _)
    rw [ih0]
  · show k1_pay5 _ (outsAt1 V c 18 _).2.2.2 = k1_pay5 _ (acc1_1 V c 18 _)
    rw [ih1]

/-! ## The two result arrays -/

/-- What the two result arrays end holding: the accumulators after the last point (each array is its one block). -/
abbrev result1_0 (c : Dev nD) : Buf (Elt F) ((c : Thread nD τ).loc main_v47_0) := acc1_0 V c 19 t1_last.isLt
abbrev result1_1 (c : Dev nD) : Buf (Elt F) ((c : Thread nD τ).loc main_v47_1) := acc1_1 V c 19 t1_last.isLt

/-- The one write-back of output 1, at the last point, writes it: block (0, 0) of the [1,64] array is the array. -/
theorem flushed1_1_eq (c : Dev nD) (t : Fin cfg1.N) (hf : (cfg1.win 1).flush t = true) :
    (dat1 V c).flushed 1 t = ((cfg1.win 1).blk t).view.read (Elt F) (result1_0 V c) := by
  have hN : cfg1.N = 20 := N_1
  have h19 : t.val = 19 := by have := (flush1_1 t).mp hf; have := t.isLt; omega
  obtain rfl : t = t1_last := Fin.ext h19
  show (cfg1.win 1).cut (grid1.coords t1_last) ((dat1 V c).after 1 t1_last) = _
  rw [after1_1, show outsAt1 V c t1_last.val t1_last.isLt = outsAt1 V c 19 t1_last.isLt from rfl, (outsAt1_last V c).1]
  have hz' : (fun a => win1_1.index t1_last a * main_v47_0.ty.shape.size a) = fun _ => 0 := funext fun a => by fin_cases a <;> decide +kernel
  exact (Memref.read_access_unit_zero (Elt F) main_v47_0 hz' (fun a => by rw [congrFun hz' a]; simp) (result1_0 V c)).symm

theorem flushed1_2_eq (c : Dev nD) (t : Fin cfg1.N) (hf : (cfg1.win 2).flush t = true) :
    (dat1 V c).flushed 2 t = ((cfg1.win 2).blk t).view.read (Elt F) (result1_1 V c) := by
  have hN : cfg1.N = 20 := N_1
  have h19 : t.val = 19 := by have := (flush1_2 t).mp hf; have := t.isLt; omega
  obtain rfl : t = t1_last := Fin.ext h19
  show (cfg1.win 2).cut (grid1.coords t1_last) ((dat1 V c).after 2 t1_last) = _
  rw [after1_2, show outsAt1 V c t1_last.val t1_last.isLt = outsAt1 V c 19 t1_last.isLt from rfl, (outsAt1_last V c).2]
  have hz' : (fun a => win1_2.index t1_last a * main_v47_1.ty.shape.size a) = fun _ => 0 := funext fun a => by fin_cases a <;> decide +kernel
  exact (Memref.read_access_unit_zero (Elt F) main_v47_1 hz' (fun a => by rw [congrFun hz' a]; simp) (result1_1 V c)).symm

/-- So each result array ends holding its accumulator after the last point: that point's block covers the array. -/
theorem final1_1 (c : Dev nD) : (dat1 V c).arrAt 1 cfg1.N = result1_0 V c :=
  (dat1 V c).arrAt_eq_of_cover 1 (result1_0 V c) (flushed1_1_eq V c) fun i =>
    ⟨t1_last, (flush1_1 t1_last).mpr rfl, by
      show i ∈ ((View.whole main_v47_0).slice (win1_1.rect t1_last)).set
      rw [View.set_slice_whole, Rect.mem_set_unit]
      intro a
      have h0 : (i 0 : Nat) < 1 := (i 0).isLt
      have h1 : (i 1 : Nat) < 64 := (i 1).isLt
      match a with
      | ⟨0, _⟩ => show win1_1.index t1_last 0 * win1_1.size 0 ≤ (i 0 : Nat) ∧ (i 0 : Nat) < win1_1.index t1_last 0 * win1_1.size 0 + win1_1.xsize (grid1.coords t1_last) 0
                  rw [show win1_1.index t1_last 0 * win1_1.size 0 = 0 from by decide +kernel, show win1_1.xsize (grid1.coords t1_last) 0 = 1 from by decide +kernel]; omega
      | ⟨1, _⟩ => show win1_1.index t1_last 1 * win1_1.size 1 ≤ (i 1 : Nat) ∧ (i 1 : Nat) < win1_1.index t1_last 1 * win1_1.size 1 + win1_1.xsize (grid1.coords t1_last) 1
                  rw [show win1_1.index t1_last 1 * win1_1.size 1 = 0 from by decide +kernel, show win1_1.xsize (grid1.coords t1_last) 1 = 64 from by decide +kernel]; omega⟩

theorem final1_2 (c : Dev nD) : (dat1 V c).arrAt 2 cfg1.N = result1_1 V c :=
  (dat1 V c).arrAt_eq_of_cover 2 (result1_1 V c) (flushed1_2_eq V c) fun i =>
    ⟨t1_last, (flush1_2 t1_last).mpr rfl, by
      show i ∈ ((View.whole main_v47_1).slice (win1_2.rect t1_last)).set
      rw [View.set_slice_whole, Rect.mem_set_unit]
      intro a
      have h0 : (i 0 : Nat) < 1 := (i 0).isLt
      have h1 : (i 1 : Nat) < 64 := (i 1).isLt
      match a with
      | ⟨0, _⟩ => show win1_2.index t1_last 0 * win1_2.size 0 ≤ (i 0 : Nat) ∧ (i 0 : Nat) < win1_2.index t1_last 0 * win1_2.size 0 + win1_2.xsize (grid1.coords t1_last) 0
                  rw [show win1_2.index t1_last 0 * win1_2.size 0 = 0 from by decide +kernel, show win1_2.xsize (grid1.coords t1_last) 0 = 1 from by decide +kernel]; omega
      | ⟨1, _⟩ => show win1_2.index t1_last 1 * win1_2.size 1 ≤ (i 1 : Nat) ∧ (i 1 : Nat) < win1_2.index t1_last 1 * win1_2.size 1 + win1_2.xsize (grid1.coords t1_last) 1
                  rw [show win1_2.index t1_last 1 * win1_2.size 1 = 0 from by decide +kernel, show win1_2.xsize (grid1.coords t1_last) 1 = 64 from by decide +kernel]; omega⟩

end AnyFloat

/-! ## Block reads -/

section BlockRead
variable {F : FTy → Type} [FloatOps F]
variable (V : (c : Dev nD) → (b : Ref sig .tc) → Buf (Elt F) ((c : Thread nD τ).loc b))

/-- The input window's block index at point `t` is `(t, 0)`: decided over the 20 points. -/
theorem idx1_0 : ∀ t : Fin cfg1.N, win1_0.index t 0 = t.val ∧ win1_0.index t 1 = 0 :=
  (by decide +kernel : ∀ t : Fin grid1.N, win1_0.index t 0 = t.val ∧ win1_0.index t 1 = 0)

/-- Row `k` of block `t` is row `5000 t + k` of the array. -/
theorem iblk1_apply (c : Dev nD) (t : Fin cfg1.N) (k : Fin 5000) (q : Fin 64) (hr : 5000 * t.val + k.val < 100000) :
    (iblk1 V c 0 t : Vec F S5000x64 .f32) (ix2 k q) = V c main_v46 (ix2 (⟨5000 * t.val + k.val, hr⟩ : Fin 100000) q) := by
  have hi := idx1_0 t
  unfold iblk1
  rw [View.read_apply]
  show V c main_v46 _ = V c main_v46 _
  congr 1
  funext a
  apply Fin.ext
  match a with
  | ⟨0, _⟩ => show win1_0.index t 0 * 5000 + 1 * k.val = 5000 * t.val + k.val; rw [hi.1]; omega
  | ⟨1, _⟩ => show win1_0.index t 1 * 64 + 1 * q.val = q.val; rw [hi.2]; omega

end BlockRead

/-! ## At the ideal values: the two results are the column sums -/

section AtIdeal

/-- The column reduction's source index over column `j` with row `k` inserted is `(k, j)`. -/
theorem lift_col (h : S5000x64.Reduces [0] S64) (j : S64.Idx) (k : Fin 5000) :
    h.lift j k = ix2 k (j 0) := by
  funext a
  apply Fin.ext
  show h.liftVal j k.val a = (ix2 k (j 0) a).val
  unfold Shape.Reduces.liftVal
  match a with
  | ⟨0, _⟩ => exact dif_pos rfl
  | ⟨1, _⟩ => exact (dif_neg (show ¬((1 : ℕ) = 0) from by decide)).trans ((dif_neg (show ¬((1 : ℕ) < 0) from by decide)).trans rfl)

/-- A sum over the rows of a [5000,64] vector, read at column `j`: the sum over the 5000 rows. -/
theorem colsum_apply (src : FVec Ideal S5000x64 .f32) (h : S5000x64.Reduces [0] S64) (hφ : FKind.Formats .f32)
    (hacc : (0x00000000#32 : BitVec 32) = 0x00000000#32) (j : S64.Idx) :
    multiReduction (F := Ideal) .add [0] S64 src 0x00000000#32 h hφ hacc j = ∑ k : Fin 5000, src (ix2 k (j 0)) := by
  refine (Ideal.multiReduction_add_single src 0x00000000#32 h hφ hacc j).trans ?_
  exact Finset.sum_congr rfl fun k _ => congrArg src (lift_col h j k)

/-- The zero splats read 0. -/
theorem pay1_apply (j : S1x64.Idx) : k1_pay1 (F := Ideal) j = 0 := by
  unfold k1_pay1
  (try dsimp only)
  rw [shapeCast_self]
  exact Ideal.ofBits_zero_f32
theorem pay2_apply (j : S1x64.Idx) : k1_pay2 (F := Ideal) j = 0 := by
  unfold k1_pay2
  (try dsimp only)
  rw [shapeCast_self]
  exact Ideal.ofBits_zero_f32

/-- The first accumulator's step at column `q`: the old value plus the block's column sum. -/
theorem pay4_apply (x : Vec Ideal S5000x64 .f32) (z : Vec Ideal S1x64 .f32) (q : Fin 64) :
    k1_pay4 (F := Ideal) x z (ix2 0 q) = z (ix2 0 q) + ∑ k : Fin 5000, x (ix2 k q) := by
  unfold k1_pay4 k1_pay3
  dsimp only
  rw [shapeCast_self, addf_apply, shapeCast_addUnit_apply]
  refine congrArg (z (ix2 0 q) + ·) ?_
  refine (colsum_apply _ _ _ _ _).trans ?_
  rw [shapeCast_self]
  rfl

/-- The second accumulator's step at column `q`: the old value plus the block's column sum of squares. -/
theorem pay5_apply (x : Vec Ideal S5000x64 .f32) (z : Vec Ideal S1x64 .f32) (q : Fin 64) :
    k1_pay5 (F := Ideal) x z (ix2 0 q) = z (ix2 0 q) + ∑ k : Fin 5000, x (ix2 k q) * x (ix2 k q) := by
  unfold k1_pay5 k1_pay3
  dsimp only
  rw [shapeCast_self, addf_apply, shapeCast_addUnit_apply]
  refine congrArg (z (ix2 0 q) + ·) ?_
  refine (colsum_apply _ _ _ _ _).trans ?_
  simp only [shapeCast_self, mulf_apply]
  rfl

/-- Column `q` of a [100000,64] array as a sequence over the rows (0 past the array's end). -/
def colSeq (xa : S100000x64.Idx → EReal) (q : Fin 64) (r : ℕ) : EReal :=
  if h : r < 100000 then xa (ix2 (⟨r, h⟩ : Fin 100000) q) else 0

variable (V : (c : Dev nD) → (b : Ref sig .tc) → Buf (Elt Ideal) ((c : Thread nD τ).loc b))

/-- The first accumulator after point `n`, at column `q`: the sum over blocks 0..n of the block's 5000 rows of the entry
    array `xa`. -/
theorem acc1_0_apply (c : Dev nD) (xa : S100000x64.Idx → EReal) (hxa : xa = V c main_v46) (q : Fin 64) : ∀ (n : ℕ) (h : n < cfg1.N),
    acc1_0 V c n h (ix2 0 q)
      = ∑ s ∈ Finset.range (n + 1), ∑ k : Fin 5000, colSeq xa q (5000 * s + k.val)
  | 0, h => by
    subst hxa
    rw [acc1_0, pay4_apply, pay1_apply, zero_add, Finset.sum_range_one]
    refine Finset.sum_congr rfl fun k _ => ?_
    have hr : 5000 * 0 + k.val < 100000 := by have := k.isLt; omega
    rw [iblk1_apply V c ⟨0, h⟩ k q hr]
    unfold colSeq
    rw [dif_pos hr]
  | n + 1, h => by
    have hN : cfg1.N = 20 := N_1
    rw [acc1_0, pay4_apply, acc1_0_apply c xa hxa q n _, Finset.sum_range_succ _ (n + 1)]
    subst hxa
    refine congrArg (_ + ·) ?_
    refine Finset.sum_congr rfl fun k _ => ?_
    have hr : 5000 * (n + 1) + k.val < 100000 := by have := k.isLt; omega
    rw [iblk1_apply V c ⟨n + 1, h⟩ k q hr]
    unfold colSeq
    rw [dif_pos hr]

/-- The second accumulator after point `n`, at column `q`: the same over the squares. -/
theorem acc1_1_apply (c : Dev nD) (xa : S100000x64.Idx → EReal) (hxa : xa = V c main_v46) (q : Fin 64) : ∀ (n : ℕ) (h : n < cfg1.N),
    acc1_1 V c n h (ix2 0 q)
      = ∑ s ∈ Finset.range (n + 1), ∑ k : Fin 5000, colSeq (fun i => xa i * xa i) q (5000 * s + k.val)
  | 0, h => by
    subst hxa
    rw [acc1_1, pay5_apply, pay2_apply, zero_add, Finset.sum_range_one]
    refine Finset.sum_congr rfl fun k _ => ?_
    have hr : 5000 * 0 + k.val < 100000 := by have := k.isLt; omega
    rw [iblk1_apply V c ⟨0, h⟩ k q hr]
    unfold colSeq
    rw [dif_pos hr]
  | n + 1, h => by
    have hN : cfg1.N = 20 := N_1
    rw [acc1_1, pay5_apply, acc1_1_apply c xa hxa q n _, Finset.sum_range_succ _ (n + 1)]
    subst hxa
    refine congrArg (_ + ·) ?_
    refine Finset.sum_congr rfl fun k _ => ?_
    have hr : 5000 * (n + 1) + k.val < 100000 := by have := k.isLt; omega
    rw [iblk1_apply V c ⟨n + 1, h⟩ k q hr]
    unfold colSeq
    rw [dif_pos hr]

/-- 20 blocks of 5000 rows are the 100000 rows. -/
theorem sum_rows (xa : S100000x64.Idx → EReal) (q : Fin 64) :
    ∑ s ∈ Finset.range 20, ∑ k : Fin 5000, colSeq xa q (5000 * s + k.val) = ∑ r : Fin 100000, xa (ix2 r q) := by
  rw [← Cert.BlockSum.sum_blocks 20 5000 (colSeq xa q)]
  show ∑ r : Fin 100000, colSeq xa q r.val = _
  refine Finset.sum_congr rfl fun r _ => ?_
  exact dif_pos r.isLt

/-- The first result array at column `q`: the sum of the entry array's column `q` over its 100000 rows. -/
theorem result1_0_sum (c : Dev nD) (xa : S100000x64.Idx → EReal) (hxa : xa = V c main_v46) (q : Fin 64) :
    acc1_0 V c 19 t1_last.isLt (ix2 (0 : Fin 1) q) = ∑ r : Fin 100000, xa (ix2 r q) := by
  rw [acc1_0_apply V c xa hxa q 19 _]
  exact sum_rows xa q

/-- The second result array at column `q`: the sum of the squares of the entry array's column `q`. -/
theorem result1_1_sumsq (c : Dev nD) (xa : S100000x64.Idx → EReal) (hxa : xa = V c main_v46) (q : Fin 64) :
    acc1_1 V c 19 t1_last.isLt (ix2 (0 : Fin 1) q) = ∑ r : Fin 100000, xa (ix2 r q) * xa (ix2 r q) := by
  rw [acc1_1_apply V c xa hxa q 19 _]
  exact sum_rows (fun i => xa i * xa i) q

end AtIdeal

end Cert.KernelIdeal.Hand

namespace Cert.KernelIdeal.HandValue

open Cert.KernelIdeal Cert.KernelIdeal.Gen Cert.KernelIdeal.Hand Idealize.ShloMosaic Idealize.ShloMosaic.TcCoe Idealize.ShloMosaic.ValueIdx

variable (V : (c : Dev nD) → (b : Ref sig .tc) → Buf (Elt Ideal) ((c : Thread nD τ).loc b))

/-- After the region's last point the first result array holds, at column `q`, the sum of the entry array's column `q`
    over its 100000 rows (the entry array named as a typed function `xa`). -/
theorem final1_sum_of (c : Dev nD) (xa : S100000x64.Idx → EReal) (hxa : xa = V c main_v46) (q : Fin 64) :
    ((dat1 V c).arrAt 1 cfg1.N : S1x64.Idx → EReal) (ix2 (0 : Fin 1) q) = ∑ r : Fin 100000, xa (ix2 r q) := by
  rw [final1_1 V c]
  exact result1_0_sum V c xa hxa q

/-- And the second, the sum of the squares. -/
theorem final1_sumsq_of (c : Dev nD) (xa : S100000x64.Idx → EReal) (hxa : xa = V c main_v46) (q : Fin 64) :
    ((dat1 V c).arrAt 2 cfg1.N : S1x64.Idx → EReal) (ix2 (0 : Fin 1) q) = ∑ r : Fin 100000, xa (ix2 r q) * xa (ix2 r q) := by
  rw [final1_2 V c]
  exact result1_1_sumsq V c xa hxa q

end Cert.KernelIdeal.HandValue

end
-- ==== Proof.KAgg.lean ====
/-
  The aggregation as the kernel's program applies it: the same chain of host operations as the reference's, over the kernel
  program's own shape records — from the projected rows `h`, the edge list `e` and the bias `b` to the array the
  statistics and the normalisation read.
-/
import proofs.«167319_j89876485636648_1_alg».proof.Proof.Gen.KernelIdeal

set_option maxRecDepth 8192

noncomputable section

namespace Cert.KernelIdeal.HandValue

open Cert.KernelIdeal Cert.KernelIdeal.Gen Idealize.ShloMosaic Idealize.ShloMosaic.TcCoe Idealize.SL.Sem Idealize.ShloMosaic.StableHlo

variable {F : FTy → Type} [FloatOps F]

/-- The aggregation over the kernel program's records. -/
def aggK (h : FVec F S100000x64 .f32) (e : IVec S2x1600000 32) (b : FVec F S64 .f32) : FVec F S100000x64 .f32 :=
  (addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (mulf (Host.gather gather_S100000x64_S1700000x1_S1700000x64_1_0_n_n_0_1_164 h (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (broadcastInDim S1700000x64 ![0, 1] bcast_S1700000x1_S1700000x64_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0))))))))) (broadcastInDim S100000x64 ![0, 1] bcast_S1x64_S100000x64_0_1 (broadcastInDim S1x64 ![1] bcast_S64_S1x64_1 b)))

end Cert.KernelIdeal.HandValue

end
-- ==== Proof.RefSpec.lean ====
/-
  The reference's result as two functions composed: the AGGREGATION (the symmetric-normalised neighbour sum of the rows of
  h = x · W over the edge list with self loops, plus the bias b) and the TAIL (batch normalisation of the aggregated array
  over its 100000 rows by the two-pass variance, scale gamma, shift beta, rectified). Both are the reference's own operations,
  composed; the aggregation is the chain of host operations the kernel's program applies to its own h as well.
-/
import proofs.«167319_j89876485636648_1_alg».proof.Proof.RefRun

set_option maxRecDepth 8192

noncomputable section

namespace Cert.ReferenceIdeal.Spec

open Cert.ReferenceIdeal Cert.ReferenceIdeal.Gen Idealize.ShloMosaic Idealize.ShloMosaic.TcCoe Idealize.SL.Sem Idealize.ShloMosaic.StableHlo

variable {F : FTy → Type} [FloatOps F]

/-- The aggregation: from the projected rows `h`, the edge list `e` and the bias `b` to the array the normalisation reads. -/
def agg (h : FVec F S100000x64 .f32) (e : IVec S2x1600000 32) (b : FVec F S64 .f32) : FVec F S100000x64 .f32 :=
  (addf (Host.scatterAdd scatter_S100000x64_S1700000x1_S1700000x64_1_0_0_1 (broadcastInDim S100000x64 ![] bcast_S_S100000x64 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (mulf (Host.gather gather_S100000x64_S1700000x1_S1700000x64_1_0_n_n_0_1_164 h (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (broadcastInDim S1700000x64 ![0, 1] bcast_S1700000x1_S1700000x64_0_1 (broadcastInDim S1700000x1 ![0] bcast_S1700000_S1700000x1_0 (mulf (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![0, 0] e slices_S2x1600000_S1x1600000_0_0) shapeCasts_S1x1600000_S1600000)⟩, ⟨S100000, (iotaInDim S100000 32 0)⟩] concatenates_S1600000_S100000_S1700000_d0)))) (Host.gather gather_S100000_S1700000x1_S1700000_n_0_n_n_0_1_1 (select (cmpf (F := F) .ogt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32))) (broadcastInDim S100000 ![] bcast_S_S100000 (constant S_ .f32 0x00000000#32))) (Host.rsqrt (Host.scatterAdd scatter_S100000_S1700000x1_S1700000_n_0_0_1 (broadcastInDim S100000 ![] bcast_S_S100000 (constant S_ .f32 0x00000000#32)) (broadcastInDim S1700000x1 ![0] bcast_S1700000_S1700000x1_0 (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0)) (broadcastInDim S1700000 ![] bcast_S_S1700000 (constant S_ .f32 0x3F800000#32)))) (broadcastInDim S100000 ![] bcast_S_S100000 (id (constant S_ .f32 0x00000000#32)))) (broadcastInDim S1700000x1 ![0] bcast_S1700000_S1700000x1_0 (select (cmpi .slt (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 0#32))) (addi (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0) (broadcastInDim S1700000 ![] bcast_S_S1700000 (constantI S_ 32 100000#32))) (concatenate S1700000 0 [⟨S1600000, (shapeCast _ (extractStridedSlice S1x1600000 ![1, 0] e slices_S2x1600000_S1x1600000_1_0) shapeCasts_S1x1600000_S1600000)⟩, ⟨S100000, (iotaInDim S100000 32 0)⟩] concatenates_S1600000_S100000_S1700000_d0))))))))) (broadcastInDim S100000x64 ![0, 1] bcast_S1x64_S100000x64_0_1 (broadcastInDim S1x64 ![1] bcast_S64_S1x64_1 b)))

/-- The tail: the aggregated array `o` normalised over its rows (mean Σo/n, variance Σ(o − mean)²/n, n = 100000), scaled by
    `γ`, shifted by `β`, and rectified. -/
def tail (o : FVec F S100000x64 .f32) (γ β : FVec F S64 .f32) : FVec F S100000x64 .f32 :=
  maximumf (addf (mulf (mulf (subf o (broadcastInDim S100000x64 ![0, 1] bcast_S1x64_S100000x64_0_1 (broadcastInDim S1x64 ![1] bcast_S64_S1x64_1 (Host.divf (Host.reduceAdd o (constant S_ .f32 0x00000000#32) reducesTo_S100000x64_S64_d0 h_S_) (broadcastInDim S64 ![] bcast_S_S64 (constant S_ .f32 0x47C35000#32)))))) (broadcastInDim S100000x64 ![0, 1] bcast_S1x64_S100000x64_0_1 (broadcastInDim S1x64 ![1] bcast_S64_S1x64_1 (Host.rsqrt (addf (Host.divf (Host.reduceAdd (mulf (subf o (broadcastInDim S100000x64 ![0, 1] bcast_S1x64_S100000x64_0_1 (broadcastInDim S1x64 ![1] bcast_S64_S1x64_1 (Host.divf (Host.reduceAdd o (constant S_ .f32 0x00000000#32) reducesTo_S100000x64_S64_d0 h_S_) (broadcastInDim S64 ![] bcast_S_S64 (constant S_ .f32 0x47C35000#32)))))) (subf o (broadcastInDim S100000x64 ![0, 1] bcast_S1x64_S100000x64_0_1 (broadcastInDim S1x64 ![1] bcast_S64_S1x64_1 (Host.divf (Host.reduceAdd o (constant S_ .f32 0x00000000#32) reducesTo_S100000x64_S64_d0 h_S_) (broadcastInDim S64 ![] bcast_S_S64 (constant S_ .f32 0x47C35000#32))))))) (constant S_ .f32 0x00000000#32) reducesTo_S100000x64_S64_d0 h_S_) (broadcastInDim S64 ![] bcast_S_S64 (constant S_ .f32 0x47C35000#32))) (broadcastInDim S64 ![] bcast_S_S64 (constant S_ .f32 0x3727C5AC#32))))))) (broadcastInDim S100000x64 ![0, 1] bcast_S1x64_S100000x64_0_1 (broadcastInDim S1x64 ![1] bcast_S64_S1x64_1 γ))) (broadcastInDim S100000x64 ![0, 1] bcast_S1x64_S100000x64_0_1 (broadcastInDim S1x64 ![1] bcast_S64_S1x64_1 β))) (broadcastInDim S100000x64 ![] bcast_S_S100000x64 (constant S_ .f32 0x00000000#32))

/-- The reference's result is the tail of the aggregation of the projected rows. -/
theorem res_eq (m : (ℓ : Loc nD τ sig) → Buf (Elt F) ℓ) (c : Dev nD) :
    ValueP.res_main_v72 m c = tail (agg (Host.dotGeneral dot_S100000x64_S64x64_S100000x64_1_0_0_1_n_n none (m ((c.tc : Thread nD τ).loc main_arg0)) (m ((c.tc : Thread nD τ).loc main_arg2))) (m ((c.tc : Thread nD τ).loc main_arg1)) (m ((c.tc : Thread nD τ).loc main_arg3))) (m ((c.tc : Thread nD τ).loc main_arg4)) (m ((c.tc : Thread nD τ).loc main_arg5)) := rfl

end Cert.ReferenceIdeal.Spec

end
-- ==== Proof.HostGlue.lean ====
/-
  The host operations between the regions, read back: what the stretches of host operations leave in the buffers the next
  region reads, as functions of the buffers before them.

  After the three stretches following region 0 the array `main_v46` holds the aggregation (`aggK`) of region 0's output, the
  edge list and the bias (`v46_of`); the aggregation over the kernel program's records is the reference's (`aggK_eq`: the
  same operations). After the stretch following region 1 the two rows read by region 2 hold the mean (the first sums row
  divided by n = 100000) and the one-pass variance (the second sums row divided by n, less the squared mean), and the scale
  and shift rows are the [64] arguments recast as [1, 64] rows.
-/
import proofs.«167319_j89876485636648_1_alg».proof.Proof.Gen.KernelIdeal.Launch
import proofs.«167319_j89876485636648_1_alg».proof.Proof.KAgg
import proofs.«167319_j89876485636648_1_alg».proof.Proof.RefSpec
import Idealize.ShloMosaic.Lib.StableHlo.Run
import Idealize.ShloMosaic.PureOps.Ideal.Laws

set_option maxRecDepth 16384

noncomputable section

namespace Cert.KernelIdeal.HandValue

open Cert.KernelIdeal Cert.KernelIdeal.Gen
open Idealize.ShloMosaic Idealize.ShloMosaic.TcCoe Idealize.ShloMosaic.StableHlo

set_option maxHeartbeats 8000000 in
/-- The aggregated array after the three stretches, from any contents `X` before them (at any float instance: the
    operations are composed, never opened). -/
theorem v46_of {F : FTy → Type} [FloatOps F] (X : Valuation τ sig (Elt F)) :
    StableHlo.after hostOps1_2 (StableHlo.after hostOps1_1 (StableHlo.after hostOps1 X)) (Proc.devRef .tc main_v46)
      = aggK (F := F) (X (Proc.devRef .tc main_v0)) (X (Proc.devRef .tc main_arg1)) (X (Proc.devRef .tc main_arg3)) := by
  after_results_simp
  unfold aggK
  rfl

/-- The kernel program's aggregation is the reference's: the same operations over equal shape records. -/
theorem aggK_eq (h : FVec Ideal S100000x64 .f32) (e : IVec S2x1600000 32) (b : FVec Ideal S64 .f32) :
    aggK (F := Ideal) h e b = Cert.ReferenceIdeal.Spec.agg (F := Ideal) h e b := rfl

/-- The mean row after the stretch following region 1. -/
theorem v49_of (X : Valuation τ sig (Elt Ideal)) :
    StableHlo.after hostOps2 X (Proc.devRef .tc main_v49)
      = Host.divf (F := Ideal) (X (Proc.devRef .tc main_v47_0)) (broadcastInDim S1x64 ![] bcast_S_S1x64 (constant (F := Ideal) S_ .f32 0x47C35000#32)) := by
  after_results <;> rfl

/-- The variance row. -/
theorem v53_of (X : Valuation τ sig (Elt Ideal)) :
    StableHlo.after hostOps2 X (Proc.devRef .tc main_v53)
      = subf (Host.divf (F := Ideal) (X (Proc.devRef .tc main_v47_1)) (broadcastInDim S1x64 ![] bcast_S_S1x64 (constant (F := Ideal) S_ .f32 0x47C35000#32)))
          (mulf (Host.divf (F := Ideal) (X (Proc.devRef .tc main_v47_0)) (broadcastInDim S1x64 ![] bcast_S_S1x64 (constant (F := Ideal) S_ .f32 0x47C35000#32)))
            (Host.divf (F := Ideal) (X (Proc.devRef .tc main_v47_0)) (broadcastInDim S1x64 ![] bcast_S_S1x64 (constant (F := Ideal) S_ .f32 0x47C35000#32)))) := by
  after_results <;> rfl

/-- The scale row. -/
theorem v54_of (X : Valuation τ sig (Elt Ideal)) :
    StableHlo.after hostOps2 X (Proc.devRef .tc main_v54) = shapeCast S1x64 (X (Proc.devRef .tc main_arg4)) shapeCasts_S64_S1x64 := by
  after_results <;> rfl

/-- The shift row. -/
theorem v55_of (X : Valuation τ sig (Elt Ideal)) :
    StableHlo.after hostOps2 X (Proc.devRef .tc main_v55) = shapeCast S1x64 (X (Proc.devRef .tc main_arg5)) shapeCasts_S64_S1x64 := by
  after_results <;> rfl

end Cert.KernelIdeal.HandValue

end
-- ==== Proof.LibVariance.lean ====
/-
  The one-pass and the two-pass variance are one number.

  For a finite family of REAL numbers x over an index set of n ≠ 0 elements, with S = Σ x and μ = S / n,

      (Σ (x i − μ)²) / n  =  (Σ x i²) / n − μ²        (expand the square: Σ (x i − μ)² = Σ x i² − 2 μ S + n μ², and μ n = S).

  On the extended reals the law needs every entry to be a real number (with an infinite entry the left side is +∞ where the
  right side is ∞ − ∞): it is stated here for entries that are coercions of reals, the quotient read as `Ideal.div` by the
  real n, which is the product with 1/n (`Ideal.div_coe`).
-/
import Idealize.ShloMosaic.PureOps.Ideal

namespace LibVariance

open Idealize.ShloMosaic

/-- The coercion of a finite real sum is the sum of the coercions. -/
theorem coe_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The law over the reals, the quotients written as products with 1/n. -/
theorem var_real {ι : Type*} (s : Finset ι) (x : ι → ℝ) (n : ℝ) (hn : n ≠ 0) (hcard : (s.card : ℝ) = n) :
    (∑ i ∈ s, (x i - (∑ j ∈ s, x j) * (1 / n)) * (x i - (∑ j ∈ s, x j) * (1 / n))) * (1 / n)
      = (∑ i ∈ s, x i * x i) * (1 / n) - ((∑ j ∈ s, x j) * (1 / n)) * ((∑ j ∈ s, x j) * (1 / n)) := by
  have h1 : ∀ i ∈ s, (x i - (∑ j ∈ s, x j) * (1 / n)) * (x i - (∑ j ∈ s, x j) * (1 / n))
      = x i * x i - 2 * ((∑ j ∈ s, x j) * (1 / n)) * x i + ((∑ j ∈ s, x j) * (1 / n)) * ((∑ j ∈ s, x j) * (1 / n)) :=
    fun i _ => by ring
  rw [Finset.sum_congr rfl h1, Finset.sum_add_distrib, Finset.sum_sub_distrib, ← Finset.mul_sum, Finset.sum_const,
    nsmul_eq_mul, hcard]
  field_simp
  ring

/-- The law on the extended reals, for real entries, the quotients the ideal division by the real n: the mean of the squared
    deviations from the mean is the mean of the squares less the squared mean. -/
theorem var_ideal {ι : Type*} (s : Finset ι) (x : ι → ℝ) (n : ℝ) (hn : n ≠ 0) (hcard : (s.card : ℝ) = n) :
    Ideal.div (∑ i ∈ s, ((x i : EReal) - Ideal.div (∑ j ∈ s, (x j : EReal)) (n : EReal))
        * ((x i : EReal) - Ideal.div (∑ j ∈ s, (x j : EReal)) (n : EReal))) (n : EReal)
      = Ideal.div (∑ i ∈ s, (x i : EReal) * (x i : EReal)) (n : EReal)
        - Ideal.div (∑ j ∈ s, (x j : EReal)) (n : EReal) * Ideal.div (∑ j ∈ s, (x j : EReal)) (n : EReal) := by
  simp only [Ideal.div_coe hn, ← coe_sum, ← EReal.coe_mul, ← EReal.coe_sub]
  exact congrArg _ (var_real s x n hn hcard)

end LibVariance
-- ==== Proof.LibRealClosed.lean ====
/-
  Real-closedness of the ideal operations: an extended real is REAL when it is the coercion of a real number, and sums,
  differences, products, finite sums, maxima and quotients by a nonzero real of real numbers are real — so are, entry by entry,
  the results of the host operations that only add and multiply entries of their operands: a gather (each entry IS an entry of
  the operand), an accumulating scatter (an operand entry plus a finite sum of update entries), a sum along axes (the initial
  value plus a finite sum of entries), a general dot and a matmul (finite sums of products, plus the accumulator's entry).
  These carry "every input is finite" through a program to the point where an algebraic law needs it (distributivity and
  cancellation fail at the infinities).
-/
import Idealize.ShloMosaic.PureOps.Ideal
import Idealize.ShloMosaic.PureOps.Ideal.Laws

namespace LibRealClosed

open Idealize.ShloMosaic

/-- An extended real that is (the coercion of) a real number. -/
def IsReal (x : EReal) : Prop := ∃ r : ℝ, x = (r : EReal)

theorem IsReal.coe (r : ℝ) : IsReal (r : EReal) := ⟨r, rfl⟩

theorem IsReal.zero : IsReal 0 := ⟨0, rfl⟩

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.max {x y : EReal} (hx : IsReal x) (hy : IsReal y) : IsReal (max x y) := by
  rcases le_total x y with h | h
  · rw [max_eq_right h]; exact hy
  · rw [max_eq_left h]; exact hx

/-- A finite sum of real numbers is real. -/
theorem IsReal.sum {ι : Type*} (s : Finset ι) (f : ι → EReal) (h : ∀ i ∈ s, IsReal (f i)) : IsReal (∑ i ∈ s, f i) := by
  classical
  induction s using Finset.induction_on with
  | empty => rw [Finset.sum_empty]; exact IsReal.zero
  | insert a s ha ih =>
    rw [Finset.sum_insert ha]
    exact (h a (Finset.mem_insert_self a s)).add (ih fun i hi => h i (Finset.mem_insert_of_mem hi))

/-- The ideal quotient of a real number by a nonzero real is real. -/
theorem IsReal.div_coe {x : EReal} (hx : IsReal x) {n : ℝ} (hn : n ≠ 0) : IsReal (Ideal.div x (n : EReal)) := by
  rw [Ideal.div_coe hn]; exact hx.mul (IsReal.coe _)

/-- A gather's entry is an entry of its operand. -/
theorem gather_isReal {s si t : Shape} {w : Nat} (d : GatherDims s si t) (x : s.Idx → EReal) (idx : IVec si w)
    (hx : ∀ i, IsReal (x i)) (j : t.Idx) : IsReal (Host.gather d x idx j) := hx _

/-- An accumulating scatter's entry: the operand's plus a finite sum of update entries. -/
theorem hostScatterAdd_isReal {s si su : Shape} (d : ScatterDims s si su) {w : Nat} (x : s.Idx → EReal) (idx : IVec si w)
    (upd : su.Idx → EReal) (hx : ∀ i, IsReal (x i)) (hu : ∀ j, IsReal (upd j)) (i : s.Idx) :
    IsReal (Ideal.hostScatterAdd d x idx upd i) := by
  unfold Ideal.hostScatterAdd
  exact (hx i).add (IsReal.sum _ _ fun j _ => hu j)

/-- A host sum along axes: the initial value plus a finite sum of entries. -/
theorem hostReduceAdd_isReal {s : Shape} {axes : List (Fin s.rank)} {t : Shape} (h : s.ReducesTo axes t) (x : s.Idx → EReal)
    (init : EReal) (hx : ∀ i, IsReal (x i)) (hi : IsReal init) (j : t.Idx) : IsReal (Ideal.hostReduceAdd h x init j) := by
  unfold Ideal.hostReduceAdd
  exact hi.add (IsReal.sum _ _ fun i _ => hx i)

/-- A general dot's entry: a finite sum of products of entries. -/
theorem dotGeneral_isReal {sl sr so : Shape} {φ₁ φ₂ : FTy} (d : DotDims sl sr so) (prec : Option ContractPrecision)
    (sched : HostSchedule) (lhs : FVec Ideal sl φ₁) (rhs : FVec Ideal sr φ₂) (hl : ∀ i, IsReal (lhs i)) (hr : ∀ i, IsReal (rhs i))
    (j : so.Idx) : IsReal (FloatOps.dotGeneral d prec sched lhs rhs j) := by
  rw [Ideal.dotGeneral_apply]
  exact IsReal.sum _ _ fun k _ => (hl _).mul (hr _)

/-- A matmul's entry: the accumulator's plus a finite sum of products of entries. -/
theorem matmul_isReal {sl sr so : Shape} {φ₁ φ₂ : FTy} (d : DotDims sl sr so) (prec : Option ContractPrecision)
    (lhs : FVec Ideal sl φ₁) (rhs : FVec Ideal sr φ₂) (acc : FVec Ideal so .f32) (hl : ∀ i, IsReal (lhs i))
    (hr : ∀ i, IsReal (rhs i)) (ha : ∀ i, IsReal (acc i)) (j : so.Idx) : IsReal (FloatOps.matmul d prec lhs rhs acc j) := by
  rw [Ideal.matmul_apply]
  exact (ha j).add (IsReal.sum _ _ fun k _ => (hl _).mul (hr _))

end LibRealClosed
-- ==== Proof.TailSpec.lean ====
/-
  The batch normalisation of an array o of 100000 rows and 64 columns, read at an index, in the two forms the two programs
  compute it.

  For a column q:  mean q = (Σ_r o(r,q)) / n,  n = 100000;  the TWO-PASS variance  (Σ_r (o(r,q) − mean q)²) / n  and the
  ONE-PASS variance  (Σ_r o(r,q)²) / n − (mean q)².  With every entry of o a real number the two are one number
  (`var_eq`); the normalised, scaled, shifted and rectified entry `normRelu v o γ β r q` is stated over a variance row `v`, so
  the two programs' results are it at `varTwoPass o` and at `varOnePass o`.
-/
import Idealize.ShloMosaic.Lib.ValueIdx
import proofs.«167319_j89876485636648_1_alg».proof.Proof.LibVariance
import proofs.«167319_j89876485636648_1_alg».proof.Proof.LibRealClosed

noncomputable section

namespace Cert.TailSpec

open Idealize.ShloMosaic Idealize.ShloMosaic.ValueIdx LibRealClosed

/-- The array's index type: 100000 rows of 64 columns. -/
abbrev A : Shape := ⟨2, ![100000, 64]⟩

/-- The number of rows, as an extended real. -/
abbrev n : EReal := ((100000 : ℝ) : EReal)

/-- The column mean. -/
def mean (o : A.Idx → EReal) (q : Fin 64) : EReal := Ideal.div (∑ r : Fin 100000, o (ix2 r q)) n

/-- The mean of the squared deviations from the column mean. -/
def varTwoPass (o : A.Idx → EReal) (q : Fin 64) : EReal :=
  Ideal.div (∑ r : Fin 100000, (o (ix2 r q) - mean o q) * (o (ix2 r q) - mean o q)) n

/-- The mean of the squares less the squared mean. -/
def varOnePass (o : A.Idx → EReal) (q : Fin 64) : EReal :=
  Ideal.div (∑ r : Fin 100000, o (ix2 r q) * o (ix2 r q)) n - mean o q * mean o q

/-- The stabiliser under the root: the f32 word both programs carry. -/
abbrev eps : EReal := Ideal.ofBits .f32 0x3727C5AC#32

/-- The normalised entry over a variance row `v`: (o − mean) · rsqrt(v + eps) · γ + β, rectified. -/
def normRelu (v : Fin 64 → EReal) (o : A.Idx → EReal) (γ β : Fin 64 → EReal) (r : Fin 100000) (q : Fin 64) : EReal :=
  max ((o (ix2 r q) - mean o q) * Ideal.rsqrt (v q + eps) * γ q + β q) 0

/-- With real entries the two variances are one number. -/
theorem var_eq (o : A.Idx → EReal) (ho : ∀ i, IsReal (o i)) (q : Fin 64) : varTwoPass o q = varOnePass o q := by
  choose x hx using ho
  have hc : ((Finset.univ : Finset (Fin 100000)).card : ℝ) = 100000 := by
    rw [Finset.card_univ, Fintype.card_fin]; norm_num
  have h := LibVariance.var_ideal (Finset.univ : Finset (Fin 100000)) (fun r => x (ix2 r q)) 100000 (by norm_num) hc
  unfold varTwoPass varOnePass mean
  simp only [hx]
  exact h

/-- So the normalised entries agree. -/
theorem normRelu_var (o : A.Idx → EReal) (ho : ∀ i, IsReal (o i)) (γ β : Fin 64 → EReal) (r : Fin 100000) (q : Fin 64) :
    normRelu (varTwoPass o) o γ β r q = normRelu (varOnePass o) o γ β r q := by
  unfold normRelu; rw [var_eq o ho q]

end Cert.TailSpec

end
-- ==== Proof.KernelTail.lean ====
/-
  The kernel's tail read at an index. The kernel normalises with the ONE-PASS variance: from the row of column sums s1 and the
  row of column sums of squares s2 it forms the mean row s1 / 100000 and the variance row s2 / 100000 − mean², recasts the scale
  and shift arguments [64] as rows [1, 64], and its last region leaves max((o − mean) · rsqrt(var + eps) · γ + β, 0). At (r, q)
  that is the textbook normalised entry over the one-pass variance: the divisor word 0x47C35000 is the real number 100000, a
  recast row reads its entry q at (0, q), and the maximum with the zero word is the maximum with 0.
-/
import proofs.«167319_j89876485636648_1_alg».proof.Proof.ValueA2
import proofs.«167319_j89876485636648_1_alg».proof.Proof.TailSpec
import Idealize.ShloMosaic.Lib.ValueLayout
import Idealize.ShloMosaic.PureOps.Ideal.Laws

noncomputable section

namespace Cert.KernelIdeal.HandValue

open Cert.KernelIdeal Cert.KernelIdeal.Gen Idealize.ShloMosaic Idealize.ShloMosaic.ValueIdx

/-- The f32 word 0x47C35000 (sign 0, exponent 143, significand 1 + 4411392 / 2^23) denotes the real number 100000. -/
theorem ofBits_rows : Ideal.ofBits .f32 0x47C35000#32 = ((100000 : ℝ) : EReal) := by
  simp [Ideal.ofBits, Ideal.ieee, -EReal.coe_mul]; norm_num

/-- A scalar splat reads the scalar everywhere. -/
theorem bcastScalar_apply {α : Type} {t : Shape} (x : S_.Idx → α) (h : S_.BroadcastsInDim t (![] : Fin 0 → Fin t.rank))
    (j : t.Idx) : broadcastInDim t ![] h x j = x ix0 :=
  broadcastInDim_apply _ h x j ix0 fun a => a.elim0

/-- The column of the index (r, q), as a column of a [1, 64] row, is (0, q). -/
theorem col_ix2 (r : Fin 100000) (q : Fin 64) : col (ix2 r q) = ix2 (0 : Fin 1) q := rfl

/-- A row of sums divided by the splat of the word 0x47C35000 is, at (0, q), the sum's quotient by 100000. -/
theorem divRows_apply (s : S1x64.Idx → EReal) (hb : S_.BroadcastsInDim S1x64 (![] : Fin 0 → Fin S1x64.rank)) (q : Fin 64) :
    Host.divf (F := Ideal) s (broadcastInDim S1x64 ![] hb (constant (F := Ideal) S_ .f32 0x47C35000#32)) (ix2 (0 : Fin 1) q)
      = Ideal.div (s (ix2 (0 : Fin 1) q)) ((100000 : ℝ) : EReal) := by
  show Ideal.div (s (ix2 (0 : Fin 1) q)) (broadcastInDim S1x64 ![] hb (constant (F := Ideal) S_ .f32 0x47C35000#32) (ix2 (0 : Fin 1) q)) = _
  rw [bcastScalar_apply, constant_apply, ofBits_rows]

/-- THE KERNEL'S TAIL AT (r, q): the normalised, scaled, shifted and rectified entry over the one-pass variance. -/
theorem kernel_tail (o : S100000x64.Idx → EReal) (s1 s2 : S1x64.Idx → EReal) (g4 g5 : S64.Idx → EReal)
    (h1 : ∀ q : Fin 64, s1 (ix2 (0 : Fin 1) q) = ∑ r : Fin 100000, o (ix2 r q))
    (h2 : ∀ q : Fin 64, s2 (ix2 (0 : Fin 1) q) = ∑ r : Fin 100000, o (ix2 r q) * o (ix2 r q)) (r : Fin 100000) (q : Fin 64) :
    G2 o (Host.divf (F := Ideal) s1 (broadcastInDim S1x64 ![] bcast_S_S1x64 (constant (F := Ideal) S_ .f32 0x47C35000#32)))
        (subf (Host.divf (F := Ideal) s2 (broadcastInDim S1x64 ![] bcast_S_S1x64 (constant (F := Ideal) S_ .f32 0x47C35000#32)))
          (mulf (Host.divf (F := Ideal) s1 (broadcastInDim S1x64 ![] bcast_S_S1x64 (constant (F := Ideal) S_ .f32 0x47C35000#32)))
            (Host.divf (F := Ideal) s1 (broadcastInDim S1x64 ![] bcast_S_S1x64 (constant (F := Ideal) S_ .f32 0x47C35000#32)))))
        (shapeCast S1x64 g4 shapeCasts_S64_S1x64) (shapeCast S1x64 g5 shapeCasts_S64_S1x64) (ix2 r q)
      = Cert.TailSpec.normRelu (Cert.TailSpec.varOnePass o) o (fun q => g4 (ix1 q)) (fun q => g5 (ix1 q)) r q := by
  unfold G2
  simp only [col_ix2, subf_apply, mulf_apply]
  rw [divRows_apply, divRows_apply, h1, h2, shapeCast_a_1a_apply, shapeCast_a_1a_apply, Ideal.ofBits_zero_f32]
  rfl

end Cert.KernelIdeal.HandValue

end
-- ==== Proof.KernelValue.lean ====
/-
  The kernel's result at the ideal instance, index by index, as a function of its arguments.

  Following the buffer contents through the run: region 0 leaves the product h = x · w (`G0`); the host operations leave the
  aggregation o of h, the edge list and the bias (`oK`), which region 1's input window and region 2's first window read
  unchanged; region 1 leaves the column sums of o and of o²; the host operations turn them into the mean row and the one-pass
  variance row and recast gamma and beta as rows; region 2 leaves the normalised, rectified array. So the result at (r, q) is
  `normRelu (varOnePass o) o γ β r q` (`kernel_value`).
-/
import proofs.«167319_j89876485636648_1_alg».proof.Proof.FrameRun
import proofs.«167319_j89876485636648_1_alg».proof.Proof.ValueA0
import proofs.«167319_j89876485636648_1_alg».proof.Proof.ValueA2
import proofs.«167319_j89876485636648_1_alg».proof.Proof.ValueR1
import proofs.«167319_j89876485636648_1_alg».proof.Proof.HostGlue
import proofs.«167319_j89876485636648_1_alg».proof.Proof.KernelTail
import proofs.«167319_j89876485636648_1_alg».proof.Proof.TailSpec

set_option maxRecDepth 16384

noncomputable section

namespace Cert.KernelIdeal.HandValue

open Cert.KernelIdeal Cert.KernelIdeal.Gen Cert.KernelIdeal.Hand
open Idealize.ShloMosaic Idealize.ShloMosaic.TcCoe Idealize.ShloMosaic.ValueIdx Idealize.SL.Sem

variable (m : (ℓ : Loc nD τ sig) → Buf (Elt Ideal) ℓ) (ρ : Dev nD → PrngReg)

/-- The aggregated array: the aggregation of the product of the first and third arguments, the edge list and the bias. -/
def oK (c : Dev nD) : S100000x64.Idx → EReal :=
  Cert.ReferenceIdeal.Spec.agg (F := Ideal) (G0 (m ((c : Thread nD τ).loc main_arg0)) (m ((c : Thread nD τ).loc main_arg2)))
    (m ((c : Thread nD τ).loc main_arg1)) (m ((c : Thread nD τ).loc main_arg3))

/-- Region 0 leaves the product in its output array. -/
theorem W1_v0 (c : Dev nD) : W1 m ρ c (Proc.devRef .tc main_v0) = G0 (m ((c : Thread nD τ).loc main_arg0)) (m ((c : Thread nD τ).loc main_arg2)) :=
  (W1_arr m ρ c 2).trans (final0 (V0 m ρ) c)

/-- The host operations leave the aggregated array. -/
theorem W4_v46 (c : Dev nD) : W4 m ρ c (Proc.devRef .tc main_v46) = oK m c := by
  refine (v46_of (W1 m ρ c)).trans ?_
  rw [aggK_eq, W1_v0, W1_main_arg1', W1_main_arg3']
  rfl

/-- Region 1 reads it through an input window: unchanged. -/
theorem W5_v46 (c : Dev nD) : W5 m ρ c (Proc.devRef .tc main_v46) = oK m c :=
  ((W5_arr m ρ c 0).trans (((dat1 (V4 m ρ) c).arrAt_in 0 rfl _).trans (A_eq1 (V4 m ρ) c 0))).trans (W4_v46 m ρ c)

/-- No host operation after region 1 writes it. -/
theorem W6_v46 (c : Dev nD) : W6 m ρ c (Proc.devRef .tc main_v46) = oK m c :=
  (StableHlo.after_of_writes_sub hostOps2 _ hostOps2_writes (r := main_v46) (by decide)).trans (W5_v46 m ρ c)

/-- The scale and shift arguments reach region 1's exit as launched. -/
theorem W5_main_arg4 (c : Dev nD) : W5 m ρ c (Proc.devRef .tc main_arg4) = m ((c : Thread nD τ).loc main_arg4) :=
  calc W5 m ρ c (Proc.devRef .tc main_arg4)
    _ = W4 m ρ c (Proc.devRef .tc main_arg4) := W5_of_ne m ρ c main_arg4 (by decide)
    _ = W3 m ρ c (Proc.devRef .tc main_arg4) := StableHlo.after_of_writes_sub hostOps1_2 _ hostOps1_2_writes (r := main_arg4) (by decide)
    _ = W2 m ρ c (Proc.devRef .tc main_arg4) := StableHlo.after_of_writes_sub hostOps1_1 _ hostOps1_1_writes (r := main_arg4) (by decide)
    _ = W1 m ρ c (Proc.devRef .tc main_arg4) := StableHlo.after_of_writes_sub hostOps1 _ hostOps1_writes (r := main_arg4) (by decide)
    _ = W0 m ρ c (Proc.devRef .tc main_arg4) := W1_main_arg4' m ρ c
    _ = m ((c : Thread nD τ).loc main_arg4) := rfl
theorem W5_main_arg5 (c : Dev nD) : W5 m ρ c (Proc.devRef .tc main_arg5) = m ((c : Thread nD τ).loc main_arg5) :=
  calc W5 m ρ c (Proc.devRef .tc main_arg5)
    _ = W4 m ρ c (Proc.devRef .tc main_arg5) := W5_of_ne m ρ c main_arg5 (by decide)
    _ = W3 m ρ c (Proc.devRef .tc main_arg5) := StableHlo.after_of_writes_sub hostOps1_2 _ hostOps1_2_writes (r := main_arg5) (by decide)
    _ = W2 m ρ c (Proc.devRef .tc main_arg5) := StableHlo.after_of_writes_sub hostOps1_1 _ hostOps1_1_writes (r := main_arg5) (by decide)
    _ = W1 m ρ c (Proc.devRef .tc main_arg5) := StableHlo.after_of_writes_sub hostOps1 _ hostOps1_writes (r := main_arg5) (by decide)
    _ = W0 m ρ c (Proc.devRef .tc main_arg5) := W1_main_arg5' m ρ c
    _ = m ((c : Thread nD τ).loc main_arg5) := rfl

/-- Region 1 leaves the column sums of the aggregated array and of its square. -/
theorem W5_sum (c : Dev nD) (q : Fin 64) :
    (W5 m ρ c (Proc.devRef .tc main_v47_0) : S1x64.Idx → EReal) (ix2 (0 : Fin 1) q) = ∑ r : Fin 100000, oK m c (ix2 r q) :=
  (congrFun (W5_arr m ρ c 1) _).trans (final1_sum_of (V4 m ρ) c (oK m c) (W4_v46 m ρ c).symm q)
theorem W5_sumsq (c : Dev nD) (q : Fin 64) :
    (W5 m ρ c (Proc.devRef .tc main_v47_1) : S1x64.Idx → EReal) (ix2 (0 : Fin 1) q) = ∑ r : Fin 100000, oK m c (ix2 r q) * oK m c (ix2 r q) :=
  (congrFun (W5_arr m ρ c 2) _).trans (final1_sumsq_of (V4 m ρ) c (oK m c) (W4_v46 m ρ c).symm q)

/-- THE RESULT at row r, column q. -/
theorem kernel_value (c : Dev nD) (r : Fin 100000) (q : Fin 64) :
    (W7 m ρ c (Proc.devRef .tc main_v56) : S100000x64.Idx → EReal) (ix2 r q)
      = Cert.TailSpec.normRelu (Cert.TailSpec.varOnePass (oK m c)) (oK m c)
          (fun q => (m ((c : Thread nD τ).loc main_arg4) : S64.Idx → EReal) (ix1 q)) (fun q => (m ((c : Thread nD τ).loc main_arg5) : S64.Idx → EReal) (ix1 q)) r q := by
  have h7 : W7 m ρ c (Proc.devRef .tc main_v56)
      = G2 (V6 m ρ c main_v46) (V6 m ρ c main_v49) (V6 m ρ c main_v53) (V6 m ρ c main_v54) (V6 m ρ c main_v55) :=
    (W7_arr m ρ c 5).trans (final2 (V6 m ρ) c)
  have e46 : (V6 m ρ c main_v46 : S100000x64.Idx → EReal) = oK m c := W6_v46 m ρ c
  have e49 : (V6 m ρ c main_v49 : S1x64.Idx → EReal) = Host.divf (F := Ideal) (W5 m ρ c (Proc.devRef .tc main_v47_0)) (broadcastInDim S1x64 ![] bcast_S_S1x64 (constant (F := Ideal) S_ .f32 0x47C35000#32)) := v49_of (W5 m ρ c)
  have e53 : (V6 m ρ c main_v53 : S1x64.Idx → EReal)
      = subf (Host.divf (F := Ideal) (W5 m ρ c (Proc.devRef .tc main_v47_1)) (broadcastInDim S1x64 ![] bcast_S_S1x64 (constant (F := Ideal) S_ .f32 0x47C35000#32)))
          (mulf (Host.divf (F := Ideal) (W5 m ρ c (Proc.devRef .tc main_v47_0)) (broadcastInDim S1x64 ![] bcast_S_S1x64 (constant (F := Ideal) S_ .f32 0x47C35000#32)))
            (Host.divf (F := Ideal) (W5 m ρ c (Proc.devRef .tc main_v47_0)) (broadcastInDim S1x64 ![] bcast_S_S1x64 (constant (F := Ideal) S_ .f32 0x47C35000#32)))) := v53_of (W5 m ρ c)
  have e54 : (V6 m ρ c main_v54 : S1x64.Idx → EReal) = shapeCast S1x64 (m ((c : Thread nD τ).loc main_arg4) : S64.Idx → EReal) shapeCasts_S64_S1x64 :=
    (v54_of (W5 m ρ c)).trans (by rw [W5_main_arg4])
  have e55 : (V6 m ρ c main_v55 : S1x64.Idx → EReal) = shapeCast S1x64 (m ((c : Thread nD τ).loc main_arg5) : S64.Idx → EReal) shapeCasts_S64_S1x64 :=
    (v55_of (W5 m ρ c)).trans (by rw [W5_main_arg5])
  rw [h7, e46, e49, e53, e54, e55]
  exact kernel_tail (oK m c) _ _ _ _ (W5_sum m ρ c) (W5_sumsq m ρ c) r q

end Cert.KernelIdeal.HandValue

end
-- ==== Proof.RefValueTail.lean ====
/-
  The reference's tail read at an index: at row r and column q the batch normalisation's entry is the textbook one,
  (o(r,q) − mean q) · rsqrt(var q + eps) · γ q + β q rectified, with mean q = (Σ_r o(r,q)) / 100000 and var q the mean of the
  squared deviations from it. Each host operation is read at the index: a row broadcast [64] → [1,64] → [100000,64] reads its
  column, a sum along the rows from the zero word is the finite sum over the 100000 rows, the divisor word 0x47C35000 is the
  real number 100000, the host's reciprocal root is the ideal one, the last maximum is taken with the zero word.
-/
import proofs.«167319_j89876485636648_1_alg».proof.Proof.RefSpec
import proofs.«167319_j89876485636648_1_alg».proof.Proof.TailSpec
import Idealize.ShloMosaic.Lib.ValueLayout
import Idealize.ShloMosaic.PureOps.Ideal.Laws

noncomputable section

namespace Cert.ReferenceIdeal.RefValue

open Cert.ReferenceIdeal Cert.ReferenceIdeal.Gen Idealize.ShloMosaic Idealize.ShloMosaic.ValueIdx

/-- The f32 word 0x47C35000 (sign 0, exponent 143, significand 1 + 4411392 / 2^23) denotes the real number 100000. -/
theorem ofBits_100000 : Ideal.ofBits .f32 0x47C35000#32 = ((100000 : ℝ) : EReal) := by
  simp [Ideal.ofBits, Ideal.ieee, -EReal.coe_mul]; norm_num

/-- A row of 64 entries broadcast to one row and then over the 100000 rows reads, at (r, q), its entry q. -/
theorem bcastRow_apply {α : Type} (x : S64.Idx → α) (h1 : S64.BroadcastsInDim S1x64 (![1] : Fin 1 → Fin S1x64.rank))
    (h2 : S1x64.BroadcastsInDim S100000x64 (![0, 1] : Fin 2 → Fin S100000x64.rank)) (r : Fin 100000) (q : Fin 64) :
    broadcastInDim S100000x64 ![0, 1] h2 (broadcastInDim S1x64 ![1] h1 x) (ix2 r q) = x (ix1 q) := by
  refine (broadcastInDim_apply _ h2 _ (ix2 r q) (ix2 (0 : Fin 1) q) fun a => ?_).trans ?_
  · match a with
    | ⟨0, _⟩ => rfl
    | ⟨1, _⟩ => rfl
  · refine broadcastInDim_apply _ h1 x _ (ix1 q) fun a => ?_
    match a with
    | ⟨0, _⟩ => rfl

/-- A scalar splat over the 64 columns reads the scalar everywhere. -/
theorem bcastScalar64_apply {α : Type} (x : S_.Idx → α) (h : S_.BroadcastsInDim S64 (![] : Fin 0 → Fin S64.rank)) (j : S64.Idx) :
    broadcastInDim S64 ![] h x j = x ix0 :=
  broadcastInDim_apply _ h x j ix0 fun a => a.elim0

/-- A scalar splat over the whole array reads the scalar everywhere. -/
theorem bcastScalarA_apply {α : Type} (x : S_.Idx → α) (h : S_.BroadcastsInDim S100000x64 (![] : Fin 0 → Fin S100000x64.rank))
    (j : S100000x64.Idx) : broadcastInDim S100000x64 ![] h x j = x ix0 :=
  broadcastInDim_apply _ h x j ix0 fun a => a.elim0

/-- The reduced index q with row k put back is (k, q). -/
theorem lift_rows (h : S100000x64.Reduces [0] S64) (q : Fin 64) (k : Fin (S100000x64.size 0)) :
    h.lift (ix1 q) k = ix2 (⟨k.val, k.isLt⟩ : Fin 100000) q := by
  funext c; apply Fin.ext
  fin_cases c <;> rfl

/-- The host's sum along the rows from the zero word, at column q, is the sum of the column's 100000 entries. -/
theorem reduceRows_apply (x : FVec Ideal S100000x64 .f32) (h' : S100000x64.ReducesTo [0] S64) (hu : 0 < S_.numel) (q : Fin 64) :
    Host.reduceAdd (F := Ideal) x (constant (F := Ideal) S_ .f32 0x00000000#32) h' hu (ix1 q) = ∑ r : Fin 100000, x (ix2 r q) := by
  have h : S100000x64.Reduces [0] S64 := by decide
  show Ideal.hostReduceAdd h' x (Ideal.ofBits .f32 0x00000000#32) (ix1 q) = _
  rw [Ideal.hostReduceAdd_single h' h, Ideal.ofBits_zero_f32, zero_add]
  exact Finset.sum_congr rfl fun k _ => congrArg x (lift_rows h q k)

/-- The host's quotient at an index is the ideal quotient of the entries. -/
theorem hostDivf_apply {s : Shape} {φ : FTy} (a b : FVec Ideal s φ) (i : s.Idx) : Host.divf a b i = Ideal.div (a i) (b i) := rfl

/-- The host's reciprocal root at an index is the ideal one of the entry. -/
theorem hostRsqrt_apply {s : Shape} {φ : FTy} (a : FVec Ideal s φ) (i : s.Idx) : Host.rsqrt a i = Ideal.rsqrt (a i) := rfl

/-- The row of column means as the reference computes it — the sum along the rows divided by the splat of the word
    0x47C35000 — is, at column q, the column mean. -/
theorem mean_apply (o : FVec Ideal S100000x64 .f32) (h' : S100000x64.ReducesTo [0] S64) (hu : 0 < S_.numel)
    (hb : S_.BroadcastsInDim S64 (![] : Fin 0 → Fin S64.rank)) (q : Fin 64) :
    Host.divf (F := Ideal) (Host.reduceAdd (F := Ideal) o (constant (F := Ideal) S_ .f32 0x00000000#32) h' hu)
      (broadcastInDim S64 ![] hb (constant (F := Ideal) S_ .f32 0x47C35000#32)) (ix1 q) = Cert.TailSpec.mean o q := by
  rw [hostDivf_apply, reduceRows_apply, bcastScalar64_apply, constant_apply, ofBits_100000]
  rfl

/-- The deviation from a broadcast row, at (r, q). -/
theorem dev_apply (o : FVec Ideal S100000x64 .f32) (M : FVec Ideal S64 .f32)
    (h1 : S64.BroadcastsInDim S1x64 (![1] : Fin 1 → Fin S1x64.rank))
    (h2 : S1x64.BroadcastsInDim S100000x64 (![0, 1] : Fin 2 → Fin S100000x64.rank)) (r : Fin 100000) (q : Fin 64) :
    subf o (broadcastInDim S100000x64 ![0, 1] h2 (broadcastInDim S1x64 ![1] h1 M)) (ix2 r q) = o (ix2 r q) - M (ix1 q) := by
  rw [subf_apply, bcastRow_apply]

/-- The row of variances as the reference computes it — the squares of an array D of deviations from the column means summed
    along the rows and divided by the splat of the word 0x47C35000 — is, at column q, the two-pass variance. -/
theorem var_apply (o D : FVec Ideal S100000x64 .f32)
    (hD : ∀ (r : Fin 100000) (q : Fin 64), D (ix2 r q) = o (ix2 r q) - Cert.TailSpec.mean o q)
    (h' : S100000x64.ReducesTo [0] S64) (hu : 0 < S_.numel) (hb : S_.BroadcastsInDim S64 (![] : Fin 0 → Fin S64.rank)) (q : Fin 64) :
    Host.divf (F := Ideal) (Host.reduceAdd (F := Ideal) (mulf D D) (constant (F := Ideal) S_ .f32 0x00000000#32) h' hu)
      (broadcastInDim S64 ![] hb (constant (F := Ideal) S_ .f32 0x47C35000#32)) (ix1 q) = Cert.TailSpec.varTwoPass o q := by
  rw [hostDivf_apply, reduceRows_apply, bcastScalar64_apply, constant_apply, ofBits_100000]
  simp only [mulf_apply, hD]
  rfl

/-- THE TAIL AT (r, q): the normalised, scaled, shifted and rectified entry over the two-pass variance. -/
theorem tail_apply (o : FVec Ideal Cert.ReferenceIdeal.S100000x64 .f32) (γ β : FVec Ideal Cert.ReferenceIdeal.S64 .f32)
    (r : Fin 100000) (q : Fin 64) :
    Cert.ReferenceIdeal.Spec.tail (F := Ideal) o γ β (ValueIdx.ix2 r q)
      = Cert.TailSpec.normRelu (Cert.TailSpec.varTwoPass o) o (fun q => γ (ValueIdx.ix1 q)) (fun q => β (ValueIdx.ix1 q)) r q := by
  unfold Cert.ReferenceIdeal.Spec.tail
  simp only [maximumf_apply, addf_apply, mulf_apply]
  rw [dev_apply, bcastRow_apply, bcastRow_apply γ, bcastRow_apply β, bcastScalarA_apply, constant_apply, Ideal.ofBits_zero_f32,
    hostRsqrt_apply, addf_apply, var_apply o _ (fun r q => (dev_apply o _ _ _ r q).trans (congrArg (o (ix2 r q) - ·) (mean_apply o _ _ _ q))), mean_apply, bcastScalar64_apply, constant_apply]
  rfl

end Cert.ReferenceIdeal.RefValue

end
-- ==== Proof.RefValueAgg.lean ====
/-
  Every entry of the aggregated array is a real number when the projected rows h and the bias b have real entries. The
  aggregation only gathers, multiplies, adds, and sums finitely many entries, and takes reciprocal roots of degrees: a degree is
  the zero word plus a finite sum of the word 1.0, so it is real; where it is positive its reciprocal root is the real
  (√deg)⁻¹, and where it is not the select takes the zero word instead. The integer index arrays need no property: a gather's
  entry is an entry of its operand whatever the index, and an accumulating scatter's entry is the operand's plus a finite sum
  of update entries whatever the indices.
-/
import proofs.«167319_j89876485636648_1_alg».proof.Proof.RefSpec
import proofs.«167319_j89876485636648_1_alg».proof.Proof.LibRealClosed
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx LibRealClosed

/-- The f32 word 0x3F800000 (sign 0, exponent 127, significand 1) denotes the real number 1. -/
theorem ofBits_one_isReal : IsReal (Ideal.ofBits .f32 0x3F800000#32) := by
  refine ⟨1, ?_⟩
  simp [Ideal.ofBits, Ideal.ieee, -EReal.coe_mul]; norm_num

/-- The zero word denotes the real number 0. -/
theorem ofBits_zero_isReal : IsReal (Ideal.ofBits .f32 0x00000000#32) := by
  rw [Ideal.ofBits_zero_f32]; exact IsReal.zero

/-- A sum of arrays with real entries has real entries. -/
theorem addf_isReal {s : Shape} {φ : FTy} (a b : FVec Ideal s φ) (ha : ∀ i, IsReal (a i)) (hb : ∀ i, IsReal (b i)) (i : s.Idx) :
    IsReal (addf a b i) := (ha i).add (hb i)

/-- A product of arrays with real entries has real entries. -/
theorem mulf_isReal {s : Shape} {φ : FTy} (a b : FVec Ideal s φ) (ha : ∀ i, IsReal (a i)) (hb : ∀ i, IsReal (b i)) (i : s.Idx) :
    IsReal (mulf a b i) := (ha i).mul (hb i)

/-- A broadcast's entry is an entry of its operand. -/
theorem bcast_isReal {s t : Shape} (dims : Fin s.rank → Fin t.rank) (h : s.BroadcastsInDim t dims) (x : s.Idx → EReal)
    (hx : ∀ i, IsReal (x i)) (j : t.Idx) : IsReal (broadcastInDim t dims h x j) := hx _

/-- A splat of a word that denotes a real number has real entries. -/
theorem splat_isReal {t : Shape} (hb : S_.BroadcastsInDim t (![] : Fin 0 → Fin t.rank)) (w : BitVec 32)
    (hw : IsReal (Ideal.ofBits .f32 w)) (j : t.Idx) :
    IsReal (broadcastInDim t ![] hb (constant (F := Ideal) S_ .f32 w) j) := hw

/-- A gather's entry is an entry of its operand. -/
theorem hostGather_isReal {s si t : Shape} {w : Nat} (d : GatherDims s si t) (x : s.Idx → EReal) (idx : IVec si w)
    (hx : ∀ i, IsReal (x i)) (j : t.Idx) : IsReal (Host.gather d x idx j) := hx _

/-- The host's accumulating scatter: the operand's entry plus a finite sum of update entries. -/
theorem hostScatter_isReal {s si su : Shape} {φ : FTy} (d : ScatterDims s si su) {w : Nat} (x : FVec Ideal s φ) (idx : IVec si w)
    (upd : FVec Ideal su φ) (hx : ∀ i, IsReal (x i)) (hu : ∀ j, IsReal (upd j)) (i : s.Idx) :
    IsReal (Host.scatterAdd (F := Ideal) d x idx upd i) :=
  hostScatterAdd_isReal d x idx upd hx hu i

/-- The reciprocal root of a positive real number is a real number. -/
theorem rsqrt_isReal_of_pos {d : EReal} (hd : IsReal d) (hpos : 0 < d) : IsReal (Ideal.rsqrt d) := by
  obtain ⟨r, rfl⟩ := hd
  have hr : 0 < r := by exact_mod_cast hpos
  rw [Ideal.rsqrt_coe, if_neg (not_lt.2 hr.le), if_neg hr.ne']
  exact IsReal.coe _

/-- The guarded reciprocal root: where the entry d of a real array exceeds the zero word its reciprocal root, elsewhere the
    entry of another real array. Either way a real number. -/
theorem guardedRsqrt_isReal {s : Shape} (deg zeros other : FVec Ideal s .f32) (hdeg : ∀ i, IsReal (deg i))
    (hz : ∀ i, zeros i = 0) (ho : ∀ i, IsReal (other i)) (i : s.Idx) :
    IsReal (select (cmpf (F := Ideal) .ogt deg zeros) (Host.rsqrt (F := Ideal) deg) other i) := by
  show IsReal (Scalar.select (Ideal.cmp .ogt (deg i) (zeros i)) (Ideal.rsqrt (deg i)) (other i))
  rw [hz i]
  by_cases hpos : (0 : EReal) < deg i
  · have hc : Ideal.cmp .ogt (deg i) 0 = 1#1 := by simp [Ideal.cmp, hpos]
    rw [hc, select_one]
    exact rsqrt_isReal_of_pos (hdeg i) hpos
  · have hc : Ideal.cmp .ogt (deg i) 0 = 0#1 := by simp [Ideal.cmp, hpos]
    rw [hc, select_zero]
    exact ho i

/-- THE AGGREGATION HAS REAL ENTRIES when the projected rows and the bias do. -/
theorem agg_isReal (h : FVec Ideal Cert.ReferenceIdeal.S100000x64 .f32) (e : IVec Cert.ReferenceIdeal.S2x1600000 32)
    (b : FVec Ideal Cert.ReferenceIdeal.S64 .f32) (hh : ∀ i, LibRealClosed.IsReal (h i)) (hb : ∀ i, LibRealClosed.IsReal (b i)) :
    ∀ i, LibRealClosed.IsReal (Cert.ReferenceIdeal.Spec.agg (F := Ideal) h e b i) := by
  unfold Cert.ReferenceIdeal.Spec.agg
  -- the degree: the zero splat plus a finite sum of the word 1.0
  have hdeg : ∀ (idx : IVec S1700000x1 32) (i : S100000.Idx),
      IsReal (Host.scatterAdd (F := Ideal) scatter_S100000_S1700000x1_S1700000_n_0_0_1
        (broadcastInDim S100000 ![] bcast_S_S100000 (constant (F := Ideal) S_ .f32 0x00000000#32)) idx
        (broadcastInDim S1700000 ![] bcast_S_S1700000 (constant (F := Ideal) S_ .f32 0x3F800000#32)) i) := fun idx =>
    hostScatter_isReal _ _ idx _ (splat_isReal _ _ ofBits_zero_isReal) (splat_isReal _ _ ofBits_one_isReal)
  -- its guarded reciprocal root
  have hdinv : ∀ (idx : IVec S1700000x1 32) (i : S100000.Idx), IsReal (select
      (cmpf (F := Ideal) .ogt (Host.scatterAdd (F := Ideal) scatter_S100000_S1700000x1_S1700000_n_0_0_1
        (broadcastInDim S100000 ![] bcast_S_S100000 (constant (F := Ideal) S_ .f32 0x00000000#32)) idx
        (broadcastInDim S1700000 ![] bcast_S_S1700000 (constant (F := Ideal) S_ .f32 0x3F800000#32)))
        (broadcastInDim S100000 ![] bcast_S_S100000 (constant (F := Ideal) S_ .f32 0x00000000#32)))
      (Host.rsqrt (F := Ideal) (Host.scatterAdd (F := Ideal) scatter_S100000_S1700000x1_S1700000_n_0_0_1
        (broadcastInDim S100000 ![] bcast_S_S100000 (constant (F := Ideal) S_ .f32 0x00000000#32)) idx
        (broadcastInDim S1700000 ![] bcast_S_S1700000 (constant (F := Ideal) S_ .f32 0x3F800000#32))))
      (broadcastInDim S100000 ![] bcast_S_S100000 (id (constant (F := Ideal) S_ .f32 0x00000000#32))) i) := fun idx =>
    guardedRsqrt_isReal _ _ _ (hdeg idx) (fun _ => Ideal.ofBits_zero_f32) (splat_isReal _ _ ofBits_zero_isReal)
  exact addf_isReal _ _
    (hostScatter_isReal _ _ _ _ (splat_isReal _ _ ofBits_zero_isReal)
      (mulf_isReal _ _ (hostGather_isReal _ _ _ hh)
        (bcast_isReal _ _ _ (bcast_isReal _ _ _
          (mulf_isReal _ _ (hostGather_isReal _ _ _ (hdinv _)) (hostGather_isReal _ _ _ (hdinv _)))))))
    (bcast_isReal _ _ _ (bcast_isReal _ _ _ hb))

end Cert.ReferenceIdeal.RefValue

end
-- ==== Proof.RefValuePre.lean ====
/-
  From the printed precondition to real entries. The precondition is the conjunction, array by array, of "every entry has
  absolute value below +∞": a comparison of max(v, −v) with the word 0x7F800000 (which denotes +∞), reduced by "and" over the
  whole array from the bit 1, and the five results joined by "and". When the conjunction is the bit 1, every comparison is the
  bit 1 at every index, and an extended real whose absolute value is below +∞ is neither infinity: it is a real number.
-/
import proofs.«167319_j89876485636648_1_alg».proof.Pre_finite_inputs
import proofs.«167319_j89876485636648_1_alg».proof.Proof.LibRealClosed
import Idealize.ShloMosaic.Lib.ReduceAll
import Idealize.ShloMosaic.Lib.ValueIdx

noncomputable section

namespace Cert.ReferenceIdeal.RefValue

open Idealize.ShloMosaic Idealize.ShloMosaic.ValueIdx LibRealClosed

/-- The scalar shape has one index. -/
instance subsingleton_scalarIdx : Subsingleton Cert.Pre_finite_inputs.S_.Idx := ⟨fun a b => funext fun d => d.elim0⟩

/-- The f32 word 0x7F800000 (sign 0, exponent all ones, significand 0) denotes +∞. -/
theorem ofBits_inf : Ideal.ofBits .f32 0x7F800000#32 = (⊤ : EReal) := by
  simp [Ideal.ofBits, Ideal.ieee]

/-- An extended real whose absolute value max(v, −v) compares below +∞ is a real number. -/
theorem isReal_of_abs_lt_inf (v : EReal)
    (h : Ideal.cmp .olt (max v (-v)) (Ideal.ofBits .f32 0x7F800000#32) = 1#1) : IsReal v := by
  rw [ofBits_inf] at h
  induction v using EReal.rec with
  | bot => simp [Ideal.cmp] at h
  | coe r => exact ⟨r, rfl⟩
  | top => simp [Ideal.cmp] at h

/-- One array's clause: if "all |v| < +∞" came out as the bit 1, every entry of v is real. -/
theorem all_real {s : Shape} {axes : List (Fin s.rank)} (v : FVec Ideal s .f32)
    (hb : Cert.Pre_finite_inputs.S_.BroadcastsInDim s (![] : Fin 0 → Fin s.rank))
    (h' : s.ReducesTo axes Cert.Pre_finite_inputs.S_) (hu : 0 < Cert.Pre_finite_inputs.S_.numel)
    (init : IVec Cert.Pre_finite_inputs.S_ 1) (j : Cert.Pre_finite_inputs.S_.Idx)
    (e : Host.reduce IntOp.andi
      (cmpf (F := Ideal) .olt (Host.absf (F := Ideal) v)
        (broadcastInDim s ![] hb (constant (F := Ideal) Cert.Pre_finite_inputs.S_ .f32 0x7F800000#32))) init h' hu j = 1#1)
    (i : s.Idx) : IsReal (v i) :=
  isReal_of_abs_lt_inf (v i) (Host.reduce_andi_all _ init h' hu j e i)

/-- THE PRECONDITION READ BACK: when the printed predicate of the six argument arrays is all ones, every entry of the five
    float arrays is a real number. -/
theorem pre_real [Cert.Pre_finite_inputs.Facts] (x : FVec Ideal Cert.Pre_finite_inputs.S100000x64 .f32)
    (e : IVec Cert.Pre_finite_inputs.S2x1600000 32) (w : FVec Ideal Cert.Pre_finite_inputs.S64x64 .f32)
    (b γ β : FVec Ideal Cert.Pre_finite_inputs.S64 .f32)
    (h : Cert.Pre_finite_inputs.fn (F := Ideal) x e w b γ β = (fun _ => 1#1)) :
    (∀ i, IsReal (x i)) ∧ (∀ i, IsReal (w i)) ∧ (∀ i, IsReal (b i)) ∧ (∀ i, IsReal (γ i)) ∧ (∀ i, IsReal (β i)) := by
  have h0 := congrFun h ix0
  dsimp only [Cert.Pre_finite_inputs.fn, Cert.Pre_finite_inputs.fn_part1, andi] at h0
  obtain ⟨h1, hβ⟩ := IntOp.andi_eq_one.1 h0
  obtain ⟨h2, hγ⟩ := IntOp.andi_eq_one.1 h1
  obtain ⟨h3, hb⟩ := IntOp.andi_eq_one.1 h2
  obtain ⟨hx, hw⟩ := IntOp.andi_eq_one.1 h3
  exact ⟨all_real x _ _ _ _ _ hx, all_real w _ _ _ _ _ hw, all_real b _ _ _ _ _ hb, all_real γ _ _ _ _ _ hγ,
    all_real β _ _ _ _ _ hβ⟩

end Cert.ReferenceIdeal.RefValue

end
-- ==== Proof.RefValue.lean ====
/-
  The reference-side value lemmas, gathered: the tail read at an index (tail_apply), the aggregation's entries real
  (agg_isReal), and the printed precondition read back as "every entry of the five float arrays is real" (pre_real).
-/
import proofs.«167319_j89876485636648_1_alg».proof.Proof.RefValueTail
import proofs.«167319_j89876485636648_1_alg».proof.Proof.RefValueAgg
import proofs.«167319_j89876485636648_1_alg».proof.Proof.RefValuePre
-- ==== Proof.DotBridge.lean ====
/-
  The reference's projection is the kernel's: the host's general dot of x [100000, 64] with w [64, 64], contracting x's axis 1
  with w's axis 0 and no batch axis, is at (r, q) the sum over the 64 contracted columns k of x(r, k) · w(k, q) — the array the
  kernel's first region leaves. The contraction index has one axis of extent 64; re-indexing the sum through its one coordinate
  gives the sum over Fin 64, and the operand indices at output (r, q) and contraction k are (r, k) and (k, q).
-/
import proofs.«167319_j89876485636648_1_alg».proof.Proof.ValueA0
import proofs.«167319_j89876485636648_1_alg».proof.Proof.RefSpec
import Idealize.ShloMosaic.Lib.ValueIdx
import Idealize.ShloMosaic.PureOps.Ideal.Laws

noncomputable section

namespace Cert.ReferenceIdeal.RefValue

open Cert.ReferenceIdeal Cert.ReferenceIdeal.Gen Idealize.ShloMosaic Idealize.ShloMosaic.ValueIdx

/-! ## The projection's operand indices -/

theorem refLhs_0 (i : S100000x64.Idx) (κ : dot_S100000x64_S64x64_S100000x64_1_0_0_1_n_n.contr.Idx) :
    (dot_S100000x64_S64x64_S100000x64_1_0_0_1_n_n.lhsIdx i κ 0).val = (i 0).val := by
  unfold DotDims.lhsIdx
  rw [dif_neg (show ¬(0 : Fin S100000x64.rank) ∈ dot_S100000x64_S64x64_S100000x64_1_0_0_1_n_n.lhsBatch by decide),
    dif_pos (show (0 : Fin S100000x64.rank) ∈ dot_S100000x64_S64x64_S100000x64_1_0_0_1_n_n.lhsNonContracting by decide)]
  rfl

theorem refLhs_1 (i : S100000x64.Idx) (κ : dot_S100000x64_S64x64_S100000x64_1_0_0_1_n_n.contr.Idx) :
    (dot_S100000x64_S64x64_S100000x64_1_0_0_1_n_n.lhsIdx i κ 1).val = (κ ⟨0, by decide⟩).val :=
  dot_S100000x64_S64x64_S100000x64_1_0_0_1_n_n.lhsIdx_val_of_single rfl i κ

theorem refRhs_0 (i : S100000x64.Idx) (κ : dot_S100000x64_S64x64_S100000x64_1_0_0_1_n_n.contr.Idx) :
    (dot_S100000x64_S64x64_S100000x64_1_0_0_1_n_n.rhsIdx i κ 0).val = (κ ⟨0, by decide⟩).val :=
  dot_S100000x64_S64x64_S100000x64_1_0_0_1_n_n.rhsIdx_val_of_single rfl i κ

theorem refRhs_1 (i : S100000x64.Idx) (κ : dot_S100000x64_S64x64_S100000x64_1_0_0_1_n_n.contr.Idx) :
    (dot_S100000x64_S64x64_S100000x64_1_0_0_1_n_n.rhsIdx i κ 1).val = (i 1).val := by
  unfold DotDims.rhsIdx
  rw [dif_neg (show ¬(1 : Fin S64x64.rank) ∈ dot_S100000x64_S64x64_S100000x64_1_0_0_1_n_n.rhsBatch by decide),
    dif_pos (show (1 : Fin S64x64.rank) ∈ dot_S100000x64_S64x64_S100000x64_1_0_0_1_n_n.rhsNonContracting by decide)]
  rfl

/-- The projection at (r, q): the sum over the contracted columns. -/
theorem dot_apply (x : FVec Ideal S100000x64 .f32) (w : FVec Ideal S64x64 .f32) (r : Fin 100000) (q : Fin 64) :
    Host.dotGeneral (F := Ideal) dot_S100000x64_S64x64_S100000x64_1_0_0_1_n_n none x w (ix2 r q)
      = ∑ k : Fin 64, x (ix2 r k) * w (ix2 k q) := by
  simp only [Host.dotGeneral]
  rw [Ideal.dotGeneral_apply, ← Equiv.sum_comp (ValueIdx.contrEquiv1 dot_S100000x64_S64x64_S100000x64_1_0_0_1_n_n 64 rfl rfl).symm]
  refine Finset.sum_congr rfl fun k _ => ?_
  have hk := ValueIdx.contrEquiv1_symm_val dot_S100000x64_S64x64_S100000x64_1_0_0_1_n_n 64 rfl rfl k
  have el : dot_S100000x64_S64x64_S100000x64_1_0_0_1_n_n.lhsIdx (ix2 r q)
      ((ValueIdx.contrEquiv1 dot_S100000x64_S64x64_S100000x64_1_0_0_1_n_n 64 rfl rfl).symm k) = ix2 r k :=
    funext fun a => Fin.ext (by
      match a with
      | ⟨0, _⟩ => exact refLhs_0 _ _
      | ⟨1, _⟩ => exact (refLhs_1 _ _).trans hk)
  have er : dot_S100000x64_S64x64_S100000x64_1_0_0_1_n_n.rhsIdx (ix2 r q)
      ((ValueIdx.contrEquiv1 dot_S100000x64_S64x64_S100000x64_1_0_0_1_n_n 64 rfl rfl).symm k) = ix2 k q :=
    funext fun a => Fin.ext (by
      match a with
      | ⟨0, _⟩ => exact (refRhs_0 _ _).trans hk
      | ⟨1, _⟩ => exact refRhs_1 _ _)
  rw [el, er]

/-- THE REFERENCE'S PROJECTION IS THE ARRAY THE KERNEL'S FIRST REGION LEAVES. -/
theorem dot_eq (x : FVec Ideal Cert.ReferenceIdeal.S100000x64 .f32) (w : FVec Ideal Cert.ReferenceIdeal.S64x64 .f32) :
    Host.dotGeneral (F := Ideal) Cert.ReferenceIdeal.dot_S100000x64_S64x64_S100000x64_1_0_0_1_n_n none x w
      = Cert.KernelIdeal.HandValue.G0 x w := by
  funext i
  obtain ⟨r, q, rfl⟩ : ∃ (r : Fin 100000) (q : Fin 64), i = ix2 r q := ⟨i 0, i 1, eq_ix2 i⟩
  rw [dot_apply]
  rfl

end Cert.ReferenceIdeal.RefValue

end
-- ==== Proof.Bridge.lean ====
/-
  The two results are one array.

  At the ideal instance the kernel's result at (r, q) is the normalised entry over the ONE-PASS variance of the aggregated
  array o (`kernel_value`), the reference's the same over the TWO-PASS variance of the same o (`tail_apply`: the reference's
  projected rows are the kernel's, a general dot against a row-by-column sum, `dot_eq`; the aggregation is the same chain of
  operations). Under the precondition every argument entry is a real number (`pre_real`), so every entry of the product and
  of the aggregated array is (`agg_isReal`), and for real entries the two variances are one number (`normRelu_var`).
-/
import proofs.«167319_j89876485636648_1_alg».proof.Proof.KernelValue
import proofs.«167319_j89876485636648_1_alg».proof.Proof.RefValue
import proofs.«167319_j89876485636648_1_alg».proof.Proof.DotBridge
import proofs.«167319_j89876485636648_1_alg».proof.Proof.Gen.Pre_finite_inputs

set_option maxRecDepth 16384

noncomputable section

namespace Cert.Proof.Bridge

open Idealize.ShloMosaic Idealize.ShloMosaic.TcCoe Idealize.ShloMosaic.ValueIdx Idealize.SL.Sem LibRealClosed
open Cert.KernelIdeal.Hand Cert.KernelIdeal.HandValue

/-- Every entry of the row-by-column sums of real arrays is real. -/
theorem G0_isReal (xa : Cert.KernelIdeal.S100000x64.Idx → EReal) (wa : Cert.KernelIdeal.S64x64.Idx → EReal) (hx : ∀ i, IsReal (xa i)) (hw : ∀ i, IsReal (wa i)) :
    ∀ i, IsReal (G0 xa wa i) := fun i => by
  unfold G0
  exact IsReal.sum _ _ fun k _ => (hx _).mul (hw _)

/-- THE BRIDGE on one core: with finite arguments, agreeing memories, the kernel's result array is the reference's result term. -/
theorem result_eq (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) = (fun _ => 1#1))
    (h0 : (m' ((c.tc : Thread Cert.ReferenceIdeal.nD Cert.ReferenceIdeal.τ).loc Cert.ReferenceIdeal.main_arg0)) = (m ((c.tc : Thread Cert.KernelIdeal.nD Cert.KernelIdeal.τ).loc Cert.KernelIdeal.main_arg0))) (h1 : (m' ((c.tc : Thread Cert.ReferenceIdeal.nD Cert.ReferenceIdeal.τ).loc Cert.ReferenceIdeal.main_arg1)) = (m ((c.tc : Thread Cert.KernelIdeal.nD Cert.KernelIdeal.τ).loc Cert.KernelIdeal.main_arg1)))
    (h2 : (m' ((c.tc : Thread Cert.ReferenceIdeal.nD Cert.ReferenceIdeal.τ).loc Cert.ReferenceIdeal.main_arg2)) = (m ((c.tc : Thread Cert.KernelIdeal.nD Cert.KernelIdeal.τ).loc Cert.KernelIdeal.main_arg2))) (h3 : (m' ((c.tc : Thread Cert.ReferenceIdeal.nD Cert.ReferenceIdeal.τ).loc Cert.ReferenceIdeal.main_arg3)) = (m ((c.tc : Thread Cert.KernelIdeal.nD Cert.KernelIdeal.τ).loc Cert.KernelIdeal.main_arg3)))
    (h4 : (m' ((c.tc : Thread Cert.ReferenceIdeal.nD Cert.ReferenceIdeal.τ).loc Cert.ReferenceIdeal.main_arg4)) = (m ((c.tc : Thread Cert.KernelIdeal.nD Cert.KernelIdeal.τ).loc Cert.KernelIdeal.main_arg4))) (h5 : (m' ((c.tc : Thread Cert.ReferenceIdeal.nD Cert.ReferenceIdeal.τ).loc Cert.ReferenceIdeal.main_arg5)) = (m ((c.tc : Thread Cert.KernelIdeal.nD Cert.KernelIdeal.τ).loc Cert.KernelIdeal.main_arg5))) :
    W7 m ρ c (Proc.devRef .tc Cert.KernelIdeal.main_v56) = Cert.ReferenceIdeal.ValueP.res_main_v72 m' c := by
  obtain ⟨hx, hw, hb, hγ, hβ⟩ := Cert.ReferenceIdeal.RefValue.pre_real _ _ _ _ _ _ hpre
  have ho : ∀ i, IsReal (oK m c i) := Cert.ReferenceIdeal.RefValue.agg_isReal _ _ _ (G0_isReal _ _ hx hw) hb
  rw [Cert.ReferenceIdeal.Spec.res_eq, h0, h1, h2, h3, h4, h5, Cert.ReferenceIdeal.RefValue.dot_eq]
  funext i
  obtain ⟨r, q, rfl⟩ : ∃ (r : Fin 100000) (q : Fin 64), i = ix2 r q := ⟨i 0, i 1, eq_ix2 i⟩
  refine (kernel_value m ρ c r q).trans ?_
  refine (Cert.TailSpec.normRelu_var (oK m c) ho _ _ r q).symm.trans ?_
  exact (Cert.ReferenceIdeal.RefValue.tail_apply _ _ _ r q).symm

end Cert.Proof.Bridge

end
-- ==== Proof.lean ====
/-
  The certificate: both printed programs of the graph-convolution layer (the tiled projection x · W, the normalised
  neighbour aggregation with self loops and bias, batch normalisation over the 100000 nodes, rectification) run to the end,
  fault nowhere and leave their arguments as launched, as does the reference; the word-level kernel's idealization rewrote
  nothing; and at the ideal instance, from memories agreeing on the arguments, the kernel's result array and the reference's
  are equal entry by entry.

  The kernel's program is three pipelined regions among host operations: its run is assembled from one proof-data record per
  region (the projection and the normalisation store a whole output block per grid point; the statistics region carries two
  accumulator rows across its 20 points and writes its two outputs at the last), and the buffer contents are followed through
  the run to the result. The reference's run is its operations composed. The two results differ only in how the variance is
  computed — mean of squares less squared mean against mean of squared deviations — which is one number when every entry of
  the aggregated array is a real number, as it is under the precondition.
-/
import proofs.«167319_j89876485636648_1_alg».proof.Defs
import proofs.«167319_j89876485636648_1_alg».proof.Proof.Gen.Kernel
import proofs.«167319_j89876485636648_1_alg».proof.Proof.Gen.KernelIdeal
import proofs.«167319_j89876485636648_1_alg».proof.Proof.Gen.ReferenceIdeal
import proofs.«167319_j89876485636648_1_alg».proof.Proof.Gen.Pre_finite_inputs
import proofs.«167319_j89876485636648_1_alg».proof.Proof.KFrameRun
import proofs.«167319_j89876485636648_1_alg».proof.Proof.FrameRun
import proofs.«167319_j89876485636648_1_alg».proof.Proof.RefRun
import proofs.«167319_j89876485636648_1_alg».proof.Proof.Bridge
import Idealize.ShloMosaic.Adequacy
import Idealize.ShloMosaic.Init

noncomputable section

namespace Cert.Proof

open Idealize.ShloMosaic Idealize.ShloMosaic.TcCoe Idealize.SL.Sem

/-- The word-level kernel's frame. -/
theorem frame_k : Cert.frame_Kernel := fun m ρ _ => Cert.Kernel.Hand.frame m ρ

/-- The idealized kernel's frame. -/
theorem frame_ki : Cert.frame_KernelIdeal := fun m ρ _ => Cert.KernelIdeal.Hand.frame m ρ

/-- The reference's frame: its run with the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- The ideal pass rewrote nothing. -/
theorem preserves : Cert.preserves_Kernel_KernelIdeal := trivial

/-- At the ideal instance the kernel's run ends with its result array at the reference's result term of the agreeing
    arguments, which is where the reference's run ends. -/
theorem algebraic : Cert.algebraic_KernelIdeal_ReferenceIdeal := by
  intro m ρ m' ρ' hpre hagree
  refine ⟨fun c => Cert.ReferenceIdeal.ValueP.res_main_v72 m' c, ?_, Cert.ReferenceIdeal.ValueP.run (F := Ideal) m' ρ'⟩
  refine (θ_run Cert.KernelIdeal.defs _ _).mono (fun r h c => ?_) (Cert.KernelIdeal.Hand.run_all m ρ)
  obtain ⟨h0, h1, h2, h3, h4, h5⟩ := hagree c
  exact ⟨(h c _ (Cert.KernelIdeal.Hand.mem_uc Cert.KernelIdeal.main_v56 (by decide))).trans
      (Cert.Proof.Bridge.result_eq m ρ m' c (hpre c) h0 h1 h2 h3 h4 h5),
    (h c _ (Cert.KernelIdeal.Hand.mem_uc Cert.KernelIdeal.main_arg0 (by decide))).trans (Cert.KernelIdeal.Hand.W7_main_arg0 m ρ c),
    (h c _ (Cert.KernelIdeal.Hand.mem_uc Cert.KernelIdeal.main_arg1 (by decide))).trans (Cert.KernelIdeal.Hand.W7_main_arg1 m ρ c),
    (h c _ (Cert.KernelIdeal.Hand.mem_uc Cert.KernelIdeal.main_arg2 (by decide))).trans (Cert.KernelIdeal.Hand.W7_main_arg2 m ρ c),
    (h c _ (Cert.KernelIdeal.Hand.mem_uc Cert.KernelIdeal.main_arg3 (by decide))).trans (Cert.KernelIdeal.Hand.W7_main_arg3 m ρ c),
    (h c _ (Cert.KernelIdeal.Hand.mem_uc Cert.KernelIdeal.main_arg4 (by decide))).trans (Cert.KernelIdeal.Hand.W7_main_arg4 m ρ c),
    (h c _ (Cert.KernelIdeal.Hand.mem_uc Cert.KernelIdeal.main_arg5 (by decide))).trans (Cert.KernelIdeal.Hand.W7_main_arg5 m ρ c)⟩

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
